-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v51)) (v1 : (c : Dev Cert.KernelIdeal.nD) → Buf (Elt Ideal) ((c.tc : Thread Cert.KernelIdeal.nD Cert.KernelIdeal.τ).loc Cert.KernelIdeal.main_v50)) (v2 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_v50) = v1 c
          ∧ r.2.mem ((c.tc : Thread Cert.KernelIdeal.nD Cert.KernelIdeal.τ).loc Cert.KernelIdeal.main_v45) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_v77) = v1 c
          ∧ r.2.mem ((c.tc : Thread Cert.ReferenceIdeal.nD Cert.ReferenceIdeal.τ).loc Cert.ReferenceIdeal.main_v85) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S4096 : Shape := ⟨1, ![4096]⟩
abbrev S128x128 : Shape := ⟨2, ![128, 128]⟩
abbrev S128 : Shape := ⟨1, ![128]⟩
abbrev S128x2 : Shape := ⟨2, ![128, 2]⟩
abbrev S2 : Shape := ⟨1, ![2]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg6 : FVec F S128 .f32) (main_arg7 : FVec F S128x2 .f32) (main_arg8 : FVec F S2 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x2 .f32 := Host.absf main_arg7
  let main_cst_8 : FVec F S_ .f32 := constant S_ .f32 0x7F800000#32
  let main_v25 : FVec F S128x2 .f32 := broadcastInDim S128x2 ![] bcast_S_S128x2 main_cst_8
  let main_v26 : IVec S128x2 1 := cmpf .olt main_v24 main_v25
  let main_c_9 : IVec S_ 1 := constantI S_ 1 1#1
  let main_v27 : IVec S_ 1 := (fun x v => Host.reduce IntOp.andi x v reducesTo_S128x2_S_d0_1 h_S_) main_v26 main_c_9
  let main_v28 : IVec S_ 1 := andi main_v23 main_v27
  let main_v29 : FVec F S2 .f32 := Host.absf main_arg8
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : IVec S4096 32) (main_arg3 : FVec F S128x128 .f32) (main_arg4 : FVec F S128 .f32) (main_arg5 : FVec F S128x128 .f32) (main_arg6 : FVec F S128 .f32) (main_arg7 : FVec F S128x2 .f32) (main_arg8 : FVec F S2 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S100000x128 : Shape := ⟨2, ![100000, 128]⟩
abbrev S2x1600000 : Shape := ⟨2, ![2, 1600000]⟩
abbrev S4096 : Shape := ⟨1, ![4096]⟩
abbrev S128x128 : Shape := ⟨2, ![128, 128]⟩
abbrev S128 : Shape := ⟨1, ![128]⟩
abbrev S128x2 : Shape := ⟨2, ![128, 2]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S5000x128 : Shape := ⟨2, ![5000, 128]⟩
abbrev S5000x1 : Shape := ⟨2, ![5000, 1]⟩
abbrev S1600000x128 : Shape := ⟨2, ![1600000, 128]⟩
abbrev S1x128 : Shape := ⟨2, ![1, 128]⟩
abbrev S4096x1 : Shape := ⟨2, ![4096, 1]⟩
abbrev S4096x128 : Shape := ⟨2, ![4096, 128]⟩
abbrev S4096x2 : Shape := ⟨2, ![4096, 2]⟩
abbrev S1x2 : Shape := ⟨2, ![1, 2]⟩

abbrev nBuf : Space → Nat
  | .hbm => 88
  | .vmem => 26
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S4096, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x2, .f32⟩
  | .hbm, ⟨8, _⟩ => ⟨S2, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .f32⟩
  | .hbm, ⟨16, _⟩ => ⟨S1600000, .f32⟩
  | .hbm, ⟨17, _⟩ => ⟨S_, .f32⟩
  | .hbm, ⟨18, _⟩ => ⟨S100000, .f32⟩
  | .hbm, ⟨19, _⟩ => ⟨S1600000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000, .f32⟩
  | .hbm, ⟨25, _⟩ => ⟨S100000x1, .f32⟩
  | .hbm, ⟨26, _⟩ => ⟨S100000x128, .bf16⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000x128, .bf16⟩
  | .hbm, ⟨36, _⟩ => ⟨S1600000x128, .f32⟩
  | .hbm, ⟨37, _⟩ => ⟨S_, .f32⟩
  | .hbm, ⟨38, _⟩ => ⟨S100000x128, .f32⟩
  | .hbm, ⟨39, _⟩ => ⟨S1600000x1, .i32⟩
  | .hbm, ⟨40, _⟩ => ⟨S100000x128, .f32⟩
  | .hbm, ⟨41, _⟩ => ⟨S100000x128, .bf16⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x128, .bf16⟩
  | .hbm, ⟨51, _⟩ => ⟨S1600000x128, .f32⟩
  | .hbm, ⟨52, _⟩ => ⟨S_, .f32⟩
  | .hbm, ⟨53, _⟩ => ⟨S100000x128, .f32⟩
  | .hbm, ⟨54, _⟩ => ⟨S1600000x1, .i32⟩
  | .hbm, ⟨55, _⟩ => ⟨S100000x128, .f32⟩
  | .hbm, ⟨56, _⟩ => ⟨S100000x128, .f32⟩
  | .hbm, ⟨57, _⟩ => ⟨S_, .i32⟩
  | .hbm, ⟨58, _⟩ => ⟨S4096, .i32⟩
  | .hbm, ⟨59, _⟩ => ⟨S4096, .i1⟩
  | .hbm, ⟨60, _⟩ => ⟨S_, .i32⟩
  | .hbm, ⟨61, _⟩ => ⟨S4096, .i32⟩
  | .hbm, ⟨62, _⟩ => ⟨S4096, .i32⟩
  | .hbm, ⟨63, _⟩ => ⟨S4096, .i32⟩
  | .hbm, ⟨64, _⟩ => ⟨S4096x1, .i32⟩
  | .hbm, ⟨65, _⟩ => ⟨S4096x128, .f32⟩
  | .hbm, ⟨66, _⟩ => ⟨S4096x2, .f32⟩
  | .hbm, ⟨67, _⟩ => ⟨S1x2, .f32⟩
  | .hbm, ⟨68, _⟩ => ⟨S4096x2, .f32⟩
  | .hbm, ⟨69, _⟩ => ⟨S4096x2, .f32⟩
  | .hbm, ⟨70, _⟩ => ⟨S_, .f32⟩
  | .hbm, ⟨71, _⟩ => ⟨S4096x2, .f32⟩
  | .hbm, ⟨72, _⟩ => ⟨S4096x2, .f32⟩
  | .hbm, ⟨73, _⟩ => ⟨S_, .f32⟩
  | .hbm, ⟨74, _⟩ => ⟨S4096, .f32⟩
  | .hbm, ⟨75, _⟩ => ⟨S_, .f32⟩
  | .hbm, ⟨76, _⟩ => ⟨S4096, .f32⟩
  | .hbm, ⟨77, _⟩ => ⟨S4096, .f32⟩
  | .hbm, ⟨78, _⟩ => ⟨S4096x1, .f32⟩
  | .hbm, ⟨79, _⟩ => ⟨S4096x2, .f32⟩
  | .hbm, ⟨80, _⟩ => ⟨S4096x2, .f32⟩
  | .hbm, ⟨81, _⟩ => ⟨S4096x2, .f32⟩
  | .hbm, ⟨82, _⟩ => ⟨S_, .f32⟩
  | .hbm, ⟨83, _⟩ => ⟨S4096, .f32⟩
  | .hbm, ⟨84, _⟩ => ⟨S4096x1, .f32⟩
  | .hbm, ⟨85, _⟩ => ⟨S4096x1, .f32⟩
  | .hbm, ⟨86, _⟩ => ⟨S4096x2, .f32⟩
  | .hbm, ⟨87, _⟩ => ⟨S4096x2, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .bf16⟩
  | .local _ .vmem, ⟨6, _⟩ => ⟨S5000x128, .bf16⟩
  | .local _ .vmem, ⟨7, _⟩ => ⟨S5000x128, .f32⟩
  | .local _ .vmem, ⟨8, _⟩ => ⟨S5000x128, .f32⟩
  | .local _ .vmem, ⟨9, _⟩ => ⟨S5000x128, .bf16⟩
  | .local _ .vmem, ⟨10, _⟩ => ⟨S5000x128, .bf16⟩
  | .local _ .vmem, ⟨11, _⟩ => ⟨S5000x1, .f32⟩
  | .local _ .vmem, ⟨12, _⟩ => ⟨S5000x1, .f32⟩
  | .local _ .vmem, ⟨13, _⟩ => ⟨S128, .f32⟩
  | .local _ .vmem, ⟨14, _⟩ => ⟨S128x128, .f32⟩
  | .local _ .vmem, ⟨15, _⟩ => ⟨S5000x128, .bf16⟩
  | .local _ .vmem, ⟨16, _⟩ => ⟨S5000x128, .bf16⟩
  | .local _ .vmem, ⟨17, _⟩ => ⟨S5000x128, .f32⟩
  | .local _ .vmem, ⟨18, _⟩ => ⟨S5000x128, .f32⟩
  | .local _ .vmem, ⟨19, _⟩ => ⟨S5000x128, .bf16⟩
  | .local _ .vmem, ⟨20, _⟩ => ⟨S5000x128, .bf16⟩
  | .local _ .vmem, ⟨21, _⟩ => ⟨S5000x1, .f32⟩
  | .local _ .vmem, ⟨22, _⟩ => ⟨S5000x1, .f32⟩
  | .local _ .vmem, ⟨23, _⟩ => ⟨S128, .f32⟩
  | .local _ .vmem, ⟨24, _⟩ => ⟨S5000x128, .f32⟩
  | .local _ .vmem, ⟨25, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_4 : Ref sig .tc := ⟨.hbm, 42, rfl⟩
abbrev main_v27 : Ref sig .tc := ⟨.hbm, 43, rfl⟩
abbrev main_v28 : Ref sig .tc := ⟨.hbm, 44, rfl⟩
abbrev main_c_5 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_6 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_c_7 : Ref sig .tc := ⟨.hbm, 57, rfl⟩
abbrev main_v39 : Ref sig .tc := ⟨.hbm, 58, rfl⟩
abbrev main_v40 : Ref sig .tc := ⟨.hbm, 59, rfl⟩
abbrev main_c_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_call0_cst : Ref sig .tc := ⟨.hbm, 70, rfl⟩
abbrev main_call0_v0 : Ref sig .tc := ⟨.hbm, 71, rfl⟩
abbrev main_v50 : Ref sig .tc := ⟨.hbm, 72, rfl⟩
abbrev main_call1_cst : Ref sig .tc := ⟨.hbm, 73, rfl⟩
abbrev main_call1_v0 : Ref sig .tc := ⟨.hbm, 74, rfl⟩
abbrev main_call1_cst_0 : Ref sig .tc := ⟨.hbm, 75, rfl⟩
abbrev main_call1_v1 : Ref sig .tc := ⟨.hbm, 76, rfl⟩
abbrev main_call1_v2 : Ref sig .tc := ⟨.hbm, 77, rfl⟩
abbrev main_call1_v3 : Ref sig .tc := ⟨.hbm, 78, rfl⟩
abbrev main_call1_v4 : Ref sig .tc := ⟨.hbm, 79, rfl⟩
abbrev main_call1_v5 : Ref sig .tc := ⟨.hbm, 80, rfl⟩
abbrev main_call1_v6 : Ref sig .tc := ⟨.hbm, 81, rfl⟩
abbrev main_call1_cst_1 : Ref sig .tc := ⟨.hbm, 82, rfl⟩
abbrev main_call1_v7 : Ref sig .tc := ⟨.hbm, 83, rfl⟩
abbrev main_call1_v8 : Ref sig .tc := ⟨.hbm, 84, rfl⟩
abbrev main_call1_v9 : Ref sig .tc := ⟨.hbm, 85, rfl⟩
abbrev main_call1_v10 : Ref sig .tc := ⟨.hbm, 86, rfl⟩
abbrev main_v51 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg4_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem4_0 : DmaSem sig := 24
abbrev cc2_sem4_1 : DmaSem sig := 25

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  packedbf16_S5000x128_S5000x128_0_0 : (Rect.unit (s := S5000x128) ![0, 0] S5000x128.size inb_S5000x128_S5000x128_0_0).PackedRows (EltTy.packing .bf16)
  bcast_S_S100000x128 : S_.BroadcastsInDim S100000x128 (![] : Fin 0 → Fin S100000x128.rank)
  shapeCasts_S5000x128_S5000x128 : S5000x128.ShapeCasts S5000x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  bcast_S_S4096 : S_.BroadcastsInDim S4096 (![] : Fin 0 → Fin S4096.rank)
  bcast_S4096_S4096x1_0 : S4096.BroadcastsInDim S4096x1 (![0] : Fin 1 → Fin S4096x1.rank)
  bcast_S2_S1x2_1 : S2.BroadcastsInDim S1x2 (![1] : Fin 1 → Fin S1x2.rank)
  bcast_S1x2_S4096x2_0_1 : S1x2.BroadcastsInDim S4096x2 (![0, 1] : Fin 2 → Fin S4096x2.rank)
  bcast_S_S4096x2 : S_.BroadcastsInDim S4096x2 (![] : Fin 0 → Fin S4096x2.rank)
  reducesTo_S4096x2_S4096_d1 : S4096x2.ReducesTo [1] S4096
  h_S_ : 0 < S_.numel
  bcast_S4096x1_S4096x2_0_1 : S4096x1.BroadcastsInDim S4096x2 (![0, 1] : Fin 2 → Fin S4096x2.rank)
  scatter_S100000_S1600000x1_S1600000_n_0_0_1_wf : ScatterDims.WF S100000 S1600000x1 S1600000 [] [0] [0] 1
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  gather_S100000x128_S4096x1_S4096x128_1_0_n_n_0_1_1128_wf : GatherDims.WF S100000x128 S4096x1 S4096x128 [1] [0] [] [0] [] 1 ![1, 128]
  dot_S4096x128_S128x2_S4096x2_1_0_0_1_n_n_wf : DotDims.WF S4096x128 S128x2 S4096x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .bf16 = 32 ∨ (Rect.block (s := S100000x128) S5000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .bf16 = 32 ∨ (Rect.block (s := S100000x128) S5000x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .bf16 = 32 ∨ (Rect.block (s := S100000x128) S5000x128.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .bf16 = 32 ∨ (Rect.block (s := S100000x128) S5000x128.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S100000x128.size a
  hwx2_4 : ∀ i : grid2.Coords, EltTy.bits .f32 = 32 ∨ (Rect.block (s := S100000x128) S5000x128.size (cc2_transform_4 i) (hinb2_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def gather_S100000x128_S4096x1_S4096x128_1_0_n_n_0_1_1128 : GatherDims S100000x128 S4096x1 S4096x128 where
  offsetDims := [1]
  collapsedSliceDims := [0]
  operandBatchingDims := []
  startIndicesBatchingDims := []
  startIndexMap := [0]
  indexVectorDim := 1
  sliceSizes := ![1, 128]
  wf := gather_S100000x128_S4096x1_S4096x128_1_0_n_n_0_1_1128_wf
def dot_S4096x128_S128x2_S4096x2_1_0_0_1_n_n : DotDims S4096x128 S128x2 S4096x2 where
  lhsContracting := [1]
  rhsContracting := [0]
  lhsNonContracting := [0]
  rhsNonContracting := [1]
  lhsBatch := []
  rhsBatch := []
  wf := dot_S4096x128_S128x2_S4096x2_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v25) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v26) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v37) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v26) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v13) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg6) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v38) S5000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S4096 : Shape := ⟨1, ![4096]⟩
abbrev S128x128 : Shape := ⟨2, ![128, 128]⟩
abbrev S128 : Shape := ⟨1, ![128]⟩
abbrev S128x2 : Shape := ⟨2, ![128, 2]⟩
abbrev S2 : Shape := ⟨1, ![2]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x2 : Shape := ⟨2, ![100000, 2]⟩
abbrev S1x2 : Shape := ⟨2, ![1, 2]⟩
abbrev S4096x1 : Shape := ⟨2, ![4096, 1]⟩
abbrev S4096x2 : Shape := ⟨2, ![4096, 2]⟩
abbrev S4096x128 : Shape := ⟨2, ![4096, 128]⟩

abbrev nBuf : Space → Nat
  | .hbm => 135
  | .vmem => 0
  | .smem => 0
  | _ => 0

abbrev hbmTy0_0 (i : Nat) : BufTy := match i % 128 with
  | 0 => ⟨S100000x128, .f32⟩
  | 1 => ⟨S2x1600000, .i32⟩
  | 2 => ⟨S4096, .i32⟩
  | 3 => ⟨S128x128, .f32⟩
  | 4 => ⟨S128, .f32⟩
  | 5 => ⟨S128x128, .f32⟩
  | 6 => ⟨S128, .f32⟩
  | 7 => ⟨S128x2, .f32⟩
  | 8 => ⟨S2, .f32⟩
  | 9 => ⟨S100000, .i32⟩
  | 10 => ⟨S1x1600000, .i32⟩
  | 11 => ⟨S1600000, .i32⟩
  | 12 => ⟨S1700000, .i32⟩
  | 13 => ⟨S1x1600000, .i32⟩
  | 14 => ⟨S1600000, .i32⟩
  | 15 => ⟨S1700000, .i32⟩
  | 16 => ⟨S_, .f32⟩
  | 17 => ⟨S1700000, .f32⟩
  | 18 => ⟨S_, .f32⟩
  | 19 => ⟨S100000, .f32⟩
  | 20 => ⟨S1700000x1, .i32⟩
  | 21 => ⟨S100000, .f32⟩
  | 22 => ⟨S_, .f32⟩
  | 23 => ⟨S100000, .f32⟩
  | 24 => ⟨S100000, .i1⟩
  | 25 => ⟨S100000, .f32⟩
  | 26 => ⟨S_, .f32⟩
  | 27 => ⟨S_, .f32⟩
  | 28 => ⟨S100000, .f32⟩
  | 29 => ⟨S100000, .f32⟩
  | 30 => ⟨S_, .i32⟩
  | 31 => ⟨S1700000, .i32⟩
  | 32 => ⟨S1700000, .i1⟩
  | 33 => ⟨S_, .i32⟩
  | 34 => ⟨S1700000, .i32⟩
  | 35 => ⟨S1700000, .i32⟩
  | 36 => ⟨S1700000, .i32⟩
  | 37 => ⟨S1700000x1, .i32⟩
  | 38 => ⟨S1700000, .f32⟩
  | 39 => ⟨S_, .i32⟩
  | 40 => ⟨S1700000, .i32⟩
  | 41 => ⟨S1700000, .i1⟩
  | 42 => ⟨S_, .i32⟩
  | 43 => ⟨S1700000, .i32⟩
  | 44 => ⟨S1700000, .i32⟩
  | 45 => ⟨S1700000, .i32⟩
  | 46 => ⟨S1700000x1, .i32⟩
  | 47 => ⟨S1700000, .f32⟩
  | 48 => ⟨S1700000, .f32⟩
  | 49 => ⟨S100000x128, .f32⟩
  | 50 => ⟨S_, .i32⟩
  | 51 => ⟨S1700000, .i32⟩
  | 52 => ⟨S1700000, .i1⟩
  | 53 => ⟨S_, .i32⟩
  | 54 => ⟨S1700000, .i32⟩
  | 55 => ⟨S1700000, .i32⟩
  | 56 => ⟨S1700000, .i32⟩
  | 57 => ⟨S1700000x1, .i32⟩
  | 58 => ⟨S1700000x128, .f32⟩
  | 59 => ⟨S1700000x1, .f32⟩
  | 60 => ⟨S1700000x128, .f32⟩
  | 61 => ⟨S1700000x128, .f32⟩
  | 62 => ⟨S_, .f32⟩
  | 63 => ⟨S100000x128, .f32⟩
  | 64 => ⟨S1700000x1, .i32⟩
  | 65 => ⟨S100000x128, .f32⟩
  | 66 => ⟨S1x128, .f32⟩
  | 67 => ⟨S100000x128, .f32⟩
  | 68 => ⟨S100000x128, .f32⟩
  | 69 => ⟨S_, .f32⟩
  | 70 => ⟨S100000x128, .f32⟩
  | 71 => ⟨S100000x128, .f32⟩
  | 72 => ⟨S100000x128, .f32⟩
  | 73 => ⟨S_, .i32⟩
  | 74 => ⟨S1700000, .i32⟩
  | 75 => ⟨S1700000, .i1⟩
  | 76 => ⟨S_, .i32⟩
  | 77 => ⟨S1700000, .i32⟩
  | 78 => ⟨S1700000, .i32⟩
  | 79 => ⟨S1700000, .i32⟩
  | 80 => ⟨S1700000x1, .i32⟩
  | 81 => ⟨S1700000x128, .f32⟩
  | 82 => ⟨S1700000x1, .f32⟩
  | 83 => ⟨S1700000x128, .f32⟩
  | 84 => ⟨S1700000x128, .f32⟩
  | 85 => ⟨S_, .f32⟩
  | 86 => ⟨S100000x128, .f32⟩
  | 87 => ⟨S1700000x1, .i32⟩
  | 88 => ⟨S100000x128, .f32⟩
  | 89 => ⟨S1x128, .f32⟩
  | 90 => ⟨S100000x128, .f32⟩
  | 91 => ⟨S100000x128, .f32⟩
  | 92 => ⟨S_, .f32⟩
  | 93 => ⟨S100000x128, .f32⟩
  | 94 => ⟨S100000x128, .f32⟩
  | 95 => ⟨S100000x2, .f32⟩
  | 96 => ⟨S1x2, .f32⟩
  | 97 => ⟨S100000x2, .f32⟩
  | 98 => ⟨S100000x2, .f32⟩
  | 99 => ⟨S_, .f32⟩
  | 100 => ⟨S100000x2, .f32⟩
  | 101 => ⟨S100000x2, .f32⟩
  | 102 => ⟨S_, .i32⟩
  | 103 => ⟨S4096, .i32⟩
  | 104 => ⟨S4096, .i1⟩
  | 105 => ⟨S_, .i32⟩
  | 106 => ⟨S4096, .i32⟩
  | 107 => ⟨S4096, .i32⟩
  | 108 => ⟨S4096, .i32⟩
  | 109 => ⟨S4096x1, .i32⟩
  | 110 => ⟨S4096x2, .f32⟩
  | 111 => ⟨S_, .f32⟩
  | 112 => ⟨S4096, .f32⟩
  | 113 => ⟨S_, .f32⟩
  | 114 => ⟨S4096, .f32⟩
  | 115 => ⟨S4096, .f32⟩
  | 116 => ⟨S4096x1, .f32⟩
  | 117 => ⟨S4096x2, .f32⟩
  | 118 => ⟨S4096x2, .f32⟩
  | 119 => ⟨S4096x2, .f32⟩
  | 120 => ⟨S_, .f32⟩
  | 121 => ⟨S4096, .f32⟩
  | 122 => ⟨S4096x1, .f32⟩
  | 123 => ⟨S4096x1, .f32⟩
  | 124 => ⟨S4096x2, .f32⟩
  | 125 => ⟨S4096x2, .f32⟩
  | 126 => ⟨S_, .i32⟩
  | 127 => ⟨S4096, .i32⟩
  | _ => ⟨S100000x128, .f32⟩

abbrev hbmTy0_1 (i : Nat) : BufTy := match i % 128 with
  | 0 => ⟨S4096, .i1⟩
  | 1 => ⟨S_, .i32⟩
  | 2 => ⟨S4096, .i32⟩
  | 3 => ⟨S4096, .i32⟩
  | 4 => ⟨S4096, .i32⟩
  | 5 => ⟨S4096x1, .i32⟩
  | 6 => ⟨S4096x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_call1_cst : Ref sig .tc := ⟨.hbm, 69, rfl⟩
abbrev main_call1_v0 : Ref sig .tc := ⟨.hbm, 70, rfl⟩
abbrev main_v47 : Ref sig .tc := ⟨.hbm, 71, rfl⟩
abbrev main_v48 : Ref sig .tc := ⟨.hbm, 72, rfl⟩
abbrev main_c_9 : Ref sig .tc := ⟨.hbm, 73, rfl⟩
abbrev main_v49 : Ref sig .tc := ⟨.hbm, 74, rfl⟩
abbrev main_v50 : Ref sig .tc := ⟨.hbm, 75, rfl⟩
abbrev main_c_10 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_11 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_call2_cst : Ref sig .tc := ⟨.hbm, 92, rfl⟩
abbrev main_call2_v0 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_call3_cst : Ref sig .tc := ⟨.hbm, 99, rfl⟩
abbrev main_call3_v0 : Ref sig .tc := ⟨.hbm, 100, rfl⟩
abbrev main_v70 : Ref sig .tc := ⟨.hbm, 101, rfl⟩
abbrev main_c_12 : Ref sig .tc := ⟨.hbm, 102, rfl⟩
abbrev main_v71 : Ref sig .tc := ⟨.hbm, 103, rfl⟩
abbrev main_v72 : Ref sig .tc := ⟨.hbm, 104, rfl⟩
abbrev main_c_13 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_call4_cst : Ref sig .tc := ⟨.hbm, 111, rfl⟩
abbrev main_call4_v0 : Ref sig .tc := ⟨.hbm, 112, rfl⟩
abbrev main_call4_cst_0 : Ref sig .tc := ⟨.hbm, 113, rfl⟩
abbrev main_call4_v1 : Ref sig .tc := ⟨.hbm, 114, rfl⟩
abbrev main_call4_v2 : Ref sig .tc := ⟨.hbm, 115, rfl⟩
abbrev main_call4_v3 : Ref sig .tc := ⟨.hbm, 116, rfl⟩
abbrev main_call4_v4 : Ref sig .tc := ⟨.hbm, 117, rfl⟩
abbrev main_call4_v5 : Ref sig .tc := ⟨.hbm, 118, rfl⟩
abbrev main_call4_v6 : Ref sig .tc := ⟨.hbm, 119, rfl⟩
abbrev main_call4_cst_1 : Ref sig .tc := ⟨.hbm, 120, rfl⟩
abbrev main_call4_v7 : Ref sig .tc := ⟨.hbm, 121, rfl⟩
abbrev main_call4_v8 : Ref sig .tc := ⟨.hbm, 122, rfl⟩
abbrev main_call4_v9 : Ref sig .tc := ⟨.hbm, 123, rfl⟩
abbrev main_call4_v10 : Ref sig .tc := ⟨.hbm, 124, rfl⟩
abbrev main_v78 : Ref sig .tc := ⟨.hbm, 125, rfl⟩
abbrev main_c_14 : Ref sig .tc := ⟨.hbm, 126, rfl⟩
abbrev main_v79 : Ref sig .tc := ⟨.hbm, 127, rfl⟩
abbrev main_v80 : Ref sig .tc := ⟨.hbm, 128, rfl⟩
abbrev main_c_15 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  bcast_S_S100000x2 : S_.BroadcastsInDim S100000x2 (![] : Fin 0 → Fin S100000x2.rank)
  bcast_S_S4096 : S_.BroadcastsInDim S4096 (![] : Fin 0 → Fin S4096.rank)
  bcast_S4096_S4096x1_0 : S4096.BroadcastsInDim S4096x1 (![0] : Fin 1 → Fin S4096x1.rank)
  reducesTo_S4096x2_S4096_d1 : S4096x2.ReducesTo [1] S4096
  h_S_ : 0 < S_.numel
  bcast_S4096x1_S4096x2_0_1 : S4096x1.BroadcastsInDim S4096x2 (![0, 1] : Fin 2 → Fin S4096x2.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x2_S100000x2_1_0_0_1_n_n_wf : DotDims.WF S100000x128 S128x2 S100000x2 [1] [0] [0] [1] [] []
  gather_S100000x2_S4096x1_S4096x2_1_0_n_n_0_1_12_wf : GatherDims.WF S100000x2 S4096x1 S4096x2 [1] [0] [] [0] [] 1 ![1, 2]
  gather_S100000x128_S4096x1_S4096x128_1_0_n_n_0_1_1128_wf : GatherDims.WF S100000x128 S4096x1 S4096x128 [1] [0] [] [0] [] 1 ![1, 128]

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x2_S100000x2_1_0_0_1_n_n : DotDims S100000x128 S128x2 S100000x2 where
  lhsContracting := [1]
  rhsContracting := [0]
  lhsNonContracting := [0]
  rhsNonContracting := [1]
  lhsBatch := []
  rhsBatch := []
  wf := dot_S100000x128_S128x2_S100000x2_1_0_0_1_n_n_wf
def gather_S100000x2_S4096x1_S4096x2_1_0_n_n_0_1_12 : GatherDims S100000x2 S4096x1 S4096x2 where
  offsetDims := [1]
  collapsedSliceDims := [0]
  operandBatchingDims := []
  startIndicesBatchingDims := []
  startIndexMap := [0]
  indexVectorDim := 1
  sliceSizes := ![1, 2]
  wf := gather_S100000x2_S4096x1_S4096x2_1_0_n_n_0_1_12_wf
def gather_S100000x128_S4096x1_S4096x128_1_0_n_n_0_1_1128 : GatherDims S100000x128 S4096x1 S4096x128 where
  offsetDims := [1]
  collapsedSliceDims := [0]
  operandBatchingDims := []
  startIndicesBatchingDims := []
  startIndexMap := [0]
  indexVectorDim := 1
  sliceSizes := ![1, 128]
  wf := gather_S100000x128_S4096x1_S4096x128_1_0_n_n_0_1_1128_wf

class Facts : Prop extends Facts₀ where

variable [Facts]
-- ==== Proof.KernelRun.lean ====
/-
  The idealized kernel's run with its three RESULT buffers named: every weakly fair execution of @main terminates,
  nothing faulting, and in the final state each result buffer holds what the last boundary's contents hold there —
  the fold of the host operations and the three regions' write-backs over the launch memory — while the argument
  arrays are as launched.
-/
import proofs.«153781_j7825430413942_2_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, read at the results: each result buffer at the last boundary's contents, the arguments as launched. -/
theorem run_results : θ_run defs (onTc (τ := τ) (main (F := F))) ⟨m, fun _ => 0, ρ⟩ (fun r => ∀ c : Dev nD,
      r.2.mem ((c.tc : Thread nD τ).loc main_v51) = W9 m ρ c (Proc.devRef .tc main_v51)
      ∧ r.2.mem ((c.tc : Thread nD τ).loc main_v50) = W9 m ρ c (Proc.devRef .tc main_v50)
      ∧ r.2.mem ((c.tc : Thread nD τ).loc main_v45) = W9 m ρ c (Proc.devRef .tc main_v45)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v51 (by decide)),
       h c _ (mem_uc main_v50 (by decide)),
       h c _ (mem_uc main_v45 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c)⟩)

end Cert.KernelIdeal.ValueRun

end
-- ==== Proof.Spec.lean ====
/-
  The mathematics of the two-layer graph convolution both programs compute, as one function of the argument
  arrays over the extended reals, index by index.

  Nodes are `Fin 100000`, edges `Fin 1600000`, features `Fin 128`. An edge `e` has a source word `src e` and a
  destination word `dst e` (32-bit integers, any values). A GATHER at an integer word reads the row `row v`: a
  negative word first has 100000 added (`nrm`), then the word is read signed and clamped into [0, 99999]. A
  SCATTER-ADD lands an edge's contribution on node `n` exactly when the destination word, read signed, IS `n`
  (an edge whose destination is outside the nodes is dropped).

    deg n      = (0 + Σ_{e : dst e = n} 1) + 1                          (incoming edges and the self loop)
    dinv n     = rsqrt (deg n)
    pre a W    = fun n c => (Σ_k a n k · W k c) · dinv n                (a dense layer with its rows pre-scaled)
    agg hp     = fun n c => 0 + Σ_{e : dst e = n} hp (row (src e)) c     (messages summed at their destination)
    act hp b   = fun n c => max (dinv n · (agg hp n c + hp n c) + b c) 0
    a1 = act (pre x W1) b1 ,  a2 = act (pre a1 W2) b2                    (the two layers)
    feats r c  = a2 (row (bi r)) c                                       (the rows the batch reads)
    outv r j   = max (Σ_k feats r k · Wl k j + bl j) 0
-/
import Idealize.ShloMosaic.Lib.ValueIdx
import Idealize.ShloMosaic.PureOps.Ideal.Laws

noncomputable section

namespace Cert.Gcn

open Idealize.ShloMosaic Idealize.ShloMosaic.ValueIdx

/-- The float words of one and of zero, as the programs spell them. -/
abbrev one : EReal := Ideal.ofBits .f32 0x3F800000#32
abbrev zero : EReal := Ideal.ofBits .f32 0x00000000#32

/-- A negative index counts from the end: 100000 is added to it. -/
def nrm (v : BitVec 32) : BitVec 32 := Scalar.select (IntOp.cmpi .slt v 0#32) (IntOp.addi v 100000#32) v

/-- The row a gather reads at the word `v`: normalised, read signed, clamped into the nodes. -/
def row (v : BitVec 32) : Fin 100000 := ⟨min (nrm v).toInt.toNat (100000 - 1), by omega⟩

section
variable (src dst : Fin 1600000 → BitVec 32)

/-- A node's degree: its incoming edges (those whose destination word is the node) and its self loop. -/
def deg (n : Fin 100000) : EReal :=
  (zero + ∑ e ∈ Finset.univ.filter (fun e : Fin 1600000 => (dst e).toInt = (n.val : Int)), one) + one

def dinv (n : Fin 100000) : EReal := Ideal.rsqrt (deg dst n)

/-- A dense layer, each row scaled by its node's `dinv`. -/
def pre (a : Fin 100000 → Fin 128 → EReal) (W : Fin 128 → Fin 128 → EReal) (n : Fin 100000) (c : Fin 128) : EReal :=
  (∑ k : Fin 128, a n k * W k c) * dinv dst n

/-- The messages summed at their destination. -/
def agg (hp : Fin 100000 → Fin 128 → EReal) (n : Fin 100000) (c : Fin 128) : EReal :=
  zero + ∑ e ∈ Finset.univ.filter (fun e : Fin 1600000 => (dst e).toInt = (n.val : Int)), hp (row (src e)) c

/-- Self loop added, scaled, biased, rectified. -/
def act (hp : Fin 100000 → Fin 128 → EReal) (b : Fin 128 → EReal) (n : Fin 100000) (c : Fin 128) : EReal :=
  max (dinv dst n * (agg src dst hp n c + hp n c) + b c) zero

variable (x : Fin 100000 → Fin 128 → EReal) (W1 : Fin 128 → Fin 128 → EReal) (b1 : Fin 128 → EReal)
  (W2 : Fin 128 → Fin 128 → EReal) (b2 : Fin 128 → EReal)

def a1 : Fin 100000 → Fin 128 → EReal := act src dst (pre dst x W1) b1
def a2 : Fin 100000 → Fin 128 → EReal := act src dst (pre dst (a1 src dst x W1 b1) W2) b2

variable (bi : Fin 4096 → BitVec 32) (Wl : Fin 128 → Fin 2 → EReal) (bl : Fin 2 → EReal)

def feats (r : Fin 4096) (c : Fin 128) : EReal := a2 src dst x W1 b1 W2 b2 (row (bi r)) c

def outv (r : Fin 4096) (j : Fin 2) : EReal :=
  max ((∑ k : Fin 128, feats src dst x W1 b1 W2 b2 bi r k * Wl k j) + bl j) zero

end

/-! ## The argument arrays as the programs hold them -/

/-- Coordinates of the argument arrays: `x`, the two rows of the edge list, the batch, the weights and biases. -/
def x_ (X : (⟨2, ![100000, 128]⟩ : Shape).Idx → EReal) (n : Fin 100000) (k : Fin 128) : EReal := X (ix2 n k)
def w_ (W : (⟨2, ![128, 128]⟩ : Shape).Idx → EReal) (k : Fin 128) (c : Fin 128) : EReal := W (ix2 k c)
def wl_ (W : (⟨2, ![128, 2]⟩ : Shape).Idx → EReal) (k : Fin 128) (j : Fin 2) : EReal := W (ix2 k j)
def b_ (B : (⟨1, ![128]⟩ : Shape).Idx → EReal) (c : Fin 128) : EReal := B (ix1 c)
def bl_ (B : (⟨1, ![2]⟩ : Shape).Idx → EReal) (j : Fin 2) : EReal := B (ix1 j)
def src_ (E : (⟨2, ![2, 1600000]⟩ : Shape).Idx → BitVec 32) (e : Fin 1600000) : BitVec 32 := E (ix2 0 e)
def dst_ (E : (⟨2, ![2, 1600000]⟩ : Shape).Idx → BitVec 32) (e : Fin 1600000) : BitVec 32 := E (ix2 1 e)
def bi_ (B : (⟨1, ![4096]⟩ : Shape).Idx → BitVec 32) (r : Fin 4096) : BitVec 32 := B (ix1 r)

section
variable (X : (⟨2, ![100000, 128]⟩ : Shape).Idx → EReal) (E : (⟨2, ![2, 1600000]⟩ : Shape).Idx → BitVec 32)
  (B : (⟨1, ![4096]⟩ : Shape).Idx → BitVec 32) (W1 : (⟨2, ![128, 128]⟩ : Shape).Idx → EReal)
  (B1 : (⟨1, ![128]⟩ : Shape).Idx → EReal) (W2 : (⟨2, ![128, 128]⟩ : Shape).Idx → EReal)
  (B2 : (⟨1, ![128]⟩ : Shape).Idx → EReal) (WL : (⟨2, ![128, 2]⟩ : Shape).Idx → EReal)
  (BL : (⟨1, ![2]⟩ : Shape).Idx → EReal)

/-- The gathered features, `[4096, 128]`. -/
def Feats : (⟨2, ![4096, 128]⟩ : Shape).Idx → EReal := fun i =>
  feats (src_ E) (dst_ E) (x_ X) (w_ W1) (b_ B1) (w_ W2) (b_ B2) (bi_ B) (i 0) (i 1)

/-- The rectified class scores, `[4096, 2]`. -/
def Out : (⟨2, ![4096, 2]⟩ : Shape).Idx → EReal := fun i =>
  outv (src_ E) (dst_ E) (x_ X) (w_ W1) (b_ B1) (w_ W2) (b_ B2) (bi_ B) (wl_ WL) (bl_ BL) (i 0) (i 1)

end

end Cert.Gcn

end
-- ==== Proof.LibGatherScatter.lean ====
/-
  General lemmas about StableHLO's indexed reads and writes, read at one index, and about the sums they produce.

  * A ROW GATHER (operand `[N, C]`, start indices `[R, 1]`, result `[R, C]`) and an ELEMENT GATHER (operand `[N]`,
    start indices `[R, 1]`, result `[R]`) read at an index: the operand at the start index, read signed and clamped
    into `[0, N − 1]` (`rowGather_apply`, `eltGather_apply`).
  * A ROW SCATTER-ADD (operand `[N, C]`, scatter indices `[R, 1]`, updates `[R, C]`) and an ELEMENT SCATTER-ADD
    (operand `[N]`, updates `[R]`) read at an index, over the extended reals: the operand's element plus the sum of
    the updates whose scatter index, read signed and NOT clamped, is that row (`rowScatterAdd_apply`,
    `eltScatterAdd_apply`).
  * Sums over a filtered index range that is the concatenation of two ranges, and a filter that holds at exactly one
    point (`sum_filter_split`, `sum_filter_single`).
  * A nonnegative real factor moved across an extended-real sum, with no finiteness asked of the summands
    (`coe_mul_sum`, `scale_law`).
  * The index normalisation applied before a gather (a negative index is shifted up by the extent) on an index that
    is a row number already (`clampRow_of_hit`, `clampRow_ofNat`, `toInt_ofNat_lt`).
-/
import Idealize.ShloMosaic.Lib.ValueIdx
import Idealize.ShloMosaic.Lib.Pipeline.Value
import Idealize.ShloMosaic.PureOps.Ideal.Laws

noncomputable section

open scoped BigOperators

namespace Cert.LibGS

open Idealize.ShloMosaic Idealize.ShloMosaic.ValueIdx

/-- A signed word read as a row number of an `N`-row table: its value clamped into `[0, N − 1]`. -/
def clampRow (N : Nat) (hN : 0 < N) {w : Nat} (v : BitVec w) : Fin N := ⟨min v.toInt.toNat (N - 1), by omega⟩

/-! ## A row gather -/

/-- The dimension numbers of a row gather: operand `[N, C]`, start indices `[R, 1]`, result `[R, C]`; the one
    start-index component names the row axis, which is collapsed, and the slice is one whole row. -/
abbrev rowGatherDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, c)`: the operand at row `idx[e, 0]`, read signed and clamped, column `c`. -/
theorem rowGather_apply {α : Type} {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (c : Fin C) :
    Host.gather (rowGatherDims N R C wf) x idx (ix2 e c) = x (ix2 (clampRow N hN (idx (ix2 e 0))) c) := by
  unfold Host.gather
  congr 1
  funext a
  refine Fin.ext ?_
  match a with
  | ⟨0, _⟩ =>
    show (rowGatherDims N R C wf).start (ix2 e c) idx 0 + (rowGatherDims N R C wf).batchCoord (ix2 e c) 0
      + (rowGatherDims N R C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N R C wf).startIndexMap from List.mem_singleton.mpr rfl)]
    have hsi : (rowGatherDims N R C wf).siIdx (ix2 e c) ⟨List.idxOf (0 : Fin 2) (rowGatherDims N R C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGatherDims N R C wf).start (ix2 e c) idx 1 + (rowGatherDims N R C wf).batchCoord (ix2 e c) 1
      + (rowGatherDims N R C wf).offCoord (ix2 e c) 1 = _
    rw [GatherDims.batchCoord_eq_zero _ _ _ List.not_mem_nil]
    unfold GatherDims.start
    rw [dif_neg (show (1 : Fin 2) ∉ (rowGatherDims N R C wf).startIndexMap from (by decide : (1 : Fin 2) ∉ [(0 : Fin 2)]))]
    simp only [Nat.add_zero, Nat.zero_add]
    unfold GatherDims.offCoord
    rw [dif_pos (show (1 : Fin 2) ∈ (rowGatherDims N R C wf).sKept from
      (GatherDims.mem_sKept _ _).mpr ⟨(by decide : (1 : Fin 2) ∉ [(0 : Fin 2)]), List.not_mem_nil⟩)]
    rfl

/-! ## A row scatter-add -/

/-- The dimension numbers of a row scatter: operand `[N, C]`, scatter indices `[R, 1]`, updates `[R, C]`; the one
    scatter-index component names the row axis, which is inserted, and the update window is one whole row. -/
abbrev rowScatterDims (N R C : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- Where update `(e, c')` of a row scatter lands: at `(n, c)` exactly when its scatter index, read signed, is `n`
    and `c' = c`; an index outside `[0, N)` lands nowhere. -/
theorem rowScatter_resultIdx_iff {N R C w : Nat}
    (wf : ScatterDims.WF ⟨2, ![N, C]⟩ ⟨2, ![R, 1]⟩ ⟨2, ![R, C]⟩ [1] [0] [0] 1)
    (idx : IVec ⟨2, ![R, 1]⟩ w) (e : Fin R) (c' : Fin C) (n : Fin N) (c : Fin C) :
    (rowScatterDims N R C wf).resultIdx? (ix2 e c') idx = some (ix2 n c)
      ↔ ((idx (ix2 e 0)).toInt = (n.val : Int) ∧ c' = c) := by
  have hs0 : (rowScatterDims N R C wf).start (ix2 e c') idx 0 = (idx (ix2 e 0)).toInt := by
    unfold ScatterDims.start
    rw [dif_pos (show (0 : Fin 2) ∈ (rowScatterDims N R C wf).scatterDimsToOperandDims from List.mem_singleton.mpr rfl)]
    have hsi : (rowScatterDims N R C wf).siIdx (ix2 e c')
        ⟨List.idxOf (0 : Fin 2) (rowScatterDims N R C wf).scatterDimsToOperandDims,
          List.idxOf_lt_length_iff.2 (List.mem_singleton.mpr rfl)⟩ = ix2 e 0 := by
      funext b; refine Fin.ext ?_
      match b with
      | ⟨0, _⟩ => rfl
      | ⟨1, _⟩ => rfl
    rw [hsi]
  have hs1 : (rowScatterDims N R C wf).start (ix2 e c') idx 1 = 0 := by
    unfold ScatterDims.start
    rw [dif_neg (show (1 : Fin 2) ∉ (rowScatterDims N R C wf).scatterDimsToOperandDims from
      (by decide : (1 : Fin 2) ∉ [(0 : Fin 2)]))]
  have hw0 : (rowScatterDims N R C wf).window (ix2 e c') 0 = 0 := by
    unfold ScatterDims.window
    rw [dif_neg (show (0 : Fin 2) ∉ (rowScatterDims N R C wf).sKept from by
      simp [ScatterDims.sKept, Shape.kept])]
  have hw1 : (rowScatterDims N R C wf).window (ix2 e c') 1 = c'.val := by
    unfold ScatterDims.window
    rw [dif_pos (show (1 : Fin 2) ∈ (rowScatterDims N R C wf).sKept from by
      simp [ScatterDims.sKept, Shape.kept])]
    rfl
  unfold ScatterDims.resultIdx?
  split
  · rename_i h
    rw [Option.some.injEq]
    constructor
    · intro hf
      have h0 := congrArg (fun f => (f 0).val) hf
      have h1 := congrArg (fun f => (f 1).val) hf
      have g0 := (h 0).1
      simp only [hs0, hw0] at h0 g0
      simp only [hs1, hw1] at h1
      refine ⟨?_, Fin.ext ?_⟩
      · change ((idx (ix2 e 0)).toInt + ((0 : Nat) : Int)).toNat = n.val at h0
        omega
      · change ((0 : Int) + (c'.val : Int)).toNat = c.val at h1
        omega
    · rintro ⟨hA, rfl⟩
      funext a; refine Fin.ext ?_
      match a with
      | ⟨0, _⟩ =>
        show ((rowScatterDims N R C wf).start (ix2 e c') idx 0 + ((rowScatterDims N R C wf).window (ix2 e c') 0 : Nat)).toNat = n.val
        rw [hs0, hw0, hA]; simp
      | ⟨1, _⟩ =>
        show ((rowScatterDims N R C wf).start (ix2 e c') idx 1 + ((rowScatterDims N R C wf).window (ix2 e c') 1 : Nat)).toNat = c'.val
        rw [hs1, hw1]; simp
  · rename_i h
    constructor
    · intro hf; exact absurd hf (by simp)
    · rintro ⟨hA, rfl⟩
      exfalso; apply h
      intro a
      match a with
      | ⟨0, _⟩ =>
        show 0 ≤ (rowScatterDims N R C wf).start (ix2 e c') idx 0 + ((rowScatterDims N R C wf).window (ix2 e c') 0 : Nat)
          ∧ (rowScatterDims N R C wf).start (ix2 e c') idx 0 + ((rowScatterDims N R C wf).window (ix2 e c') 0 : Nat) < (N : Int)
        rw [hs0, hw0, hA]; have := n.isLt; omega
      | ⟨1, _⟩ =>
        show 0 ≤ (rowScatterDims N R C wf).start (ix2 e c') idx 1 + ((rowScatterDims N R C wf).window (ix2 e c') 1 : Nat)
          ∧ (rowScatterDims N R C wf).start (ix2 e c') idx 1 + ((rowScatterDims N R C wf).window (ix2 e c') 1 : Nat) < (C : Int)
        rw [hs1, hw1]; have := c'.isLt; omega

/-- THE ROW SCATTER-ADD READ AT `(n, c)`, over the extended reals: the operand's element plus the sum of column `c`
    of the updates whose scatter index, read signed and not clamped, is `n`. -/
theorem rowScatterAdd_apply {φ : FTy} {N R C w : Nat}
    (wf : ScatterDims.WF ⟨2, ![N, C]⟩ ⟨2, ![R, 1]⟩ ⟨2, ![R, C]⟩ [1] [0] [0] 1)
    (x : (⟨2, ![N, C]⟩ : Shape).Idx → EReal) (idx : IVec ⟨2, ![R, 1]⟩ w)
    (upd : (⟨2, ![R, C]⟩ : Shape).Idx → EReal) (n : Fin N) (c : Fin C) :
    Host.scatterAdd (F := Ideal) (φ := φ) (rowScatterDims N R C wf) x idx upd (ix2 n c)
      = x (ix2 n c) + ∑ e ∈ Finset.univ.filter (fun e : Fin R => (idx (ix2 e 0)).toInt = (n.val : Int)), upd (ix2 e c) := by
  show x (ix2 n c) + ∑ j ∈ Finset.univ.filter
    (fun j => (rowScatterDims N R C wf).resultIdx? j idx = some (ix2 n c)), upd j = _
  congr 1
  rw [Finset.sum_filter, sum_idx2, Finset.sum_filter]
  refine Finset.sum_congr rfl fun e _ => ?_
  simp only [rowScatter_resultIdx_iff]
  by_cases hA : (idx (ix2 e 0)).toInt = (n.val : Int)
  · simp [hA]
  · simp [hA]

/-! ## An element gather -/

/-- The dimension numbers of an element gather: operand `[N]`, start indices `[R, 1]`, result `[R]`. -/
abbrev eltGatherDims (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- THE ELEMENT GATHER READ AT `e`: the operand at `idx[e, 0]`, read signed and clamped. -/
theorem eltGather_apply {α : Type} {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (e : Fin R) :
    Host.gather (eltGatherDims N R wf) x idx (ix1 e) = x (ix1 (clampRow N hN (idx (ix2 e 0)))) := by
  unfold Host.gather
  congr 1
  funext a
  obtain rfl : a = 0 := Subsingleton.elim _ _
  refine Fin.ext ?_
  show (eltGatherDims N R wf).start (ix1 e) idx 0 + (eltGatherDims N R wf).batchCoord (ix1 e) 0
    + (eltGatherDims N R wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (eltGatherDims N R wf).startIndexMap from List.mem_singleton.mpr rfl)]
  have hsi : (eltGatherDims N R wf).siIdx (ix1 e) ⟨List.idxOf (0 : Fin 1) (eltGatherDims N R wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-! ## An element scatter-add -/

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The dimension numbers of an element scatter: operand `[N]`, scatter indices `[R, 1]`, updates `[R]`. -/
abbrev eltScatterDims (N R : Nat)
    (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

/-- Where update `e` of an element scatter lands: at `n` exactly when its scatter index, read signed, is `n`. -/
theorem eltScatter_resultIdx_iff {N R w : Nat}
    (wf : ScatterDims.WF ⟨1, ![N]⟩ ⟨2, ![R, 1]⟩ ⟨1, ![R]⟩ [] [0] [0] 1)
    (idx : IVec ⟨2, ![R, 1]⟩ w) (e : Fin R) (n : Fin N) :
    (eltScatterDims N R wf).resultIdx? (ix1 e) idx = some (ix1 n) ↔ (idx (ix2 e 0)).toInt = (n.val : Int) := by
  have hs0 : (eltScatterDims N R wf).start (ix1 e) idx 0 = (idx (ix2 e 0)).toInt := by
    unfold ScatterDims.start
    rw [dif_pos (show (0 : Fin 1) ∈ (eltScatterDims N R wf).scatterDimsToOperandDims from List.mem_singleton.mpr rfl)]
    have hsi : (eltScatterDims N R wf).siIdx (ix1 e)
        ⟨List.idxOf (0 : Fin 1) (eltScatterDims N R wf).scatterDimsToOperandDims,
          List.idxOf_lt_length_iff.2 (List.mem_singleton.mpr rfl)⟩ = ix2 e 0 := by
      funext b; refine Fin.ext ?_
      match b with
      | ⟨0, _⟩ => rfl
      | ⟨1, _⟩ => rfl
    rw [hsi]
  have hw0 : (eltScatterDims N R wf).window (ix1 e) 0 = 0 := by
    unfold ScatterDims.window
    rw [dif_neg (show (0 : Fin 1) ∉ (eltScatterDims N R wf).sKept from by
      simp [ScatterDims.sKept, Shape.kept])]
  unfold ScatterDims.resultIdx?
  split
  · rename_i h
    rw [Option.some.injEq]
    constructor
    · intro hf
      have h0 := congrArg (fun f => (f 0).val) hf
      have g0 := (h 0).1
      simp only [hs0, hw0] at h0 g0
      change ((idx (ix2 e 0)).toInt + ((0 : Nat) : Int)).toNat = n.val at h0
      omega
    · intro hA
      funext a
      obtain rfl : a = 0 := Subsingleton.elim _ _
      refine Fin.ext ?_
      show ((eltScatterDims N R wf).start (ix1 e) idx 0 + ((eltScatterDims N R wf).window (ix1 e) 0 : Nat)).toNat = n.val
      rw [hs0, hw0, hA]; simp
  · rename_i h
    constructor
    · intro hf; exact absurd hf (by simp)
    · intro hA
      exfalso; apply h
      intro a
      obtain rfl : a = 0 := Subsingleton.elim _ _
      show 0 ≤ (eltScatterDims N R wf).start (ix1 e) idx 0 + ((eltScatterDims N R wf).window (ix1 e) 0 : Nat)
        ∧ (eltScatterDims N R wf).start (ix1 e) idx 0 + ((eltScatterDims N R wf).window (ix1 e) 0 : Nat) < (N : Int)
      rw [hs0, hw0, hA]; have := n.isLt; omega

/-- THE ELEMENT SCATTER-ADD READ AT `n`, over the extended reals: the operand's element plus the sum of the updates
    whose scatter index, read signed and not clamped, is `n`. -/
theorem eltScatterAdd_apply {φ : FTy} {N R w : Nat}
    (wf : ScatterDims.WF ⟨1, ![N]⟩ ⟨2, ![R, 1]⟩ ⟨1, ![R]⟩ [] [0] [0] 1)
    (x : (⟨1, ![N]⟩ : Shape).Idx → EReal) (idx : IVec ⟨2, ![R, 1]⟩ w)
    (upd : (⟨1, ![R]⟩ : Shape).Idx → EReal) (n : Fin N) :
    Host.scatterAdd (F := Ideal) (φ := φ) (eltScatterDims N R wf) x idx upd (ix1 n)
      = x (ix1 n) + ∑ e ∈ Finset.univ.filter (fun e : Fin R => (idx (ix2 e 0)).toInt = (n.val : Int)), upd (ix1 e) := by
  show x (ix1 n) + ∑ j ∈ Finset.univ.filter
    (fun j => (eltScatterDims N R wf).resultIdx? j idx = some (ix1 n)), upd j = _
  congr 1
  rw [Finset.sum_filter, sum_idx1, Finset.sum_filter]
  refine Finset.sum_congr rfl fun e _ => ?_
  simp only [eltScatter_resultIdx_iff]

/-! ## Sums over a concatenated range, and a filter that holds at one point -/

/-- A filtered sum over `Fin T`, `T = A + B`, is the filtered sum over the first `A` indices plus the one over the
    last `B`. -/
theorem sum_filter_split {M : Type*} [AddCommMonoid M] {A B T : Nat} (h : A + B = T) (P : Fin T → Prop)
    [DecidablePred P] (f : Fin T → M) :
    ∑ i ∈ Finset.univ.filter P, f i
      = ∑ i ∈ Finset.univ.filter (fun i : Fin A => P ⟨i.val, by omega⟩), f ⟨i.val, by omega⟩
      + ∑ i ∈ Finset.univ.filter (fun i : Fin B => P ⟨A + i.val, by omega⟩), f ⟨A + i.val, by omega⟩ := by
  subst h
  rw [Finset.sum_filter, Finset.sum_filter, Finset.sum_filter, Fin.sum_univ_add]
  rfl

/-- A filtered sum whose filter holds at exactly one point is the summand there. -/
theorem sum_filter_single {M : Type*} [AddCommMonoid M] {B : Nat} (n : Fin B) (P : Fin B → Prop) [DecidablePred P]
    (hP : ∀ i, P i ↔ i = n) (f : Fin B → M) :
    ∑ i ∈ Finset.univ.filter P, f i = f n := by
  have hs : Finset.univ.filter P = {n} := by
    ext i; simp [hP]
  rw [hs, Finset.sum_singleton]

/-! ## A nonnegative real factor across extended-real sums -/

/-- A nonnegative real factor distributes over an extended-real sum of two terms, whatever the terms. -/
theorem coe_mul_add {r : ℝ} (hr : 0 ≤ r) (y z : EReal) : (r : EReal) * (y + z) = (r : EReal) * y + (r : EReal) * z :=
  EReal.left_distrib_of_nonneg_of_ne_top (EReal.coe_nonneg.mpr hr) (EReal.coe_ne_top r) y z

/-- A nonnegative real factor distributes over a finite extended-real sum, whatever the summands. -/
theorem coe_mul_sum {ι : Type*} (s : Finset ι) (r : ℝ) (hr : 0 ≤ r) (f : ι → EReal) :
    (r : EReal) * ∑ i ∈ s, f i = ∑ i ∈ s, (r : EReal) * f i := by
  classical
  induction s using Finset.induction_on with
  | empty => simp
  | insert a s ha ih => rw [Finset.sum_insert ha, Finset.sum_insert ha, coe_mul_add hr, ih]

/-- Scaling "zero plus a sum, plus a tail" by a nonnegative real: the factor goes onto every summand and the tail. -/
theorem scale_law {ι : Type*} (s : Finset ι) (r : ℝ) (hr : 0 ≤ r) (z : EReal) (hz : z = 0) (a : ι → EReal) (t : EReal) :
    (r : EReal) * ((z + ∑ e ∈ s, a e) + t) = z + (∑ e ∈ s, a e * (r : EReal) + t * (r : EReal)) := by
  subst hz
  rw [zero_add, zero_add, coe_mul_add hr, coe_mul_sum s r hr, mul_comm (r : EReal) t]
  congr 1
  exact Finset.sum_congr rfl fun e _ => mul_comm _ _

/-! ## The index normalisation before a gather, on an index that is a row number already -/

/-- A natural below `100000` as a 32-bit word reads back, signed, as itself. -/
theorem toInt_ofNat_small (k : Nat) (hk : k < 100000) : (BitVec.ofNat 32 k).toInt = (k : Int) := by
  rw [BitVec.toInt_eq_toNat_cond, BitVec.toNat_ofNat]
  split <;> omega

/-- The normalisation "a negative index is shifted up by the extent" leaves a word whose signed value is a row
    number `n` alone, and clamping reads it as `n`. -/
theorem clampRow_of_hit (v : BitVec 32) (n : Fin 100000) (h : v.toInt = (n.val : Int)) :
    clampRow 100000 (by decide) (Scalar.select (IntOp.cmpi .slt v 0#32) (IntOp.addi v 100000#32) v) = n := by
  have hlt : v.slt 0#32 = false := by
    unfold BitVec.slt
    rw [h]
    simp
  have hc : IntOp.cmpi .slt v 0#32 = 0#1 := by
    show BitVec.ofBool (v.slt 0#32) = 0#1
    rw [hlt]; rfl
  rw [hc, select_zero]
  refine Fin.ext ?_
  show min v.toInt.toNat (100000 - 1) = n.val
  rw [h]
  have := n.isLt
  omega

/-- The same for the word of a row number. -/
theorem clampRow_ofNat (n : Fin 100000) :
    clampRow 100000 (by decide) (Scalar.select (IntOp.cmpi .slt (BitVec.ofNat 32 n.val) 0#32)
      (IntOp.addi (BitVec.ofNat 32 n.val) 100000#32) (BitVec.ofNat 32 n.val)) = n :=
  clampRow_of_hit _ n (toInt_ofNat_small n.val n.isLt)

/-- The word of a row number `i` reads, signed, as the row number `n` exactly when `i = n`. -/
theorem toInt_ofNat_lt (n i : Fin 100000) : (BitVec.ofNat 32 i.val).toInt = (n.val : Int) ↔ i = n := by
  rw [toInt_ofNat_small i.val i.isLt]
  constructor
  · intro h; exact Fin.ext (by exact_mod_cast h)
  · rintro rfl; rfl

end Cert.LibGS

end
-- ==== Proof.KStage0.lean ====
/-
  The first stretch of host operations of the idealized kernel, read at an index: the two rows of the edge list as
  vectors of words, and the column `dinv`: at node `n` the reciprocal square root of one plus the number of edges
  whose destination word is `n` — the spec's `dinv`.
-/
import proofs.«153781_j7825430413942_2_alg».proof.Proof.Gen.KernelIdeal.Frame
import proofs.«153781_j7825430413942_2_alg».proof.Proof.Spec
import proofs.«153781_j7825430413942_2_alg».proof.Proof.LibGatherScatter
import Idealize.ShloMosaic.Lib.StableHlo.Run
import Idealize.ShloMosaic.Lib.Pipeline.Value
import Idealize.ShloMosaic.PureOps.Ideal.Laws

noncomputable section

namespace Cert.KernelIdeal.ValueRun

open Cert.KernelIdeal Cert.KernelIdeal.Gen Cert.LibGS
open Idealize.ShloMosaic Idealize.ShloMosaic.TcCoe Idealize.SL.Sem Idealize.ShloMosaic.StableHlo Idealize.ShloMosaic.ValueIdx

/-- Row 0 of the edge list, as a vector, at edge `e`. -/
theorem srcRow_apply (E : S2x1600000.Idx → BitVec 32) (e : Fin 1600000) :
    shapeCast S1600000 (extractStridedSlice S1x1600000 ![0, 0] E slices_S2x1600000_S1x1600000_0_0) shapeCasts_S1x1600000_S1600000 (ix1 e)
      = E (ix2 0 e) := by
  refine (shapeCast_apply _ shapeCasts_S1x1600000_S1600000 (ix1 e) (ix2 (0 : Fin 1) e)
    (by rewrite [Shape.rowMajor_val_two, Shape.rowMajor_val_one]; show (0 : Nat) * 1600000 + e.val = e.val; omega)).trans ?_
  exact extractStridedSlice_apply ![0, 0] E slices_S2x1600000_S1x1600000_0_0 (ix2 (0 : Fin 1) e) (ix2 (0 : Fin 2) e) (fun a => match a with
    | ⟨0, _⟩ => by show (0 : Nat) = 0 + 0; rfl
    | ⟨1, _⟩ => by show e.val = 0 + e.val; omega)

/-- Row 1 of the edge list, as a vector, at edge `e`. -/
theorem dstRow_apply (E : S2x1600000.Idx → BitVec 32) (e : Fin 1600000) :
    shapeCast S1600000 (extractStridedSlice S1x1600000 ![1, 0] E slices_S2x1600000_S1x1600000_1_0) shapeCasts_S1x1600000_S1600000 (ix1 e)
      = E (ix2 1 e) := by
  refine (shapeCast_apply _ shapeCasts_S1x1600000_S1600000 (ix1 e) (ix2 (0 : Fin 1) e)
    (by rewrite [Shape.rowMajor_val_two, Shape.rowMajor_val_one]; show (0 : Nat) * 1600000 + e.val = e.val; omega)).trans ?_
  exact extractStridedSlice_apply ![1, 0] E slices_S2x1600000_S1x1600000_1_0 (ix2 (0 : Fin 1) e) (ix2 (1 : Fin 2) e) (fun a => match a with
    | ⟨0, _⟩ => by show (1 : Nat) = 1 + 0; rfl
    | ⟨1, _⟩ => by show e.val = 0 + e.val; omega)

theorem edgeCol0_apply {α : Type} (x : S1600000.Idx → α) (e : Fin 1600000) (u : Fin 1) :
    broadcastInDim S1600000x1 ![0] bcast_S1600000_S1600000x1_0 x (ix2 e u) = x (ix1 e) :=
  broadcastInDim_apply _ bcast_S1600000_S1600000x1_0 x (ix2 e u) (ix1 e) (fun a => match a with
    | ⟨0, _⟩ => by show e.val = if (1600000 : Nat) = 1 then 0 else e.val; rw [if_neg (by decide)])

theorem nodeCol_apply {α : Type} (x : S100000.Idx → α) (n : Fin 100000) (u : Fin 1) :
    broadcastInDim S100000x1 ![0] bcast_S100000_S100000x1_0 x (ix2 n u) = x (ix1 n) :=
  broadcastInDim_apply _ bcast_S100000_S100000x1_0 x (ix2 n u) (ix1 n) (fun a => match a with
    | ⟨0, _⟩ => by show n.val = if (100000 : Nat) = 1 then 0 else n.val; rw [if_neg (by decide)])

/-- A splat of one float word over the nodes, at a node; over the edges, at an edge. -/
theorem scalarNode_apply (w : BitVec 32) (n : Fin 100000) :
    broadcastInDim S100000 ![] bcast_S_S100000 (constant (F := Ideal) S_ .f32 w) (ix1 n) = Ideal.ofBits .f32 w :=
  broadcastInDim_apply _ bcast_S_S100000 _ (ix1 n) ix0 (fun a => a.elim0)
theorem scalarEdge_apply (w : BitVec 32) (e : Fin 1600000) :
    broadcastInDim S1600000 ![] bcast_S_S1600000 (constant (F := Ideal) S_ .f32 w) (ix1 e) = Ideal.ofBits .f32 w :=
  broadcastInDim_apply _ bcast_S_S1600000 _ (ix1 e) ix0 (fun a => a.elim0)

/-- The host's reciprocal square root, element by element. -/
theorem rsqrt_apply (y : S100000.Idx → EReal) (i : S100000.Idx) :
    Host.rsqrt (F := Ideal) (φ := .f32) y i = Ideal.rsqrt (y i) := rfl

/-- The column `dinv` as the first stretch computes it from the edge list `E`, at node `n`. -/
theorem dinv_read (E : S2x1600000.Idx → BitVec 32) (n : Fin 100000) (u : Fin 1) :
    broadcastInDim S100000x1 ![0] bcast_S100000_S100000x1_0
      (Host.rsqrt (F := Ideal) (φ := .f32)
        (addf
          (Host.scatterAdd scatter_S100000_S1600000x1_S1600000_n_0_0_1
            (broadcastInDim S100000 ![] bcast_S_S100000 (constant (F := Ideal) S_ .f32 0x00000000#32))
            (broadcastInDim S1600000x1 ![0] bcast_S1600000_S1600000x1_0
              (shapeCast S1600000 (extractStridedSlice S1x1600000 ![1, 0] E slices_S2x1600000_S1x1600000_1_0) shapeCasts_S1x1600000_S1600000))
            (broadcastInDim S1600000 ![] bcast_S_S1600000 (constant (F := Ideal) S_ .f32 0x3F800000#32)))
          (broadcastInDim S100000 ![] bcast_S_S100000 (constant (F := Ideal) S_ .f32 0x3F800000#32)))) (ix2 n u)
      = Cert.Gcn.dinv (Cert.Gcn.dst_ E) n := by
  rw [nodeCol_apply, rsqrt_apply, ValueIdx.addf_apply, scalarNode_apply]
  unfold Cert.Gcn.dinv Cert.Gcn.deg
  refine congrArg Ideal.rsqrt (congrArg (· + Cert.Gcn.one) ?_)
  have hd : scatter_S100000_S1600000x1_S1600000_n_0_0_1
      = eltScatterDims 100000 1600000 scatter_S100000_S1600000x1_S1600000_n_0_0_1_wf := rfl
  rw [hd]
  refine (eltScatterAdd_apply (φ := .f32) _ _ _ _ n).trans ?_
  rw [scalarNode_apply]
  refine congrArg (Cert.Gcn.zero + ·) ?_
  refine Finset.sum_congr (Finset.filter_congr fun e _ => ?_) fun e _ => scalarEdge_apply _ e
  rw [edgeCol0_apply, dstRow_apply]
  rfl

variable (m : (ℓ : Loc nD τ sig) → Buf (Elt Ideal) ℓ) (ρ : Dev nD → PrngReg) (c : Dev nD)

/-- A buffer that no operation of a stretch writes keeps its contents across the stretch. -/
macro "keeps_host " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

theorem W1_arg0 : W1 m ρ c (Proc.devRef .tc main_arg0) = m ((c : Thread nD τ).loc main_arg0) :=
  (show W1 m ρ c (Proc.devRef .tc main_arg0) = W0 m ρ c (Proc.devRef .tc main_arg0) by keeps_host hostOps0).trans rfl
theorem W1_arg3 : W1 m ρ c (Proc.devRef .tc main_arg3) = m ((c : Thread nD τ).loc main_arg3) :=
  (show W1 m ρ c (Proc.devRef .tc main_arg3) = W0 m ρ c (Proc.devRef .tc main_arg3) by keeps_host hostOps0).trans rfl

/-- After the first stretch: the source words. -/
theorem W1_src (e : Fin 1600000) :
    (W1 m ρ c (Proc.devRef .tc main_v1) : S1600000.Idx → BitVec 32) (ix1 e) = Cert.Gcn.src_ (m ((c : Thread nD τ).loc main_arg1)) e := by
  have e0 : (W1 m ρ c (Proc.devRef .tc main_v1) : S1600000.Idx → BitVec 32)
      = shapeCast S1600000 (extractStridedSlice S1x1600000 ![0, 0] (m ((c : Thread nD τ).loc main_arg1)) slices_S2x1600000_S1x1600000_0_0) shapeCasts_S1x1600000_S1600000 := by
    show StableHlo.after hostOps0 (W0 m ρ c) (Proc.devRef .tc main_v1) = _
    after_results
    rfl
  rw [e0]
  exact srcRow_apply _ e

/-- After the first stretch: the destination words. -/
theorem W1_dst (e : Fin 1600000) :
    (W1 m ρ c (Proc.devRef .tc main_v3) : S1600000.Idx → BitVec 32) (ix1 e) = Cert.Gcn.dst_ (m ((c : Thread nD τ).loc main_arg1)) e := by
  have e0 : (W1 m ρ c (Proc.devRef .tc main_v3) : S1600000.Idx → BitVec 32)
      = shapeCast S1600000 (extractStridedSlice S1x1600000 ![1, 0] (m ((c : Thread nD τ).loc main_arg1)) slices_S2x1600000_S1x1600000_1_0) shapeCasts_S1x1600000_S1600000 := by
    show StableHlo.after hostOps0 (W0 m ρ c) (Proc.devRef .tc main_v3) = _
    after_results
    rfl
  rw [e0]
  exact dstRow_apply _ e

/-- After the first stretch: the column `dinv`. -/
theorem W1_dinv (n : Fin 100000) (u : Fin 1) :
    (W1 m ρ c (Proc.devRef .tc main_v13) : S100000x1.Idx → EReal) (ix2 n u) = Cert.Gcn.dinv (Cert.Gcn.dst_ (m ((c : Thread nD τ).loc main_arg1))) n := by
  have e0 : (W1 m ρ c (Proc.devRef .tc main_v13) : S100000x1.Idx → EReal)
      = broadcastInDim S100000x1 ![0] bcast_S100000_S100000x1_0
      (Host.rsqrt (F := Ideal) (φ := .f32)
        (addf
          (Host.scatterAdd scatter_S100000_S1600000x1_S1600000_n_0_0_1
            (broadcastInDim S100000 ![] bcast_S_S100000 (constant (F := Ideal) S_ .f32 0x00000000#32))
            (broadcastInDim S1600000x1 ![0] bcast_S1600000_S1600000x1_0
              (shapeCast S1600000 (extractStridedSlice S1x1600000 ![1, 0] (m ((c : Thread nD τ).loc main_arg1)) slices_S2x1600000_S1x1600000_1_0) shapeCasts_S1x1600000_S1600000))
            (broadcastInDim S1600000 ![] bcast_S_S1600000 (constant (F := Ideal) S_ .f32 0x3F800000#32)))
          (broadcastInDim S100000 ![] bcast_S_S100000 (constant (F := Ideal) S_ .f32 0x3F800000#32)))) := by
    show StableHlo.after hostOps0 (W0 m ρ c) (Proc.devRef .tc main_v13) = _
    after_results
    rfl
  rw [e0]
  exact dinv_read _ n u

end Cert.KernelIdeal.ValueRun

end
-- ==== Proof.KStage1.lean ====
/-
  Between two regions the idealized kernel gathers the rows of the previous region's output at the edges' source
  words and scatter-adds them at the edges' destination words. Read at a node `n` and a feature `q`, the result is
  zero plus the sum, over the edges whose destination word is `n`, of the gathered row's entry `q` — the spec's `agg`.
-/
import proofs.«153781_j7825430413942_2_alg».proof.Proof.Gen.KernelIdeal.Frame
import proofs.«153781_j7825430413942_2_alg».proof.Proof.Spec
import proofs.«153781_j7825430413942_2_alg».proof.Proof.LibGatherScatter
import Idealize.ShloMosaic.Lib.StableHlo.Run
import Idealize.ShloMosaic.Lib.Pipeline.Value
import Idealize.ShloMosaic.PureOps.Ideal.Laws

noncomputable section

namespace Cert.KernelIdeal.ValueRun

open Cert.KernelIdeal Cert.KernelIdeal.Gen Cert.LibGS
open Idealize.ShloMosaic Idealize.ShloMosaic.TcCoe Idealize.SL.Sem Idealize.ShloMosaic.StableHlo Idealize.ShloMosaic.ValueIdx

/-- A vector of edge words viewed as a one-column matrix reads, at `(e, 0)`, the word of edge `e`. -/
theorem edgeCol_apply {α : Type} (x : S1600000.Idx → α) (e : Fin 1600000) (u : Fin 1) :
    broadcastInDim S1600000x1 ![0] bcast_S1600000_S1600000x1_0 x (ix2 e u) = x (ix1 e) :=
  broadcastInDim_apply _ bcast_S1600000_S1600000x1_0 x (ix2 e u) (ix1 e) (fun a => match a with
    | ⟨0, _⟩ => by show e.val = if (1600000 : Nat) = 1 then 0 else e.val; rw [if_neg (by decide)])

/-- The index normalisation the program applies before a gather is the spec's `nrm`, word by word. -/
theorem nrm_apply (S : S1600000.Idx → BitVec 32) (e : Fin 1600000) :
    select (cmpi .slt S (broadcastInDim S1600000 ![] bcast_S_S1600000 (constantI S_ 32 0#32)))
        (addi S (broadcastInDim S1600000 ![] bcast_S_S1600000 (constantI S_ 32 100000#32))) S (ix1 e)
      = Cert.Gcn.nrm (S (ix1 e)) := rfl

/-- Rows of `A` gathered at the source words `S1` and scatter-added at the destination words `S3`, at `(n, q)`. -/
theorem agg_read (A : S100000x128.Idx → EReal) (S1 S3 : S1600000.Idx → BitVec 32) (n : Fin 100000) (q : Fin 128) :
    Host.scatterAdd (F := Ideal) (φ := .f32) scatter_S100000x128_S1600000x1_S1600000x128_1_0_0_1
        (broadcastInDim S100000x128 ![] bcast_S_S100000x128 (constant (F := Ideal) S_ .f32 0x00000000#32))
        (broadcastInDim S1600000x1 ![0] bcast_S1600000_S1600000x1_0 S3)
        (extf .f32 (Host.gather gather_S100000x128_S1600000x1_S1600000x128_1_0_n_n_0_1_1128 (A : FVec Ideal S100000x128 .bf16)
          (broadcastInDim S1600000x1 ![0] bcast_S1600000_S1600000x1_0
            (select (cmpi .slt S1 (broadcastInDim S1600000 ![] bcast_S_S1600000 (constantI S_ 32 0#32)))
              (addi S1 (broadcastInDim S1600000 ![] bcast_S_S1600000 (constantI S_ 32 100000#32))) S1))) bitsLt_bf16_f32)
        (ix2 n q)
      = Cert.Gcn.zero + ∑ e ∈ Finset.univ.filter (fun e : Fin 1600000 => (S3 (ix1 e)).toInt = (n.val : Int)),
          A (ix2 (Cert.Gcn.row (S1 (ix1 e))) q) := by
  have hd : scatter_S100000x128_S1600000x1_S1600000x128_1_0_0_1
      = rowScatterDims 100000 1600000 128 scatter_S100000x128_S1600000x1_S1600000x128_1_0_0_1_wf := rfl
  have hg : gather_S100000x128_S1600000x1_S1600000x128_1_0_n_n_0_1_1128
      = rowGatherDims 100000 1600000 128 gather_S100000x128_S1600000x1_S1600000x128_1_0_n_n_0_1_1128_wf := rfl
  rw [hd]
  refine (rowScatterAdd_apply (φ := .f32) _ _ _ _ n q).trans ?_
  refine congrArg₂ (· + ·) rfl ?_
  refine Finset.sum_congr (Finset.filter_congr fun e _ => by rw [edgeCol_apply]) fun e _ => ?_
  show Host.gather gather_S100000x128_S1600000x1_S1600000x128_1_0_n_n_0_1_1128 A _ (ix2 e q) = _
  rw [hg]
  refine (rowGather_apply (by decide) _ A _ e q).trans ?_
  rw [edgeCol_apply, nrm_apply]
  rfl

variable (m : (ℓ : Loc nD τ sig) → Buf (Elt Ideal) ℓ) (ρ : Dev nD → PrngReg) (c : Dev nD)

/-- After the second stretch: the first layer's messages summed at their destinations, from what the stretch finds in
    the pre-scaled rows (`hp`) and the source and destination words. -/
theorem W3_agg (src dst : Fin 1600000 → BitVec 32) (hp : Fin 100000 → Fin 128 → EReal)
    (h14 : ∀ (n : Fin 100000) (q : Fin 128), (W2 m ρ c (Proc.devRef .tc main_v14) : S100000x128.Idx → EReal) (ix2 n q) = hp n q)
    (h1 : ∀ e : Fin 1600000, (W2 m ρ c (Proc.devRef .tc main_v1) : S1600000.Idx → BitVec 32) (ix1 e) = src e)
    (h3 : ∀ e : Fin 1600000, (W2 m ρ c (Proc.devRef .tc main_v3) : S1600000.Idx → BitVec 32) (ix1 e) = dst e)
    (n : Fin 100000) (q : Fin 128) :
    (W3 m ρ c (Proc.devRef .tc main_v25) : S100000x128.Idx → EReal) (ix2 n q) = Cert.Gcn.agg src dst hp n q := by
  have e0 : (W3 m ρ c (Proc.devRef .tc main_v25) : S100000x128.Idx → EReal)
      = Host.scatterAdd (F := Ideal) (φ := .f32) scatter_S100000x128_S1600000x1_S1600000x128_1_0_0_1
        (broadcastInDim S100000x128 ![] bcast_S_S100000x128 (constant (F := Ideal) S_ .f32 0x00000000#32))
        (broadcastInDim S1600000x1 ![0] bcast_S1600000_S1600000x1_0 (W2 m ρ c (Proc.devRef .tc main_v3)))
        (extf .f32 (Host.gather gather_S100000x128_S1600000x1_S1600000x128_1_0_n_n_0_1_1128 (W2 m ρ c (Proc.devRef .tc main_v14))
          (broadcastInDim S1600000x1 ![0] bcast_S1600000_S1600000x1_0
            (select (cmpi .slt (W2 m ρ c (Proc.devRef .tc main_v1)) (broadcastInDim S1600000 ![] bcast_S_S1600000 (constantI S_ 32 0#32)))
              (addi (W2 m ρ c (Proc.devRef .tc main_v1)) (broadcastInDim S1600000 ![] bcast_S_S1600000 (constantI S_ 32 100000#32)))
              (W2 m ρ c (Proc.devRef .tc main_v1))))) bitsLt_bf16_f32) := by
    show StableHlo.after hostOps1 (W2 m ρ c) (Proc.devRef .tc main_v25) = _
    after_results
  rw [e0]
  refine (agg_read _ _ _ n q).trans ?_
  unfold Cert.Gcn.agg
  refine congrArg (Cert.Gcn.zero + ·) ?_
  refine Finset.sum_congr (Finset.filter_congr fun e _ => by rw [h3]) fun e _ => ?_
  rw [h1, h14]

/-- After the third stretch: the same for the second layer. -/
theorem W5_agg (src dst : Fin 1600000 → BitVec 32) (hp : Fin 100000 → Fin 128 → EReal)
    (h26 : ∀ (n : Fin 100000) (q : Fin 128), (W4 m ρ c (Proc.devRef .tc main_v26) : S100000x128.Idx → EReal) (ix2 n q) = hp n q)
    (h1 : ∀ e : Fin 1600000, (W4 m ρ c (Proc.devRef .tc main_v1) : S1600000.Idx → BitVec 32) (ix1 e) = src e)
    (h3 : ∀ e : Fin 1600000, (W4 m ρ c (Proc.devRef .tc main_v3) : S1600000.Idx → BitVec 32) (ix1 e) = dst e)
    (n : Fin 100000) (q : Fin 128) :
    (W5 m ρ c (Proc.devRef .tc main_v37) : S100000x128.Idx → EReal) (ix2 n q) = Cert.Gcn.agg src dst hp n q := by
  have e0 : (W5 m ρ c (Proc.devRef .tc main_v37) : S100000x128.Idx → EReal)
      = Host.scatterAdd (F := Ideal) (φ := .f32) scatter_S100000x128_S1600000x1_S1600000x128_1_0_0_1
        (broadcastInDim S100000x128 ![] bcast_S_S100000x128 (constant (F := Ideal) S_ .f32 0x00000000#32))
        (broadcastInDim S1600000x1 ![0] bcast_S1600000_S1600000x1_0 (W4 m ρ c (Proc.devRef .tc main_v3)))
        (extf .f32 (Host.gather gather_S100000x128_S1600000x1_S1600000x128_1_0_n_n_0_1_1128 (W4 m ρ c (Proc.devRef .tc main_v26))
          (broadcastInDim S1600000x1 ![0] bcast_S1600000_S1600000x1_0
            (select (cmpi .slt (W4 m ρ c (Proc.devRef .tc main_v1)) (broadcastInDim S1600000 ![] bcast_S_S1600000 (constantI S_ 32 0#32)))
              (addi (W4 m ρ c (Proc.devRef .tc main_v1)) (broadcastInDim S1600000 ![] bcast_S_S1600000 (constantI S_ 32 100000#32)))
              (W4 m ρ c (Proc.devRef .tc main_v1))))) bitsLt_bf16_f32) := by
    show StableHlo.after hostOps2 (W4 m ρ c) (Proc.devRef .tc main_v37) = _
    after_results
  rw [e0]
  refine (agg_read _ _ _ n q).trans ?_
  unfold Cert.Gcn.agg
  refine congrArg (Cert.Gcn.zero + ·) ?_
  refine Finset.sum_congr (Finset.filter_congr fun e _ => by rw [h3]) fun e _ => ?_
  rw [h1, h26]

end Cert.KernelIdeal.ValueRun

end
-- ==== Proof.KKeeps.lean ====
/-
  Buffers that a stretch of host operations does not write, and arrays a region only reads or does not touch, hold at a
  later boundary of the idealized kernel's run what they held at an earlier one: one lemma per buffer and pair of
  boundaries the value proof needs, each the composition of the single-boundary steps.
-/
import proofs.«153781_j7825430413942_2_alg».proof.Proof.KStage0

noncomputable section

namespace Cert.KernelIdeal.ValueRun

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

theorem keep_main_v1_2_1 : W2 m ρ c (Proc.devRef .tc main_v1) = W1 m ρ c (Proc.devRef .tc main_v1) :=
  (show W2 m ρ c (Proc.devRef .tc main_v1) = W1 m ρ c (Proc.devRef .tc main_v1) from W2_of_ne m ρ c main_v1 (by decide))

theorem keep_main_v1_4_1 : W4 m ρ c (Proc.devRef .tc main_v1) = W1 m ρ c (Proc.devRef .tc main_v1) :=
  (((show W4 m ρ c (Proc.devRef .tc main_v1) = W3 m ρ c (Proc.devRef .tc main_v1) from W4_of_ne m ρ c main_v1 (by decide)).trans (show W3 m ρ c (Proc.devRef .tc main_v1) = W2 m ρ c (Proc.devRef .tc main_v1) by keeps_host hostOps1)).trans (show W2 m ρ c (Proc.devRef .tc main_v1) = W1 m ρ c (Proc.devRef .tc main_v1) from W2_of_ne m ρ c main_v1 (by decide)))

theorem keep_main_v3_2_1 : W2 m ρ c (Proc.devRef .tc main_v3) = W1 m ρ c (Proc.devRef .tc main_v3) :=
  (show W2 m ρ c (Proc.devRef .tc main_v3) = W1 m ρ c (Proc.devRef .tc main_v3) from W2_of_ne m ρ c main_v3 (by decide))

theorem keep_main_v3_4_1 : W4 m ρ c (Proc.devRef .tc main_v3) = W1 m ρ c (Proc.devRef .tc main_v3) :=
  (((show W4 m ρ c (Proc.devRef .tc main_v3) = W3 m ρ c (Proc.devRef .tc main_v3) from W4_of_ne m ρ c main_v3 (by decide)).trans (show W3 m ρ c (Proc.devRef .tc main_v3) = W2 m ρ c (Proc.devRef .tc main_v3) by keeps_host hostOps1)).trans (show W2 m ρ c (Proc.devRef .tc main_v3) = W1 m ρ c (Proc.devRef .tc main_v3) from W2_of_ne m ρ c main_v3 (by decide)))

theorem keep_main_v13_3_1 : W3 m ρ c (Proc.devRef .tc main_v13) = W1 m ρ c (Proc.devRef .tc main_v13) :=
  ((show W3 m ρ c (Proc.devRef .tc main_v13) = W2 m ρ c (Proc.devRef .tc main_v13) by keeps_host hostOps1).trans (show W2 m ρ c (Proc.devRef .tc main_v13) = W1 m ρ c (Proc.devRef .tc main_v13) from (W2_arr m ρ c 2).trans (((dat0 (V1 m ρ) c).arrAt_in 2 rfl _).trans (A_eq0 (V1 m ρ) c 2))))

theorem keep_main_v13_5_1 : W5 m ρ c (Proc.devRef .tc main_v13) = W1 m ρ c (Proc.devRef .tc main_v13) :=
  ((((show W5 m ρ c (Proc.devRef .tc main_v13) = W4 m ρ c (Proc.devRef .tc main_v13) by keeps_host hostOps2).trans (show W4 m ρ c (Proc.devRef .tc main_v13) = W3 m ρ c (Proc.devRef .tc main_v13) from (W4_arr m ρ c 2).trans (((dat1 (V3 m ρ) c).arrAt_in 2 rfl _).trans (A_eq1 (V3 m ρ) c 2)))).trans (show W3 m ρ c (Proc.devRef .tc main_v13) = W2 m ρ c (Proc.devRef .tc main_v13) by keeps_host hostOps1)).trans (show W2 m ρ c (Proc.devRef .tc main_v13) = W1 m ρ c (Proc.devRef .tc main_v13) from (W2_arr m ρ c 2).trans (((dat0 (V1 m ρ) c).arrAt_in 2 rfl _).trans (A_eq0 (V1 m ρ) c 2))))

theorem keep_main_v14_3_2 : W3 m ρ c (Proc.devRef .tc main_v14) = W2 m ρ c (Proc.devRef .tc main_v14) :=
  (show W3 m ρ c (Proc.devRef .tc main_v14) = W2 m ρ c (Proc.devRef .tc main_v14) by keeps_host hostOps1)

theorem keep_main_v26_5_4 : W5 m ρ c (Proc.devRef .tc main_v26) = W4 m ρ c (Proc.devRef .tc main_v26) :=
  (show W5 m ρ c (Proc.devRef .tc main_v26) = W4 m ρ c (Proc.devRef .tc main_v26) by keeps_host hostOps2)

theorem keep_main_arg4_3_0 : W3 m ρ c (Proc.devRef .tc main_arg4) = W0 m ρ c (Proc.devRef .tc main_arg4) :=
  (((show W3 m ρ c (Proc.devRef .tc main_arg4) = W2 m ρ c (Proc.devRef .tc main_arg4) by keeps_host hostOps1).trans (show W2 m ρ c (Proc.devRef .tc main_arg4) = W1 m ρ c (Proc.devRef .tc main_arg4) from W2_of_ne m ρ c main_arg4 (by decide))).trans (show W1 m ρ c (Proc.devRef .tc main_arg4) = W0 m ρ c (Proc.devRef .tc main_arg4) by keeps_host hostOps0))

theorem keep_main_arg5_3_0 : W3 m ρ c (Proc.devRef .tc main_arg5) = W0 m ρ c (Proc.devRef .tc main_arg5) :=
  (((show W3 m ρ c (Proc.devRef .tc main_arg5) = W2 m ρ c (Proc.devRef .tc main_arg5) by keeps_host hostOps1).trans (show W2 m ρ c (Proc.devRef .tc main_arg5) = W1 m ρ c (Proc.devRef .tc main_arg5) from W2_of_ne m ρ c main_arg5 (by decide))).trans (show W1 m ρ c (Proc.devRef .tc main_arg5) = W0 m ρ c (Proc.devRef .tc main_arg5) by keeps_host hostOps0))

theorem keep_main_arg6_5_0 : W5 m ρ c (Proc.devRef .tc main_arg6) = W0 m ρ c (Proc.devRef .tc main_arg6) :=
  (((((show W5 m ρ c (Proc.devRef .tc main_arg6) = W4 m ρ c (Proc.devRef .tc main_arg6) by keeps_host hostOps2).trans (show W4 m ρ c (Proc.devRef .tc main_arg6) = W3 m ρ c (Proc.devRef .tc main_arg6) from W4_of_ne m ρ c main_arg6 (by decide))).trans (show W3 m ρ c (Proc.devRef .tc main_arg6) = W2 m ρ c (Proc.devRef .tc main_arg6) by keeps_host hostOps1)).trans (show W2 m ρ c (Proc.devRef .tc main_arg6) = W1 m ρ c (Proc.devRef .tc main_arg6) from W2_of_ne m ρ c main_arg6 (by decide))).trans (show W1 m ρ c (Proc.devRef .tc main_arg6) = W0 m ρ c (Proc.devRef .tc main_arg6) by keeps_host hostOps0))

theorem keep_main_arg2_6_0 : W6 m ρ c (Proc.devRef .tc main_arg2) = W0 m ρ c (Proc.devRef .tc main_arg2) :=
  ((((((show W6 m ρ c (Proc.devRef .tc main_arg2) = W5 m ρ c (Proc.devRef .tc main_arg2) from W6_of_ne m ρ c main_arg2 (by decide)).trans (show W5 m ρ c (Proc.devRef .tc main_arg2) = W4 m ρ c (Proc.devRef .tc main_arg2) by keeps_host hostOps2)).trans (show W4 m ρ c (Proc.devRef .tc main_arg2) = W3 m ρ c (Proc.devRef .tc main_arg2) from W4_of_ne m ρ c main_arg2 (by decide))).trans (show W3 m ρ c (Proc.devRef .tc main_arg2) = W2 m ρ c (Proc.devRef .tc main_arg2) by keeps_host hostOps1)).trans (show W2 m ρ c (Proc.devRef .tc main_arg2) = W1 m ρ c (Proc.devRef .tc main_arg2) from W2_of_ne m ρ c main_arg2 (by decide))).trans (show W1 m ρ c (Proc.devRef .tc main_arg2) = W0 m ρ c (Proc.devRef .tc main_arg2) by keeps_host hostOps0))

theorem keep_main_arg7_6_0 : W6 m ρ c (Proc.devRef .tc main_arg7) = W0 m ρ c (Proc.devRef .tc main_arg7) :=
  ((((((show W6 m ρ c (Proc.devRef .tc main_arg7) = W5 m ρ c (Proc.devRef .tc main_arg7) from W6_of_ne m ρ c main_arg7 (by decide)).trans (show W5 m ρ c (Proc.devRef .tc main_arg7) = W4 m ρ c (Proc.devRef .tc main_arg7) by keeps_host hostOps2)).trans (show W4 m ρ c (Proc.devRef .tc main_arg7) = W3 m ρ c (Proc.devRef .tc main_arg7) from W4_of_ne m ρ c main_arg7 (by decide))).trans (show W3 m ρ c (Proc.devRef .tc main_arg7) = W2 m ρ c (Proc.devRef .tc main_arg7) by keeps_host hostOps1)).trans (show W2 m ρ c (Proc.devRef .tc main_arg7) = W1 m ρ c (Proc.devRef .tc main_arg7) from W2_of_ne m ρ c main_arg7 (by decide))).trans (show W1 m ρ c (Proc.devRef .tc main_arg7) = W0 m ρ c (Proc.devRef .tc main_arg7) by keeps_host hostOps0))

theorem keep_main_arg8_6_0 : W6 m ρ c (Proc.devRef .tc main_arg8) = W0 m ρ c (Proc.devRef .tc main_arg8) :=
  ((((((show W6 m ρ c (Proc.devRef .tc main_arg8) = W5 m ρ c (Proc.devRef .tc main_arg8) from W6_of_ne m ρ c main_arg8 (by decide)).trans (show W5 m ρ c (Proc.devRef .tc main_arg8) = W4 m ρ c (Proc.devRef .tc main_arg8) by keeps_host hostOps2)).trans (show W4 m ρ c (Proc.devRef .tc main_arg8) = W3 m ρ c (Proc.devRef .tc main_arg8) from W4_of_ne m ρ c main_arg8 (by decide))).trans (show W3 m ρ c (Proc.devRef .tc main_arg8) = W2 m ρ c (Proc.devRef .tc main_arg8) by keeps_host hostOps1)).trans (show W2 m ρ c (Proc.devRef .tc main_arg8) = W1 m ρ c (Proc.devRef .tc main_arg8) from W2_of_ne m ρ c main_arg8 (by decide))).trans (show W1 m ρ c (Proc.devRef .tc main_arg8) = W0 m ρ c (Proc.devRef .tc main_arg8) by keeps_host hostOps0))

theorem keep_main_v50_9_8 : W9 m ρ c (Proc.devRef .tc main_v50) = W8 m ρ c (Proc.devRef .tc main_v50) :=
  (show W9 m ρ c (Proc.devRef .tc main_v50) = W8 m ρ c (Proc.devRef .tc main_v50) by keeps_host hostOps3_2)

theorem keep_main_v45_9_7 : W9 m ρ c (Proc.devRef .tc main_v45) = W7 m ρ c (Proc.devRef .tc main_v45) :=
  ((show W9 m ρ c (Proc.devRef .tc main_v45) = W8 m ρ c (Proc.devRef .tc main_v45) by keeps_host hostOps3_2).trans (show W8 m ρ c (Proc.devRef .tc main_v45) = W7 m ρ c (Proc.devRef .tc main_v45) by keeps_host hostOps3_1))

end Cert.KernelIdeal.ValueRun

end
-- ==== Proof.LibLayout.lean ====
/-
  Two column layouts of small arrays read at an index: a vector viewed as a one-column matrix, and a one-column
  matrix repeated along its rows' second axis. (The library has the row forms; these are the column forms a
  keep-dimensions row reduction produces.)
-/
import Idealize.ShloMosaic.Lib.Pipeline.Value
import Idealize.ShloMosaic.Lib.ValueIdx

namespace Cert.Attn.Layout

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Attn.Layout
-- ==== Proof.KRegionLib.lean ====
/-
  The three regions' payloads, each read at one entry `(p, q)` of a 5000 × 128 block. The pieces: the zero offsets
  of a whole-block access; the block product into a zero accumulator (row `p` of the left operand against column
  `q` of the right one); the per-row scale and the per-column bias, which the bodies broadcast over the block; the
  rectified, scaled and biased sum of a block and its self-loop block that the second and third regions share.
  Then the payloads themselves: the first region's is the feature block against the weights, scaled by rows; the
  second's is the rectified block against the weights, scaled by rows; the third's is the rectified block.
-/
import proofs.«153781_j7825430413942_2_alg».proof.Proof.Gen.KernelIdeal.Skeleton
import proofs.«153781_j7825430413942_2_alg».proof.Proof.LibLayout
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.RegionValue

open Cert.KernelIdeal Cert.KernelIdeal.Gen Idealize.ShloMosaic Idealize.ShloMosaic.TcCoe Idealize.ShloMosaic.ValueIdx Idealize.SL.Sem

theorem off2_zero : (![0, 0] : Fin 2 → Nat) = fun _ => 0 := funext fun a => by fin_cases a <;> rfl
theorem off1_zero : (![0] : Fin 1 → Nat) = fun _ => 0 := funext fun a => by fin_cases a <;> rfl

/-- The dimension numbers of the block product: rows of the left operand against columns of the right one. -/
abbrev rowsByCols := dot_S5000x128_S128x128_S5000x128_1_0_0_1_n_n

theorem rowsByCols_lhs_row (i : S5000x128.Idx) (k : rowsByCols.contr.Idx) : (rowsByCols.lhsIdx i k 0).val = (i 0).val := by
  unfold DotDims.lhsIdx
  rw [dif_neg (show ¬(0 : Fin S5000x128.rank) ∈ rowsByCols.lhsBatch by decide), dif_pos (show (0 : Fin S5000x128.rank) ∈ rowsByCols.lhsNonContracting by decide)]
  rfl
theorem rowsByCols_lhs_col (i : S5000x128.Idx) (k : rowsByCols.contr.Idx) : (rowsByCols.lhsIdx i k 1).val = (k ⟨0, by decide⟩).val :=
  rowsByCols.lhsIdx_val_of_single rfl i k
theorem rowsByCols_rhs_row (i : S5000x128.Idx) (k : rowsByCols.contr.Idx) : (rowsByCols.rhsIdx i k 0).val = (k ⟨0, by decide⟩).val :=
  rowsByCols.rhsIdx_val_of_single rfl i k
theorem rowsByCols_rhs_col (i : S5000x128.Idx) (k : rowsByCols.contr.Idx) : (rowsByCols.rhsIdx i k 1).val = (i 1).val := by
  unfold DotDims.rhsIdx
  rw [dif_neg (show ¬(1 : Fin S128x128.rank) ∈ rowsByCols.rhsBatch by decide), dif_pos (show (1 : Fin S128x128.rank) ∈ rowsByCols.rhsNonContracting by decide)]
  rfl

/-- The block product into a zero accumulator, at entry `(p, q)`: row `p` of the left operand against column `q`
    of the right one. -/
theorem blockProduct_apply (l : FVec Ideal S5000x128 .bf16) (r : FVec Ideal S128x128 .bf16) (p : Fin 5000) (q : Fin 128) :
    matmul rowsByCols none l r (constant (F := Ideal) S5000x128 .f32 0x00000000#32) (ix2 p q)
      = ∑ k : Fin 128, l (ix2 p k) * r (ix2 k q) := by
  simp only [matmul]
  rw [Ideal.matmul_constant_zero_apply, ← Equiv.sum_comp (ValueIdx.contrEquiv1 rowsByCols 128 rfl rfl).symm]
  refine Finset.sum_congr rfl fun k _ => ?_
  have hk := ValueIdx.contrEquiv1_symm_val rowsByCols 128 rfl rfl k
  have el : rowsByCols.lhsIdx (ix2 p q) ((ValueIdx.contrEquiv1 rowsByCols 128 rfl rfl).symm k) = ix2 p k := funext fun a => Fin.ext (by
    match a with
    | ⟨0, _⟩ => exact rowsByCols_lhs_row _ _
    | ⟨1, _⟩ => exact (rowsByCols_lhs_col _ _).trans hk)
  have er : rowsByCols.rhsIdx (ix2 p q) ((ValueIdx.contrEquiv1 rowsByCols 128 rfl rfl).symm k) = ix2 k q := funext fun a => Fin.ext (by
    match a with
    | ⟨0, _⟩ => exact (rowsByCols_rhs_row _ _).trans hk
    | ⟨1, _⟩ => exact rowsByCols_rhs_col _ _)
  rw [el, er]

/-- The per-row scale: a one-column block, cast twice to its own shape and repeated along the rows' second axis,
    reads at `(p, q)` the column's entry of row `p`. -/
theorem rowScale_apply (d : Vec Ideal S5000x1 .f32) (p : Fin 5000) (q : Fin 128) :
    (broadcastTo S5000x128 (shapeCast S5000x1 (shapeCast S5000x1 d shapeCasts_S5000x1_S5000x1) shapeCasts_S5000x1_S5000x1) broadcasts_S5000x1_S5000x128 : FVec Ideal S5000x128 .f32) (ix2 p q)
      = d (ix2 p (0 : Fin 1)) := by
  rw [shapeCast_self, shapeCast_self]
  exact Cert.Attn.Layout.broadcastTo_a1_ab_apply d broadcasts_S5000x1_S5000x128 p q

/-- The per-column bias: a vector viewed as one row and repeated over the rows reads at `(p, q)` its entry `q`. -/
theorem colBias_apply (b : Vec Ideal S128 .f32) (p : Fin 5000) (q : Fin 128) :
    (broadcastTo S5000x128 (shapeCast S1x128 b shapeCasts_S128_S1x128) broadcasts_S1x128_S5000x128 : FVec Ideal S5000x128 .f32) (ix2 p q)
      = b (ix1 q) := by
  refine (broadcastTo_1b_ab_apply (shapeCast S1x128 b shapeCasts_S128_S1x128) broadcasts_S1x128_S5000x128 p q).trans ?_
  exact shapeCast_a_1a_apply b shapeCasts_S128_S1x128 (0 : Fin 1) q

/-- The rectified layer block the second and third regions share, as their bodies compute it: the aggregated block
    plus the self-loop block, times the per-row scale, plus the per-column bias, cut off below at zero. -/
def rectifiedBlock (x0 : Vec Ideal S5000x128 .f32) (x1 : Vec Ideal S5000x128 .bf16) (x2 : Vec Ideal S5000x1 .f32) (x3 : Vec Ideal S128 .f32) :
    FVec Ideal S5000x128 .f32 :=
  maximumf
    (addf
      (mulf (broadcastTo S5000x128 (shapeCast S5000x1 (shapeCast S5000x1 x2 shapeCasts_S5000x1_S5000x1) shapeCasts_S5000x1_S5000x1) broadcasts_S5000x1_S5000x128)
        (addf (shapeCast S5000x128 x0 shapeCasts_S5000x128_S5000x128) (extf .f32 (shapeCast S5000x128 x1 shapeCasts_S5000x128_S5000x128) bitsLt_bf16_f32)))
      (broadcastTo S5000x128 (shapeCast S1x128 x3 shapeCasts_S128_S1x128) broadcasts_S1x128_S5000x128))
    (broadcast S5000x128 (Scalar.ofBits (F := Ideal) .f32 0x00000000#32))

/-- At entry `(p, q)` it is the larger of zero and row `p`'s scale times the two blocks' sum there plus column `q`'s
    bias (the casts to the blocks' own shapes and between the float formats are the identity). -/
theorem rectifiedBlock_apply (x0 : Vec Ideal S5000x128 .f32) (x1 : Vec Ideal S5000x128 .bf16) (x2 : Vec Ideal S5000x1 .f32) (x3 : Vec Ideal S128 .f32)
    (p : Fin 5000) (q : Fin 128) :
    rectifiedBlock x0 x1 x2 x3 (ix2 p q)
      = max (x2 (ix2 p (0 : Fin 1)) * (x0 (ix2 p q) + x1 (ix2 p q)) + x3 (ix1 q)) (Ideal.ofBits .f32 0x00000000#32) := by
  show max ((broadcastTo S5000x128 (shapeCast S5000x1 (shapeCast S5000x1 x2 shapeCasts_S5000x1_S5000x1) shapeCasts_S5000x1_S5000x1) broadcasts_S5000x1_S5000x128 : FVec Ideal S5000x128 .f32) (ix2 p q)
        * ((shapeCast S5000x128 x0 shapeCasts_S5000x128_S5000x128 : FVec Ideal S5000x128 .f32) (ix2 p q)
            + (shapeCast S5000x128 x1 shapeCasts_S5000x128_S5000x128 : FVec Ideal S5000x128 .bf16) (ix2 p q))
        + (broadcastTo S5000x128 (shapeCast S1x128 x3 shapeCasts_S128_S1x128) broadcasts_S1x128_S5000x128 : FVec Ideal S5000x128 .f32) (ix2 p q))
      (Ideal.ofBits .f32 0x00000000#32) = _
  rw [rowScale_apply, colBias_apply, shapeCast_self, shapeCast_self]

/-- The third region's payload is that block. -/
theorem k2_pay1_eq (x0 : Vec Ideal S5000x128 .f32) (x1 : Vec Ideal S5000x128 .bf16) (x2 : Vec Ideal S5000x1 .f32) (x3 : Vec Ideal S128 .f32) :
    k2_pay1 x0 x1 x2 x3 = rectifiedBlock x0 x1 x2 x3 := rfl

/-- The second region's payload is that block against the weights, scaled again row by row. -/
theorem k1_pay1_eq (x0 : Vec Ideal S5000x128 .f32) (x1 : Vec Ideal S5000x128 .bf16) (x2 : Vec Ideal S5000x1 .f32) (x3 : Vec Ideal S128 .f32)
    (x4 : Vec Ideal S128x128 .f32) :
    k1_pay1 x0 x1 x2 x3 x4
      = truncf .bf16
          (mulf
            (matmul rowsByCols none (truncf .bf16 (rectifiedBlock x0 x1 x2 x3) bitsLt_bf16_f32) (truncf .bf16 x4 bitsLt_bf16_f32)
              (constant (F := Ideal) S5000x128 .f32 0x00000000#32))
            (broadcastTo S5000x128 (shapeCast S5000x1 (shapeCast S5000x1 x2 shapeCasts_S5000x1_S5000x1) shapeCasts_S5000x1_S5000x1) broadcasts_S5000x1_S5000x128))
          bitsLt_bf16_f32 := rfl

/-- The first region's payload: the features against the weights, scaled row by row. -/
theorem k0_pay1_eq (x0 : Vec Ideal S5000x128 .f32) (x1 : Vec Ideal S128x128 .f32) (x2 : Vec Ideal S5000x1 .f32) :
    k0_pay1 x0 x1 x2
      = truncf .bf16
          (mulf
            (matmul rowsByCols none (truncf .bf16 x0 bitsLt_bf16_f32) (truncf .bf16 x1 bitsLt_bf16_f32)
              (constant (F := Ideal) S5000x128 .f32 0x00000000#32))
            (broadcastTo S5000x128 (shapeCast S5000x1 (shapeCast S5000x1 x2 shapeCasts_S5000x1_S5000x1) shapeCasts_S5000x1_S5000x1) broadcasts_S5000x1_S5000x128))
          bitsLt_bf16_f32 := rfl

/-- A product of a sum of products with a factor, read at one entry, from its two block operands at that entry. -/
theorem scaledBlockProduct_apply (l : FVec Ideal S5000x128 .bf16) (r : FVec Ideal S128x128 .bf16) (d : Vec Ideal S5000x1 .f32) (p : Fin 5000) (q : Fin 128) :
    (truncf .bf16
        (mulf (matmul rowsByCols none l r (constant (F := Ideal) S5000x128 .f32 0x00000000#32))
          (broadcastTo S5000x128 (shapeCast S5000x1 (shapeCast S5000x1 d shapeCasts_S5000x1_S5000x1) shapeCasts_S5000x1_S5000x1) broadcasts_S5000x1_S5000x128))
        bitsLt_bf16_f32 : FVec Ideal S5000x128 .bf16) (ix2 p q)
      = (∑ k : Fin 128, l (ix2 p k) * r (ix2 k q)) * d (ix2 p (0 : Fin 1)) := by
  show (matmul rowsByCols none l r (constant (F := Ideal) S5000x128 .f32 0x00000000#32)) (ix2 p q)
      * (broadcastTo S5000x128 (shapeCast S5000x1 (shapeCast S5000x1 d shapeCasts_S5000x1_S5000x1) shapeCasts_S5000x1_S5000x1) broadcasts_S5000x1_S5000x128 : FVec Ideal S5000x128 .f32) (ix2 p q) = _
  rw [blockProduct_apply, rowScale_apply]

/-- The first region's payload at entry `(p, q)`: row `p` of the feature block against column `q` of the weights,
    times row `p`'s scale. -/
theorem pay0_apply (x0 : Vec Ideal S5000x128 .f32) (x1 : Vec Ideal S128x128 .f32) (x2 : Vec Ideal S5000x1 .f32) (p : Fin 5000) (q : Fin 128) :
    k0_pay1 x0 x1 x2 (ix2 p q) = (∑ k : Fin 128, x0 (ix2 p k) * x1 (ix2 k q)) * x2 (ix2 p (0 : Fin 1)) := by
  rw [k0_pay1_eq]
  exact scaledBlockProduct_apply (truncf .bf16 x0 bitsLt_bf16_f32) (truncf .bf16 x1 bitsLt_bf16_f32) x2 p q

/-- The second region's payload at entry `(p, q)`: row `p` of the rectified layer block against column `q` of the
    weights, times row `p`'s scale. -/
theorem pay1_apply (x0 : Vec Ideal S5000x128 .f32) (x1 : Vec Ideal S5000x128 .bf16) (x2 : Vec Ideal S5000x1 .f32) (x3 : Vec Ideal S128 .f32)
    (x4 : Vec Ideal S128x128 .f32) (p : Fin 5000) (q : Fin 128) :
    k1_pay1 x0 x1 x2 x3 x4 (ix2 p q)
      = (∑ k : Fin 128, max (x2 (ix2 p (0 : Fin 1)) * (x0 (ix2 p k) + x1 (ix2 p k)) + x3 (ix1 k)) (Ideal.ofBits .f32 0x00000000#32) * x4 (ix2 k q))
          * x2 (ix2 p (0 : Fin 1)) := by
  rw [k1_pay1_eq]
  refine (scaledBlockProduct_apply (truncf .bf16 (rectifiedBlock x0 x1 x2 x3) bitsLt_bf16_f32) (truncf .bf16 x4 bitsLt_bf16_f32) x2 p q).trans ?_
  refine congrArg (· * x2 (ix2 p (0 : Fin 1))) (Finset.sum_congr rfl fun k _ => congrArg (· * x4 (ix2 k q)) ?_)
  exact rectifiedBlock_apply x0 x1 x2 x3 p k

/-- The third region's payload at entry `(p, q)`. -/
theorem pay2_apply (x0 : Vec Ideal S5000x128 .f32) (x1 : Vec Ideal S5000x128 .bf16) (x2 : Vec Ideal S5000x1 .f32) (x3 : Vec Ideal S128 .f32)
    (p : Fin 5000) (q : Fin 128) :
    k2_pay1 x0 x1 x2 x3 (ix2 p q)
      = max (x2 (ix2 p (0 : Fin 1)) * (x0 (ix2 p q) + x1 (ix2 p q)) + x3 (ix1 q)) (Ideal.ofBits .f32 0x00000000#32) := by
  rw [k2_pay1_eq]
  exact rectifiedBlock_apply x0 x1 x2 x3 p q

end Cert.KernelIdeal.RegionValue

end
-- ==== Proof.KRegion0.lean ====
/-
  What the first region (features times weights, scaled by rows) leaves in its output array, entry by entry, for any
  contents of the arrays it finds: the region's payload at an entry is in the payload module; here each input block is
  read as the rows of its array that the output block's rows name, the 20 row blocks are shown to cover the output
  array, and the array is read off as one function of the three arrays the region reads.
-/
import proofs.«153781_j7825430413942_2_alg».proof.Proof.Gen.KernelIdeal.Frame
import proofs.«153781_j7825430413942_2_alg».proof.Proof.KRegionLib
import Idealize.ShloMosaic.Lib.ValueIdx
import Idealize.ShloMosaic.Lib.Pipeline.Value

noncomputable section

namespace Cert.KernelIdeal.RegionValue

open Cert.KernelIdeal Cert.KernelIdeal.Gen Idealize.ShloMosaic Idealize.ShloMosaic.TcCoe Idealize.ShloMosaic.ValueIdx Idealize.SL.Sem
open Idealize.ShloMosaic.Pipeline (Dat)

/-! # What region 0 leaves in its output array

The body multiplies a block of 5000 feature rows with the whole weight matrix and scales each row by its factor; the
grid's 20 points write the 20 row blocks of the output. So the array ends holding, at `(n, q)`, row `n` of the
features against column `q` of the weights, times row `n`'s scale. -/

/-- The output array of region 0 as one function of the three arrays it reads. -/
def scaledProduct (a : S100000x128.Idx → EReal) (w : S128x128.Idx → EReal) (d : S100000x1.Idx → EReal) : S100000x128.Idx → EReal := fun i =>
  (∑ k : Fin 128, a (ix2 ⟨(i 0).val, idx2_lt0 i⟩ k) * w (ix2 k ⟨(i 1).val, idx2_lt1 i⟩)) * d (ix2 ⟨(i 0).val, idx2_lt0 i⟩ (0 : Fin 1))

theorem scaledProduct_apply (a : S100000x128.Idx → EReal) (w : S128x128.Idx → EReal) (d : S100000x1.Idx → EReal) (n : Fin 100000) (q : Fin 128) :
    scaledProduct a w d (ix2 n q) = (∑ k : Fin 128, a (ix2 n k) * w (ix2 k q)) * d (ix2 n (0 : Fin 1)) := rfl

variable (V : (c : Dev nD) → (b : Ref sig .tc) → Buf (Elt Ideal) ((c : Thread nD τ).loc b))

/-- The printed index maps over the 20 grid points: the feature, scale and output windows sit at row block `t`, the
    weights window is the whole array. -/
theorem blockIndex0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The feature block at point `t` is rows `5000 t … 5000 t + 4999` of the feature array. -/
theorem featBlock0_apply (c : Dev nD) (t : Fin cfg0.N) (p : Fin 5000) (k : Fin 128) (n : Fin 100000) (hn : n.val = t.val * 5000 + p.val) :
    iblk0 V c 0 t (ix2 p k) = V c main_arg0 (ix2 n k) := by
  have e := blockIndex0 t
  show V c main_arg0 (((cfg0.win 0).blk t).view.emb (ix2 p k)) = V c main_arg0 (ix2 n k)
  refine congrArg (V c main_arg0) (funext fun a => Fin.ext ?_)
  match a with
  | ⟨0, _⟩ => show win0_0.index t (0 : Fin 2) * 5000 + 1 * p.val = n.val; omega
  | ⟨1, _⟩ => show win0_0.index t (1 : Fin 2) * 128 + 1 * k.val = k.val; omega

/-- The weights block at every point is the whole weight matrix. -/
theorem weightBlock0_apply (c : Dev nD) (t : Fin cfg0.N) (k : Fin 128) (q : Fin 128) :
    iblk0 V c 1 t (ix2 k q) = V c main_arg3 (ix2 k q) := by
  have e := blockIndex0 t
  show V c main_arg3 (((cfg0.win 1).blk t).view.emb (ix2 k q)) = V c main_arg3 (ix2 k q)
  refine congrArg (V c main_arg3) (funext fun a => Fin.ext ?_)
  match a with
  | ⟨0, _⟩ => show win0_1.index t (0 : Fin 2) * 128 + 1 * k.val = k.val; omega
  | ⟨1, _⟩ => show win0_1.index t (1 : Fin 2) * 128 + 1 * q.val = q.val; omega

/-- The scale block at point `t` is rows `5000 t … 5000 t + 4999` of the scale column. -/
theorem scaleBlock0_apply (c : Dev nD) (t : Fin cfg0.N) (p : Fin 5000) (n : Fin 100000) (hn : n.val = t.val * 5000 + p.val) :
    iblk0 V c 2 t (ix2 p (0 : Fin 1)) = V c main_v13 (ix2 n (0 : Fin 1)) := by
  have e := blockIndex0 t
  show V c main_v13 (((cfg0.win 2).blk t).view.emb (ix2 p (0 : Fin 1))) = V c main_v13 (ix2 n (0 : Fin 1))
  refine congrArg (V c main_v13) (funext fun a => Fin.ext ?_)
  match a with
  | ⟨0, _⟩ => show win0_2.index t (0 : Fin 2) * 5000 + 1 * p.val = n.val; omega
  | ⟨1, _⟩ => show win0_2.index t (1 : Fin 2) * 1 + 1 * 0 = 0; omega

/-- Entry `(p, q)` of the output block at point `t` sits at row `5000 t + p`, column `q` of the output array. -/
theorem outBlock0_emb (t : Fin cfg0.N) (p : Fin 5000) (q : Fin 128) (n : Fin 100000) (hn : n.val = t.val * 5000 + p.val) :
    ((cfg0.win 3).blk t).view.emb (ix2 p q) = (ix2 n q : S100000x128.Idx) := by
  have e := blockIndex0 t
  refine funext fun a => Fin.ext ?_
  match a with
  | ⟨0, _⟩ => show win0_3.index t (0 : Fin 2) * 5000 + 1 * p.val = n.val; omega
  | ⟨1, _⟩ => show win0_3.index t (1 : Fin 2) * 128 + 1 * q.val = q.val; omega

set_option maxHeartbeats 400000 in
/-- What grid point `t` writes back is block `t` of `scaledProduct` of the arrays the region finds. -/
theorem flushed0_eq (c : Dev nD) (t : Fin cfg0.N) :
    (dat0 (F := Ideal) V c).flushed 3 t
      = ((cfg0.win 3).blk t).view.read (Elt Ideal) (scaledProduct (V c main_arg0) (V c main_arg3) (V c main_v13)) := by
  show (cfg0.win 3).cut (grid0.coords t) ((dat0 (F := Ideal) V c).after 3 t) = _
  rw [after0_3]
  unfold out0_3
  rw [View.canon_unit_zero off2_zero]
  simp only [View.ld_unit_zero (S := S5000x128) off2_zero, View.ld_unit_zero (S := S128x128) off2_zero, View.ld_unit_zero (S := S5000x1) off2_zero]
  funext j
  obtain ⟨p, q, rfl⟩ : ∃ (p : Fin 5000) (q : Fin 128), j = ix2 p q := ⟨j 0, j 1, eq_ix2 j⟩
  refine (pay0_apply (iblk0 V c 0 t) (iblk0 V c 1 t) (iblk0 V c 2 t) p q).trans ?_
  have ht : t.val < 20 := Nat.lt_of_lt_of_eq t.isLt N_0
  have hn : t.val * 5000 + p.val < 100000 := by have := p.isLt; omega
  show _ = scaledProduct (V c main_arg0) (V c main_arg3) (V c main_v13) (((cfg0.win 3).blk t).view.emb (ix2 p q))
  rw [outBlock0_emb t p q ⟨_, hn⟩ rfl, scaledProduct_apply]
  exact congrArg₂ (· * ·) (Finset.sum_congr rfl fun k _ =>
      congrArg₂ (· * ·) (featBlock0_apply V c t p k ⟨_, hn⟩ rfl) (weightBlock0_apply V c t k q))
    (scaleBlock0_apply V c t p ⟨_, hn⟩ rfl)

/-- An index of the output array is in point `t`'s block iff each coordinate is in the block's range on its axis. -/
theorem mem_outBlock0 (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v14).slice (win0_3.rect t)).set ↔ _
  rw [View.set_slice_whole, Rect.mem_set_unit]
  exact Iff.rfl

/-- The 20 row blocks cover the output array: row `r` is in block `r / 5000`. -/
theorem cover0 (i : S100000x128.Idx) : ∃ t : Fin cfg0.N, (cfg0.win 3).flush t = true ∧ i ∈ ((cfg0.win 3).blk t).view.set := by
  have hi0 : (i 0).val < 100000 := idx2_lt0 i
  have hi1 : (i 1).val < 128 := idx2_lt1 i
  obtain ⟨t, ht⟩ : ∃ t : Fin cfg0.N, t.val = (i 0).val / 5000 :=
    ⟨⟨(i 0).val / 5000, Nat.lt_of_lt_of_eq (by omega) N_0.symm⟩, rfl⟩
  have e := blockIndex0 t
  refine ⟨t, flush0_3 t, ?_⟩
  rw [mem_outBlock0]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- The output array after region 0 is `scaledProduct` of the arrays the region finds. -/
theorem final0 (c : Dev nD) : (dat0 (F := Ideal) V c).arrAt 3 cfg0.N = scaledProduct (V c main_arg0) (V c main_arg3) (V c main_v13) :=
  (dat0 (F := Ideal) V c).arrAt_eq_of_cover 3 (scaledProduct (V c main_arg0) (V c main_arg3) (V c main_v13)) (fun t _ => flushed0_eq V c t) cover0

/-- The same, entry by entry, with the three arrays named (`ha`, `hw`, `hd`: they are the region's entry contents). -/
theorem final0_apply (c : Dev nD) (n : Fin 100000) (q : Fin 128)
    (a : S100000x128.Idx → EReal) (w : S128x128.Idx → EReal) (d : S100000x1.Idx → EReal)
    (ha : a = V c main_arg0) (hw : w = V c main_arg3) (hd : d = V c main_v13) :
    (dat0 (F := Ideal) V c).arrAt 3 cfg0.N (ix2 n q)
      = (∑ k : Fin 128, a (ix2 n k) * w (ix2 k q)) * d (ix2 n (0 : Fin 1)) := by
  subst ha hw hd
  exact congrFun (final0 V c) (ix2 n q)

end Cert.KernelIdeal.RegionValue

end
-- ==== Proof.KRegion1.lean ====
/-
  What the second region (the rectified first-layer values times the second weights, scaled by rows) leaves in its
  output array, entry by entry, for any contents of the arrays it finds: each input block is read as the rows of its
  array that the output block's rows name, the 20 row blocks are shown to cover the output array, and the array is read
  off as one function of the five arrays the region reads.
-/
import proofs.«153781_j7825430413942_2_alg».proof.Proof.Gen.KernelIdeal.Frame
import proofs.«153781_j7825430413942_2_alg».proof.Proof.KRegionLib
import Idealize.ShloMosaic.Lib.ValueIdx
import Idealize.ShloMosaic.Lib.Pipeline.Value

noncomputable section

namespace Cert.KernelIdeal.RegionValue

open Cert.KernelIdeal Cert.KernelIdeal.Gen Idealize.ShloMosaic Idealize.ShloMosaic.TcCoe Idealize.ShloMosaic.ValueIdx Idealize.SL.Sem
open Idealize.ShloMosaic.Pipeline (Dat)

/-! # What region 1 leaves in its output array

The body forms the rectified first-layer value of a block of 5000 rows (the aggregated rows plus the layer's own rows,
scaled by rows, biased by columns, cut off below at zero), multiplies it with the whole second weight matrix and scales
each row by its factor again; the grid's 20 points write the 20 row blocks of the output. So the array ends holding, at
`(n, q)`, row `n` of the rectified values against column `q` of the weights, times row `n`'s scale. -/

/-- The output array of region 1 as one function of the five arrays it reads. -/
def scaledLayerProduct (g : S100000x128.Idx → EReal) (h : S100000x128.Idx → EReal) (d : S100000x1.Idx → EReal) (b : S128.Idx → EReal)
    (w : S128x128.Idx → EReal) : S100000x128.Idx → EReal := fun i =>
  (∑ k : Fin 128,
      max (d (ix2 ⟨(i 0).val, idx2_lt0 i⟩ (0 : Fin 1)) * (g (ix2 ⟨(i 0).val, idx2_lt0 i⟩ k) + h (ix2 ⟨(i 0).val, idx2_lt0 i⟩ k)) + b (ix1 k))
          (Ideal.ofBits .f32 0x00000000#32)
        * w (ix2 k ⟨(i 1).val, idx2_lt1 i⟩))
    * d (ix2 ⟨(i 0).val, idx2_lt0 i⟩ (0 : Fin 1))

theorem scaledLayerProduct_apply (g : S100000x128.Idx → EReal) (h : S100000x128.Idx → EReal) (d : S100000x1.Idx → EReal) (b : S128.Idx → EReal)
    (w : S128x128.Idx → EReal) (n : Fin 100000) (q : Fin 128) :
    scaledLayerProduct g h d b w (ix2 n q)
      = (∑ k : Fin 128, max (d (ix2 n (0 : Fin 1)) * (g (ix2 n k) + h (ix2 n k)) + b (ix1 k)) (Ideal.ofBits .f32 0x00000000#32) * w (ix2 k q))
          * d (ix2 n (0 : Fin 1)) := rfl

variable (V : (c : Dev nD) → (b : Ref sig .tc) → Buf (Elt Ideal) ((c : Thread nD τ).loc b))

/-- The printed index maps over the 20 grid points: the aggregated, self-loop, scale and output windows sit at row
    block `t`, the bias and weights windows are the whole arrays. -/
theorem blockIndex1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 1) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The aggregated block at point `t` is rows `5000 t … 5000 t + 4999` of the aggregated array. -/
theorem aggBlock1_apply (c : Dev nD) (t : Fin cfg1.N) (p : Fin 5000) (k : Fin 128) (n : Fin 100000) (hn : n.val = t.val * 5000 + p.val) :
    iblk1 V c 0 t (ix2 p k) = V c main_v25 (ix2 n k) := by
  have e := blockIndex1 t
  show V c main_v25 (((cfg1.win 0).blk t).view.emb (ix2 p k)) = V c main_v25 (ix2 n k)
  refine congrArg (V c main_v25) (funext fun a => Fin.ext ?_)
  match a with
  | ⟨0, _⟩ => show win1_0.index t (0 : Fin 2) * 5000 + 1 * p.val = n.val; omega
  | ⟨1, _⟩ => show win1_0.index t (1 : Fin 2) * 128 + 1 * k.val = k.val; omega

/-- The self-loop block at point `t` is the same rows of the layer's own values. -/
theorem selfBlock1_apply (c : Dev nD) (t : Fin cfg1.N) (p : Fin 5000) (k : Fin 128) (n : Fin 100000) (hn : n.val = t.val * 5000 + p.val) :
    iblk1 V c 1 t (ix2 p k) = V c main_v14 (ix2 n k) := by
  have e := blockIndex1 t
  show V c main_v14 (((cfg1.win 1).blk t).view.emb (ix2 p k)) = V c main_v14 (ix2 n k)
  refine congrArg (V c main_v14) (funext fun a => Fin.ext ?_)
  match a with
  | ⟨0, _⟩ => show win1_1.index t (0 : Fin 2) * 5000 + 1 * p.val = n.val; omega
  | ⟨1, _⟩ => show win1_1.index t (1 : Fin 2) * 128 + 1 * k.val = k.val; omega

/-- The scale block at point `t` is the same rows of the scale column. -/
theorem scaleBlock1_apply (c : Dev nD) (t : Fin cfg1.N) (p : Fin 5000) (n : Fin 100000) (hn : n.val = t.val * 5000 + p.val) :
    iblk1 V c 2 t (ix2 p (0 : Fin 1)) = V c main_v13 (ix2 n (0 : Fin 1)) := by
  have e := blockIndex1 t
  show V c main_v13 (((cfg1.win 2).blk t).view.emb (ix2 p (0 : Fin 1))) = V c main_v13 (ix2 n (0 : Fin 1))
  refine congrArg (V c main_v13) (funext fun a => Fin.ext ?_)
  match a with
  | ⟨0, _⟩ => show win1_2.index t (0 : Fin 2) * 5000 + 1 * p.val = n.val; omega
  | ⟨1, _⟩ => show win1_2.index t (1 : Fin 2) * 1 + 1 * 0 = 0; omega

/-- The bias block at every point is the whole bias vector. -/
theorem biasBlock1_apply (c : Dev nD) (t : Fin cfg1.N) (q : Fin 128) :
    iblk1 V c 3 t (ix1 q) = V c main_arg4 (ix1 q) := by
  have e := blockIndex1 t
  show V c main_arg4 (((cfg1.win 3).blk t).view.emb (ix1 q)) = V c main_arg4 (ix1 q)
  refine congrArg (V c main_arg4) (funext fun a => Fin.ext ?_)
  match a with
  | ⟨0, _⟩ => show win1_3.index t (0 : Fin 1) * 128 + 1 * q.val = q.val; omega

/-- The weights block at every point is the whole weight matrix. -/
theorem weightBlock1_apply (c : Dev nD) (t : Fin cfg1.N) (k : Fin 128) (q : Fin 128) :
    iblk1 V c 4 t (ix2 k q) = V c main_arg5 (ix2 k q) := by
  have e := blockIndex1 t
  show V c main_arg5 (((cfg1.win 4).blk t).view.emb (ix2 k q)) = V c main_arg5 (ix2 k q)
  refine congrArg (V c main_arg5) (funext fun a => Fin.ext ?_)
  match a with
  | ⟨0, _⟩ => show win1_4.index t (0 : Fin 2) * 128 + 1 * k.val = k.val; omega
  | ⟨1, _⟩ => show win1_4.index t (1 : Fin 2) * 128 + 1 * q.val = q.val; omega

/-- Entry `(p, q)` of the output block at point `t` sits at row `5000 t + p`, column `q` of the output array. -/
theorem outBlock1_emb (t : Fin cfg1.N) (p : Fin 5000) (q : Fin 128) (n : Fin 100000) (hn : n.val = t.val * 5000 + p.val) :
    ((cfg1.win 5).blk t).view.emb (ix2 p q) = (ix2 n q : S100000x128.Idx) := by
  have e := blockIndex1 t
  refine funext fun a => Fin.ext ?_
  match a with
  | ⟨0, _⟩ => show win1_5.index t (0 : Fin 2) * 5000 + 1 * p.val = n.val; omega
  | ⟨1, _⟩ => show win1_5.index t (1 : Fin 2) * 128 + 1 * q.val = q.val; omega

set_option maxHeartbeats 400000 in
/-- What grid point `t` writes back is block `t` of `scaledLayerProduct` of the arrays the region finds. -/
theorem flushed1_eq (c : Dev nD) (t : Fin cfg1.N) :
    (dat1 (F := Ideal) V c).flushed 5 t
      = ((cfg1.win 5).blk t).view.read (Elt Ideal)
          (scaledLayerProduct (V c main_v25) (V c main_v14) (V c main_v13) (V c main_arg4) (V c main_arg5)) := by
  show (cfg1.win 5).cut (grid1.coords t) ((dat1 (F := Ideal) V c).after 5 t) = _
  rw [after1_5]
  unfold out1_5
  rw [View.canon_unit_zero off2_zero]
  simp only [View.ld_unit_zero (S := S5000x128) off2_zero, View.ld_unit_zero (S := S5000x1) off2_zero, View.ld_unit_zero (S := S128) off1_zero,
    View.ld_unit_zero (S := S128x128) off2_zero]
  funext j
  obtain ⟨p, q, rfl⟩ : ∃ (p : Fin 5000) (q : Fin 128), j = ix2 p q := ⟨j 0, j 1, eq_ix2 j⟩
  refine (pay1_apply (iblk1 V c 0 t) (iblk1 V c 1 t) (iblk1 V c 2 t) (iblk1 V c 3 t) (iblk1 V c 4 t) p q).trans ?_
  have ht : t.val < 20 := Nat.lt_of_lt_of_eq t.isLt N_1
  have hn : t.val * 5000 + p.val < 100000 := by have := p.isLt; omega
  show _ = scaledLayerProduct (V c main_v25) (V c main_v14) (V c main_v13) (V c main_arg4) (V c main_arg5) (((cfg1.win 5).blk t).view.emb (ix2 p q))
  rw [outBlock1_emb t p q ⟨_, hn⟩ rfl, scaledLayerProduct_apply]
  exact congrArg₂ (· * ·) (Finset.sum_congr rfl fun k _ =>
      congrArg₂ (· * ·)
        (congrArg (max · (Ideal.ofBits .f32 0x00000000#32))
          (congrArg₂ (· + ·)
            (congrArg₂ (· * ·) (scaleBlock1_apply V c t p ⟨_, hn⟩ rfl)
              (congrArg₂ (· + ·) (aggBlock1_apply V c t p k ⟨_, hn⟩ rfl) (selfBlock1_apply V c t p k ⟨_, hn⟩ rfl)))
            (biasBlock1_apply V c t k)))
        (weightBlock1_apply V c t k q))
    (scaleBlock1_apply V c t p ⟨_, hn⟩ rfl)

/-- An index of the output array is in point `t`'s block iff each coordinate is in the block's range on its axis. -/
theorem mem_outBlock1 (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v26).slice (win1_5.rect t)).set ↔ _
  rw [View.set_slice_whole, Rect.mem_set_unit]
  exact Iff.rfl

/-- The 20 row blocks cover the output array: row `r` is in block `r / 5000`. -/
theorem cover1 (i : S100000x128.Idx) : ∃ t : Fin cfg1.N, (cfg1.win 5).flush t = true ∧ i ∈ ((cfg1.win 5).blk t).view.set := by
  have hi0 : (i 0).val < 100000 := idx2_lt0 i
  have hi1 : (i 1).val < 128 := idx2_lt1 i
  obtain ⟨t, ht⟩ : ∃ t : Fin cfg1.N, t.val = (i 0).val / 5000 :=
    ⟨⟨(i 0).val / 5000, Nat.lt_of_lt_of_eq (by omega) N_1.symm⟩, rfl⟩
  have e := blockIndex1 t
  refine ⟨t, flush1_5 t, ?_⟩
  rw [mem_outBlock1]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- The output array after region 1 is `scaledLayerProduct` of the arrays the region finds. -/
theorem final1 (c : Dev nD) :
    (dat1 (F := Ideal) V c).arrAt 5 cfg1.N
      = scaledLayerProduct (V c main_v25) (V c main_v14) (V c main_v13) (V c main_arg4) (V c main_arg5) :=
  (dat1 (F := Ideal) V c).arrAt_eq_of_cover 5 (scaledLayerProduct (V c main_v25) (V c main_v14) (V c main_v13) (V c main_arg4) (V c main_arg5))
    (fun t _ => flushed1_eq V c t) cover1

/-- The same, entry by entry, with the five arrays named (`hg` … `hw`: they are the region's entry contents). -/
theorem final1_apply (c : Dev nD) (n : Fin 100000) (q : Fin 128)
    (g : S100000x128.Idx → EReal) (h : S100000x128.Idx → EReal) (d : S100000x1.Idx → EReal) (b : S128.Idx → EReal) (w : S128x128.Idx → EReal)
    (hg : g = V c main_v25) (hh : h = V c main_v14) (hd : d = V c main_v13) (hb : b = V c main_arg4) (hw : w = V c main_arg5) :
    (dat1 (F := Ideal) V c).arrAt 5 cfg1.N (ix2 n q)
      = (∑ k : Fin 128, max (d (ix2 n (0 : Fin 1)) * (g (ix2 n k) + h (ix2 n k)) + b (ix1 k)) (Ideal.ofBits .f32 0x00000000#32) * w (ix2 k q))
          * d (ix2 n (0 : Fin 1)) := by
  subst hg hh hd hb hw
  exact congrFun (final1 V c) (ix2 n q)

end Cert.KernelIdeal.RegionValue

end
-- ==== Proof.KRegion2.lean ====
/-
  What the third region (the rectified second-layer values) leaves in its output array, entry by entry, for any
  contents of the arrays it finds: each input block is read as the rows of its array that the output block's rows
  name, the 20 row blocks are shown to cover the output array, and the array is read off as one function of the four
  arrays the region reads.
-/
import proofs.«153781_j7825430413942_2_alg».proof.Proof.Gen.KernelIdeal.Frame
import proofs.«153781_j7825430413942_2_alg».proof.Proof.KRegionLib
import Idealize.ShloMosaic.Lib.ValueIdx
import Idealize.ShloMosaic.Lib.Pipeline.Value

noncomputable section

namespace Cert.KernelIdeal.RegionValue

open Cert.KernelIdeal Cert.KernelIdeal.Gen Idealize.ShloMosaic Idealize.ShloMosaic.TcCoe Idealize.ShloMosaic.ValueIdx Idealize.SL.Sem
open Idealize.ShloMosaic.Pipeline (Dat)

/-! # What region 2 leaves in its output array

The body adds a block of 5000 aggregated rows to the same rows of the layer's own (self-loop) values, scales each row
by its factor, adds the bias of each column and cuts off below at zero; the grid's 20 points write the 20 row blocks
of the output. So the array ends holding that rectified value at every `(n, q)`. -/

/-- The output array of region 2 as one function of the four arrays it reads. -/
def rectifiedLayer (g : S100000x128.Idx → EReal) (h : S100000x128.Idx → EReal) (d : S100000x1.Idx → EReal) (b : S128.Idx → EReal) :
    S100000x128.Idx → EReal := fun i =>
  max (d (ix2 ⟨(i 0).val, idx2_lt0 i⟩ (0 : Fin 1))
        * (g (ix2 ⟨(i 0).val, idx2_lt0 i⟩ ⟨(i 1).val, idx2_lt1 i⟩) + h (ix2 ⟨(i 0).val, idx2_lt0 i⟩ ⟨(i 1).val, idx2_lt1 i⟩))
      + b (ix1 ⟨(i 1).val, idx2_lt1 i⟩)) (Ideal.ofBits .f32 0x00000000#32)

theorem rectifiedLayer_apply (g : S100000x128.Idx → EReal) (h : S100000x128.Idx → EReal) (d : S100000x1.Idx → EReal) (b : S128.Idx → EReal)
    (n : Fin 100000) (q : Fin 128) :
    rectifiedLayer g h d b (ix2 n q)
      = max (d (ix2 n (0 : Fin 1)) * (g (ix2 n q) + h (ix2 n q)) + b (ix1 q)) (Ideal.ofBits .f32 0x00000000#32) := rfl

variable (V : (c : Dev nD) → (b : Ref sig .tc) → Buf (Elt Ideal) ((c : Thread nD τ).loc b))

/-- The printed index maps over the 20 grid points: the aggregated, self-loop, scale and output windows sit at row
    block `t`, the bias window is the whole vector. -/
theorem blockIndex2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 1) = 0
    ∧ win2_4.index t (0 : Fin 2) = t.val ∧ win2_4.index t (1 : Fin 2) = 0 :=
  (by decide +kernel : ∀ t : Fin grid2.N, _)

/-- The aggregated block at point `t` is rows `5000 t … 5000 t + 4999` of the aggregated array. -/
theorem aggBlock2_apply (c : Dev nD) (t : Fin cfg2.N) (p : Fin 5000) (k : Fin 128) (n : Fin 100000) (hn : n.val = t.val * 5000 + p.val) :
    iblk2 V c 0 t (ix2 p k) = V c main_v37 (ix2 n k) := by
  have e := blockIndex2 t
  show V c main_v37 (((cfg2.win 0).blk t).view.emb (ix2 p k)) = V c main_v37 (ix2 n k)
  refine congrArg (V c main_v37) (funext fun a => Fin.ext ?_)
  match a with
  | ⟨0, _⟩ => show win2_0.index t (0 : Fin 2) * 5000 + 1 * p.val = n.val; omega
  | ⟨1, _⟩ => show win2_0.index t (1 : Fin 2) * 128 + 1 * k.val = k.val; omega

/-- The self-loop block at point `t` is the same rows of the layer's own values. -/
theorem selfBlock2_apply (c : Dev nD) (t : Fin cfg2.N) (p : Fin 5000) (k : Fin 128) (n : Fin 100000) (hn : n.val = t.val * 5000 + p.val) :
    iblk2 V c 1 t (ix2 p k) = V c main_v26 (ix2 n k) := by
  have e := blockIndex2 t
  show V c main_v26 (((cfg2.win 1).blk t).view.emb (ix2 p k)) = V c main_v26 (ix2 n k)
  refine congrArg (V c main_v26) (funext fun a => Fin.ext ?_)
  match a with
  | ⟨0, _⟩ => show win2_1.index t (0 : Fin 2) * 5000 + 1 * p.val = n.val; omega
  | ⟨1, _⟩ => show win2_1.index t (1 : Fin 2) * 128 + 1 * k.val = k.val; omega

/-- The scale block at point `t` is the same rows of the scale column. -/
theorem scaleBlock2_apply (c : Dev nD) (t : Fin cfg2.N) (p : Fin 5000) (n : Fin 100000) (hn : n.val = t.val * 5000 + p.val) :
    iblk2 V c 2 t (ix2 p (0 : Fin 1)) = V c main_v13 (ix2 n (0 : Fin 1)) := by
  have e := blockIndex2 t
  show V c main_v13 (((cfg2.win 2).blk t).view.emb (ix2 p (0 : Fin 1))) = V c main_v13 (ix2 n (0 : Fin 1))
  refine congrArg (V c main_v13) (funext fun a => Fin.ext ?_)
  match a with
  | ⟨0, _⟩ => show win2_2.index t (0 : Fin 2) * 5000 + 1 * p.val = n.val; omega
  | ⟨1, _⟩ => show win2_2.index t (1 : Fin 2) * 1 + 1 * 0 = 0; omega

/-- The bias block at every point is the whole bias vector. -/
theorem biasBlock2_apply (c : Dev nD) (t : Fin cfg2.N) (q : Fin 128) :
    iblk2 V c 3 t (ix1 q) = V c main_arg6 (ix1 q) := by
  have e := blockIndex2 t
  show V c main_arg6 (((cfg2.win 3).blk t).view.emb (ix1 q)) = V c main_arg6 (ix1 q)
  refine congrArg (V c main_arg6) (funext fun a => Fin.ext ?_)
  match a with
  | ⟨0, _⟩ => show win2_3.index t (0 : Fin 1) * 128 + 1 * q.val = q.val; omega

/-- Entry `(p, q)` of the output block at point `t` sits at row `5000 t + p`, column `q` of the output array. -/
theorem outBlock2_emb (t : Fin cfg2.N) (p : Fin 5000) (q : Fin 128) (n : Fin 100000) (hn : n.val = t.val * 5000 + p.val) :
    ((cfg2.win 4).blk t).view.emb (ix2 p q) = (ix2 n q : S100000x128.Idx) := by
  have e := blockIndex2 t
  refine funext fun a => Fin.ext ?_
  match a with
  | ⟨0, _⟩ => show win2_4.index t (0 : Fin 2) * 5000 + 1 * p.val = n.val; omega
  | ⟨1, _⟩ => show win2_4.index t (1 : Fin 2) * 128 + 1 * q.val = q.val; omega

set_option maxHeartbeats 400000 in
/-- What grid point `t` writes back is block `t` of `rectifiedLayer` of the arrays the region finds. -/
theorem flushed2_eq (c : Dev nD) (t : Fin cfg2.N) :
    (dat2 (F := Ideal) V c).flushed 4 t
      = ((cfg2.win 4).blk t).view.read (Elt Ideal) (rectifiedLayer (V c main_v37) (V c main_v26) (V c main_v13) (V c main_arg6)) := by
  show (cfg2.win 4).cut (grid2.coords t) ((dat2 (F := Ideal) V c).after 4 t) = _
  rw [after2_4]
  unfold out2_4
  rw [View.canon_unit_zero off2_zero]
  simp only [View.ld_unit_zero (S := S5000x128) off2_zero, View.ld_unit_zero (S := S5000x1) off2_zero, View.ld_unit_zero (S := S128) off1_zero]
  funext j
  obtain ⟨p, q, rfl⟩ : ∃ (p : Fin 5000) (q : Fin 128), j = ix2 p q := ⟨j 0, j 1, eq_ix2 j⟩
  refine (pay2_apply (iblk2 V c 0 t) (iblk2 V c 1 t) (iblk2 V c 2 t) (iblk2 V c 3 t) p q).trans ?_
  have ht : t.val < 20 := Nat.lt_of_lt_of_eq t.isLt N_2
  have hn : t.val * 5000 + p.val < 100000 := by have := p.isLt; omega
  show _ = rectifiedLayer (V c main_v37) (V c main_v26) (V c main_v13) (V c main_arg6) (((cfg2.win 4).blk t).view.emb (ix2 p q))
  rw [outBlock2_emb t p q ⟨_, hn⟩ rfl, rectifiedLayer_apply]
  exact congrArg (max · (Ideal.ofBits .f32 0x00000000#32))
    (congrArg₂ (· + ·)
      (congrArg₂ (· * ·) (scaleBlock2_apply V c t p ⟨_, hn⟩ rfl)
        (congrArg₂ (· + ·) (aggBlock2_apply V c t p q ⟨_, hn⟩ rfl) (selfBlock2_apply V c t p q ⟨_, hn⟩ rfl)))
      (biasBlock2_apply V c t q))

/-- An index of the output array is in point `t`'s block iff each coordinate is in the block's range on its axis. -/
theorem mem_outBlock2 (t : Fin cfg2.N) (i : S100000x128.Idx) :
    i ∈ ((cfg2.win 4).blk t).view.set ↔ ∀ a : Fin 2, win2_4.index t a * S5000x128.size a ≤ (i a).val ∧ (i a).val < win2_4.index t a * S5000x128.size a + S5000x128.size a := by
  show i ∈ ((View.whole main_v38).slice (win2_4.rect t)).set ↔ _
  rw [View.set_slice_whole, Rect.mem_set_unit]
  exact Iff.rfl

/-- The 20 row blocks cover the output array: row `r` is in block `r / 5000`. -/
theorem cover2 (i : S100000x128.Idx) : ∃ t : Fin cfg2.N, (cfg2.win 4).flush t = true ∧ i ∈ ((cfg2.win 4).blk t).view.set := by
  have hi0 : (i 0).val < 100000 := idx2_lt0 i
  have hi1 : (i 1).val < 128 := idx2_lt1 i
  obtain ⟨t, ht⟩ : ∃ t : Fin cfg2.N, t.val = (i 0).val / 5000 :=
    ⟨⟨(i 0).val / 5000, Nat.lt_of_lt_of_eq (by omega) N_2.symm⟩, rfl⟩
  have e := blockIndex2 t
  refine ⟨t, flush2_4 t, ?_⟩
  rw [mem_outBlock2]
  intro a
  match a with
  | ⟨0, _⟩ => show win2_4.index t (0 : Fin 2) * 5000 ≤ (i 0).val ∧ (i 0).val < win2_4.index t (0 : Fin 2) * 5000 + 5000; omega
  | ⟨1, _⟩ => show win2_4.index t (1 : Fin 2) * 128 ≤ (i 1).val ∧ (i 1).val < win2_4.index t (1 : Fin 2) * 128 + 128; omega

/-- The output array after region 2 is `rectifiedLayer` of the arrays the region finds. -/
theorem final2 (c : Dev nD) :
    (dat2 (F := Ideal) V c).arrAt 4 cfg2.N = rectifiedLayer (V c main_v37) (V c main_v26) (V c main_v13) (V c main_arg6) :=
  (dat2 (F := Ideal) V c).arrAt_eq_of_cover 4 (rectifiedLayer (V c main_v37) (V c main_v26) (V c main_v13) (V c main_arg6))
    (fun t _ => flushed2_eq V c t) cover2

/-- The same, entry by entry, with the four arrays named (`hg`, `hh`, `hd`, `hb`: they are the region's entry contents). -/
theorem final2_apply (c : Dev nD) (n : Fin 100000) (q : Fin 128)
    (g : S100000x128.Idx → EReal) (h : S100000x128.Idx → EReal) (d : S100000x1.Idx → EReal) (b : S128.Idx → EReal)
    (hg : g = V c main_v37) (hh : h = V c main_v26) (hd : d = V c main_v13) (hb : b = V c main_arg6) :
    (dat2 (F := Ideal) V c).arrAt 4 cfg2.N (ix2 n q)
      = max (d (ix2 n (0 : Fin 1)) * (g (ix2 n q) + h (ix2 n q)) + b (ix1 q)) (Ideal.ofBits .f32 0x00000000#32) := by
  subst hg hh hd hb
  exact congrFun (final2 V c) (ix2 n q)

end Cert.KernelIdeal.RegionValue

end
-- ==== Proof.KChain.lean ====
/-
  The idealized kernel's buffers at the boundaries of its run, read at an index as the spec's functions of the argument
  arrays: the pre-scaled first layer after region 0, its messages summed after the second stretch, the pre-scaled
  second layer after region 1, its messages after the third stretch, the features after region 2.
-/
import proofs.«153781_j7825430413942_2_alg».proof.Proof.KStage0
import proofs.«153781_j7825430413942_2_alg».proof.Proof.KStage1
import proofs.«153781_j7825430413942_2_alg».proof.Proof.KKeeps
import proofs.«153781_j7825430413942_2_alg».proof.Proof.KRegion0
import proofs.«153781_j7825430413942_2_alg».proof.Proof.KRegion1
import proofs.«153781_j7825430413942_2_alg».proof.Proof.KRegion2

noncomputable section

namespace Cert.KernelIdeal.ValueRun

open Cert.KernelIdeal Cert.KernelIdeal.Gen Cert.KernelIdeal.RegionValue Cert.Gcn
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg) (c : Dev nD)

/-- The spec's coordinates of the launch memory's argument arrays. -/
abbrev sSrc : Fin 1600000 → BitVec 32 := src_ (m ((c : Thread nD τ).loc main_arg1))
abbrev sDst : Fin 1600000 → BitVec 32 := dst_ (m ((c : Thread nD τ).loc main_arg1))
abbrev sX : Fin 100000 → Fin 128 → EReal := x_ (m ((c : Thread nD τ).loc main_arg0))
abbrev sW1 : Fin 128 → Fin 128 → EReal := w_ (m ((c : Thread nD τ).loc main_arg3))
abbrev sB1 : Fin 128 → EReal := b_ (m ((c : Thread nD τ).loc main_arg4))
abbrev sW2 : Fin 128 → Fin 128 → EReal := w_ (m ((c : Thread nD τ).loc main_arg5))
abbrev sB2 : Fin 128 → EReal := b_ (m ((c : Thread nD τ).loc main_arg6))

theorem W0_eq (b : Ref sig .tc) : W0 m ρ c (Proc.devRef .tc b) = m ((c : Thread nD τ).loc b) := rfl

/-- The column `dinv` at the entries of regions 1 and 2 is the one the first stretch computed. -/
theorem W3_dinv (n : Fin 100000) (u : Fin 1) :
    (W3 m ρ c (Proc.devRef .tc main_v13) : S100000x1.Idx → EReal) (ix2 n u) = dinv (sDst m c) n :=
  (congrFun (keep_main_v13_3_1 m ρ c) _).trans (W1_dinv m ρ c n u)
theorem W5_dinv (n : Fin 100000) (u : Fin 1) :
    (W5 m ρ c (Proc.devRef .tc main_v13) : S100000x1.Idx → EReal) (ix2 n u) = dinv (sDst m c) n :=
  (congrFun (keep_main_v13_5_1 m ρ c) _).trans (W1_dinv m ρ c n u)

/-- REGION 0 leaves the first layer's rows pre-scaled. -/
theorem W2_h1p (n : Fin 100000) (q : Fin 128) :
    (W2 m ρ c (Proc.devRef .tc main_v14) : S100000x128.Idx → EReal) (ix2 n q) = pre (sDst m c) (sX m c) (sW1 m c) n q := by
  refine (congrFun (W2_arr m ρ c 3) _).trans ?_
  refine (final0_apply (V1 m ρ) c n q (m ((c : Thread nD τ).loc main_arg0)) (m ((c : Thread nD τ).loc main_arg3))
    (W1 m ρ c (Proc.devRef .tc main_v13)) (W1_arg0 m ρ c).symm (W1_arg3 m ρ c).symm rfl).trans ?_
  rw [W1_dinv]
  rfl

/-- The second stretch sums the first layer's messages. -/
theorem W3_agg1 (n : Fin 100000) (q : Fin 128) :
    (W3 m ρ c (Proc.devRef .tc main_v25) : S100000x128.Idx → EReal) (ix2 n q)
      = agg (sSrc m c) (sDst m c) (pre (sDst m c) (sX m c) (sW1 m c)) n q :=
  W3_agg m ρ c (sSrc m c) (sDst m c) _ (W2_h1p m ρ c)
    (fun e => (congrFun (keep_main_v1_2_1 m ρ c) _).trans (W1_src m ρ c e))
    (fun e => (congrFun (keep_main_v3_2_1 m ρ c) _).trans (W1_dst m ρ c e)) n q

/-- REGION 1 leaves the second layer's rows pre-scaled. -/
theorem W4_h2p (n : Fin 100000) (q : Fin 128) :
    (W4 m ρ c (Proc.devRef .tc main_v26) : S100000x128.Idx → EReal) (ix2 n q)
      = pre (sDst m c) (a1 (sSrc m c) (sDst m c) (sX m c) (sW1 m c) (sB1 m c)) (sW2 m c) n q := by
  refine (congrFun (W4_arr m ρ c 5) _).trans ?_
  refine (final1_apply (V3 m ρ) c n q (W3 m ρ c (Proc.devRef .tc main_v25)) (W3 m ρ c (Proc.devRef .tc main_v14))
    (W3 m ρ c (Proc.devRef .tc main_v13)) (m ((c : Thread nD τ).loc main_arg4)) (m ((c : Thread nD τ).loc main_arg5))
    rfl rfl rfl ((keep_main_arg4_3_0 m ρ c).trans (W0_eq m ρ c main_arg4)).symm ((keep_main_arg5_3_0 m ρ c).trans (W0_eq m ρ c main_arg5)).symm).trans ?_
  rw [W3_dinv]
  unfold pre a1 act
  refine congrArg (· * dinv (sDst m c) n) (Finset.sum_congr rfl fun k _ => ?_)
  rw [W3_agg1, show (W3 m ρ c (Proc.devRef .tc main_v14) : S100000x128.Idx → EReal) (ix2 n k) = pre (sDst m c) (sX m c) (sW1 m c) n k from
    (congrFun (keep_main_v14_3_2 m ρ c) _).trans (W2_h1p m ρ c n k)]
  rfl

/-- The third stretch sums the second layer's messages. -/
theorem W5_agg2 (n : Fin 100000) (q : Fin 128) :
    (W5 m ρ c (Proc.devRef .tc main_v37) : S100000x128.Idx → EReal) (ix2 n q)
      = agg (sSrc m c) (sDst m c) (pre (sDst m c) (a1 (sSrc m c) (sDst m c) (sX m c) (sW1 m c) (sB1 m c)) (sW2 m c)) n q :=
  W5_agg m ρ c (sSrc m c) (sDst m c) _ (W4_h2p m ρ c)
    (fun e => (congrFun (keep_main_v1_4_1 m ρ c) _).trans (W1_src m ρ c e))
    (fun e => (congrFun (keep_main_v3_4_1 m ρ c) _).trans (W1_dst m ρ c e)) n q

/-- REGION 2 leaves the second layer's output: the features of every node. -/
theorem W6_h2 (n : Fin 100000) (q : Fin 128) :
    (W6 m ρ c (Proc.devRef .tc main_v38) : S100000x128.Idx → EReal) (ix2 n q)
      = a2 (sSrc m c) (sDst m c) (sX m c) (sW1 m c) (sB1 m c) (sW2 m c) (sB2 m c) n q := by
  refine (congrFun (W6_arr m ρ c 4) _).trans ?_
  refine (final2_apply (V5 m ρ) c n q (W5 m ρ c (Proc.devRef .tc main_v37)) (W5 m ρ c (Proc.devRef .tc main_v26))
    (W5 m ρ c (Proc.devRef .tc main_v13)) (m ((c : Thread nD τ).loc main_arg6))
    rfl rfl rfl ((keep_main_arg6_5_0 m ρ c).trans (W0_eq m ρ c main_arg6)).symm).trans ?_
  rw [W5_dinv, W5_agg2, show (W5 m ρ c (Proc.devRef .tc main_v26) : S100000x128.Idx → EReal) (ix2 n q)
      = pre (sDst m c) (a1 (sSrc m c) (sDst m c) (sX m c) (sW1 m c) (sB1 m c)) (sW2 m c) n q from
    (congrFun (keep_main_v26_5_4 m ρ c) _).trans (W4_h2p m ρ c n q)]
  rfl

end Cert.KernelIdeal.ValueRun

end
-- ==== Proof.LibHostRead.lean ====
/-
  Small layout operations of a host program, read at an index, generic in the sizes.

  * A vector `[a]` broadcast to a column `[a, 1]` reads the vector at the row (`bcastCol_apply`); a scalar broadcast
    to any shape reads the scalar (`bcastScalar_apply`); a vector `[b]` broadcast to a row `[1, b]` and then to
    `[a, b]` reads the vector at the column (`bcastRow_apply`).
  * Row `r` of a two-row array `[2, E]`, sliced out as `[1, E]` and reshaped to `[E]`, reads the array at `(r, e)`
    (`rowSlice_apply`).
  * The plain product of an `A × K` by a `K × B` matrix over the extended reals, read at `(i, j)`, is the sum over
    the contracted coordinate of the products of the entries: for the host's product (`plainDot_apply`) and for the
    kernel's product accumulated into a zero constant (`plainMatmul_zero_apply`).
-/
import Idealize.ShloMosaic.Lib.ValueIdx
import Idealize.ShloMosaic.Lib.Pipeline.Value
import Idealize.ShloMosaic.Lib.ValueLayout
import Idealize.ShloMosaic.Lib.StackMember
import Idealize.ShloMosaic.PureOps.Ideal.Laws

noncomputable section

open scoped BigOperators

namespace Cert.LibHR

open Idealize.ShloMosaic Idealize.ShloMosaic.ValueIdx

/-! ## Broadcasts -/

/-- A vector broadcast to a one-column matrix reads the vector at the row. -/
theorem bcastCol_apply {α : Type} {a : Nat} (h : (⟨1, ![a]⟩ : Shape).BroadcastsInDim ⟨2, ![a, 1]⟩ ![0])
    (x : (⟨1, ![a]⟩ : Shape).Idx → α) (i : Fin a) (u : Fin 1) :
    broadcastInDim ⟨2, ![a, 1]⟩ ![0] h x (ix2 i u) = x (ix1 i) :=
  broadcastInDim_apply _ h x (ix2 i u) (ix1 i) (fun b => match b with
    | ⟨0, _⟩ => by
      show i.val = if a = 1 then 0 else i.val
      split
      · have := i.isLt; omega
      · rfl)

/-- A scalar broadcast to any shape reads the scalar. -/
theorem bcastScalar_apply {α : Type} {t : Shape} (h : (⟨0, ![]⟩ : Shape).BroadcastsInDim t ![])
    (x : (⟨0, ![]⟩ : Shape).Idx → α) (j : t.Idx) : broadcastInDim t ![] h x j = x ix0 :=
  broadcastInDim_apply _ h x j ix0 (fun b => b.elim0)

/-- A vector broadcast to a one-row matrix and then down the rows reads the vector at the column. -/
theorem bcastRow_apply {α : Type} {a b : Nat} (h1 : (⟨1, ![b]⟩ : Shape).BroadcastsInDim ⟨2, ![1, b]⟩ ![1])
    (h2 : (⟨2, ![1, b]⟩ : Shape).BroadcastsInDim ⟨2, ![a, b]⟩ ![0, 1]) (x : (⟨1, ![b]⟩ : Shape).Idx → α)
    (i : Fin a) (j : Fin b) :
    broadcastInDim ⟨2, ![a, b]⟩ ![0, 1] h2 (broadcastInDim ⟨2, ![1, b]⟩ ![1] h1 x) (ix2 i j) = x (ix1 j) := by
  refine (broadcastInDim_apply _ h2 _ (ix2 i j) (ix2 (0 : Fin 1) j) (fun c => match c with
    | ⟨0, _⟩ => by
      show 0 = if (1 : Nat) = 1 then 0 else i.val
      rw [if_pos rfl]
    | ⟨1, _⟩ => by
      show j.val = if b = 1 then 0 else j.val
      split
      · have := j.isLt; omega
      · rfl)).trans ?_
  exact broadcastInDim_apply _ h1 x (ix2 (0 : Fin 1) j) (ix1 j) (fun c => match c with
    | ⟨0, _⟩ => by
      show j.val = if b = 1 then 0 else j.val
      split
      · have := j.isLt; omega
      · rfl)

/-! ## One row of a two-row array -/

/-- Row `r` of a `[2, E]` array, sliced out and reshaped to `[E]`, reads the array at `(r, e)`. -/
theorem rowSlice_apply {α : Type} {E : Nat} (r : Fin 2) (x : (⟨2, ![2, E]⟩ : Shape).Idx → α)
    (hs : (⟨2, ![2, E]⟩ : Shape).Slices ![r.val, 0] ⟨2, ![1, E]⟩)
    (hc : (⟨2, ![1, E]⟩ : Shape).ShapeCasts ⟨1, ![E]⟩) (e : Fin E) :
    shapeCast ⟨1, ![E]⟩ (extractStridedSlice ⟨2, ![1, E]⟩ ![r.val, 0] x hs) hc (ix1 e) = x (ix2 r e) := by
  refine (shapeCast_apply _ hc (ix1 e) (ix2 (0 : Fin 1) e) (by
    rw [Shape.rowMajor_val_two, Shape.rowMajor_val_one]
    show 0 * E + e.val = e.val
    omega)).trans ?_
  exact extractStridedSlice_apply ![r.val, 0] x hs (ix2 (0 : Fin 1) e) (ix2 r e) (fun c => match c with
    | ⟨0, _⟩ => by show r.val = r.val + 0; omega
    | ⟨1, _⟩ => by show e.val = 0 + e.val; omega)

/-! ## A plain matrix product -/

/-- The dimension numbers of the plain product of an `A × K` by a `K × B` matrix: the left operand's columns
    contracted with the right operand's rows, no batch axes. -/
abbrev plainDotDims (A K B : Nat)
    (wf : DotDims.WF ⟨2, ![A, K]⟩ ⟨2, ![K, B]⟩ ⟨2, ![A, B]⟩ [1] [0] [0] [1] [] []) :
    DotDims ⟨2, ![A, K]⟩ ⟨2, ![K, B]⟩ ⟨2, ![A, B]⟩ where
  lhsContracting := [1]
  rhsContracting := [0]
  lhsNonContracting := [0]
  rhsNonContracting := [1]
  lhsBatch := []
  rhsBatch := []
  wf := wf

/-- They are the library's plain dimension numbers. -/
theorem plainDotDims_eq (A K B : Nat)
    (wf : DotDims.WF ⟨2, ![A, K]⟩ ⟨2, ![K, B]⟩ ⟨2, ![A, B]⟩ [1] [0] [0] [1] [] []) :
    plainDotDims A K B wf = DotDims.plain A K B := rfl

/-- THE HOST'S PLAIN PRODUCT READ AT `(i, j)`, over the extended reals: the sum over the contracted coordinate of
    the products of the entries. -/
theorem plainDot_apply {φ₁ φ₂ : FTy} (A K B : Nat)
    (wf : DotDims.WF ⟨2, ![A, K]⟩ ⟨2, ![K, B]⟩ ⟨2, ![A, B]⟩ [1] [0] [0] [1] [] [])
    (l : (⟨2, ![A, K]⟩ : Shape).Idx → EReal) (r : (⟨2, ![K, B]⟩ : Shape).Idx → EReal) (i : Fin A) (j : Fin B) :
    Host.dotGeneral (F := Ideal) (φ₁ := φ₁) (φ₂ := φ₂) (plainDotDims A K B wf) none l r (ix2 i j)
      = ∑ k : Fin K, l (ix2 i k) * r (ix2 k j) :=
  StackMember.dotGeneral_plain_apply (φ₁ := φ₁) (φ₂ := φ₂) none l r i j

/-- THE KERNEL'S PLAIN PRODUCT INTO A ZERO ACCUMULATOR READ AT `(i, j)`, over the extended reals: the same sum. -/
theorem plainMatmul_zero_apply {φ₁ φ₂ : FTy} (A K B : Nat)
    (wf : DotDims.WF ⟨2, ![A, K]⟩ ⟨2, ![K, B]⟩ ⟨2, ![A, B]⟩ [1] [0] [0] [1] [] [])
    (l : (⟨2, ![A, K]⟩ : Shape).Idx → EReal) (r : (⟨2, ![K, B]⟩ : Shape).Idx → EReal) (i : Fin A) (j : Fin B) :
    FloatOps.matmul (F := Ideal) (φ₁ := φ₁) (φ₂ := φ₂) (plainDotDims A K B wf) none l r
        (constant (F := Ideal) ⟨2, ![A, B]⟩ .f32 0x00000000#32) (ix2 i j)
      = ∑ k : Fin K, l (ix2 i k) * r (ix2 k j) := by
  rw [Ideal.matmul_constant_zero_apply, ← Ideal.dotGeneral_apply (plainDotDims A K B wf) none .single l r (ix2 i j)]
  exact plainDot_apply (φ₁ := φ₁) (φ₂ := φ₂) A K B wf l r i j

end Cert.LibHR

end
-- ==== Proof.KStage3.lean ====
/-
  The last host stretches of the idealized kernel, read at an index: the rows the batch reads out of the second
  layer's output (a row gather at the normalised batch words) and the class scores (a plain product with the last
  weights, plus the bias, rectified).
-/
import proofs.«153781_j7825430413942_2_alg».proof.Proof.KStage0
import proofs.«153781_j7825430413942_2_alg».proof.Proof.LibHostRead
import Idealize.ShloMosaic.Lib.StableHlo.Run
import Idealize.ShloMosaic.Lib.Pipeline.Value
import Idealize.ShloMosaic.PureOps.Ideal.Laws

noncomputable section

namespace Cert.KernelIdeal.ValueRun

open Cert.KernelIdeal Cert.KernelIdeal.Gen Cert.LibGS Cert.LibHR Cert.Gcn
open Idealize.ShloMosaic Idealize.ShloMosaic.TcCoe Idealize.SL.Sem Idealize.ShloMosaic.StableHlo Idealize.ShloMosaic.ValueIdx

/-! ## The rows the batch reads -/

/-- Rows of `A` gathered at the normalised batch words `Bi`, at `(r, q)`: row `row (Bi r)` of `A`. -/
theorem feats_read (A : S100000x128.Idx → EReal) (Bi : S4096.Idx → BitVec 32) (r : Fin 4096) (q : Fin 128) :
    Host.gather gather_S100000x128_S4096x1_S4096x128_1_0_n_n_0_1_1128 A
        (broadcastInDim S4096x1 ![0] bcast_S4096_S4096x1_0
          (select (cmpi .slt Bi (broadcastInDim S4096 ![] bcast_S_S4096 (constantI S_ 32 0#32)))
            (addi Bi (broadcastInDim S4096 ![] bcast_S_S4096 (constantI S_ 32 100000#32))) Bi)) (ix2 r q)
      = A (ix2 (Cert.Gcn.row (Bi (ix1 r))) q) := by
  have hg : gather_S100000x128_S4096x1_S4096x128_1_0_n_n_0_1_1128
      = rowGatherDims 100000 4096 128 gather_S100000x128_S4096x1_S4096x128_1_0_n_n_0_1_1128_wf := rfl
  rw [hg]
  refine (rowGather_apply (by decide) _ A _ r q).trans ?_
  rw [bcastCol_apply]
  rfl

/-- What the stretch leaves in the gathered rows' buffer, over any contents `V` at its entry. -/
theorem v45_after (V : Valuation τ sig (Elt Ideal)) :
    (StableHlo.after hostOps3 V (Proc.devRef .tc main_v45) : S4096x128.Idx → EReal)
      = Host.gather gather_S100000x128_S4096x1_S4096x128_1_0_n_n_0_1_1128 (V (Proc.devRef .tc main_v38))
        (broadcastInDim S4096x1 ![0] bcast_S4096_S4096x1_0
          (select (cmpi .slt (V (Proc.devRef .tc main_arg2)) (broadcastInDim S4096 ![] bcast_S_S4096 (constantI S_ 32 0#32)))
            (addi (V (Proc.devRef .tc main_arg2)) (broadcastInDim S4096 ![] bcast_S_S4096 (constantI S_ 32 100000#32)))
            (V (Proc.devRef .tc main_arg2)))) := by
  after_results

/-! ## The class scores -/

/-- The gathered rows times the last weights `WL`, plus the bias `BL`, rectified, at `(r, j)`. -/
theorem out_read (A : S100000x128.Idx → EReal) (Bi : S4096.Idx → BitVec 32) (WL : S128x2.Idx → EReal) (BL : S2.Idx → EReal)
    (r : Fin 4096) (j : Fin 2) :
    (maximumf (F := Ideal) (φ := .f32)
        (addf (F := Ideal) (φ := .f32)
          (Host.dotGeneral (F := Ideal) (φ₁ := .f32) (φ₂ := .f32) dot_S4096x128_S128x2_S4096x2_1_0_0_1_n_n none
            (Host.gather gather_S100000x128_S4096x1_S4096x128_1_0_n_n_0_1_1128 A
              (broadcastInDim S4096x1 ![0] bcast_S4096_S4096x1_0
                (select (cmpi .slt Bi (broadcastInDim S4096 ![] bcast_S_S4096 (constantI S_ 32 0#32)))
                  (addi Bi (broadcastInDim S4096 ![] bcast_S_S4096 (constantI S_ 32 100000#32))) Bi)))
            WL)
          (broadcastInDim S4096x2 ![0, 1] bcast_S1x2_S4096x2_0_1 (broadcastInDim S1x2 ![1] bcast_S2_S1x2_1 BL)))
        (broadcastInDim S4096x2 ![] bcast_S_S4096x2 (constant (F := Ideal) S_ .f32 0x00000000#32)) : S4096x2.Idx → EReal) (ix2 r j)
      = max ((∑ k : Fin 128, A (ix2 (Cert.Gcn.row (Bi (ix1 r))) k) * WL (ix2 k j)) + BL (ix1 j)) Cert.Gcn.zero := by
  rw [ValueIdx.maximumf_apply, ValueIdx.addf_apply, bcastRow_apply, bcastScalar_apply]
  have hd : dot_S4096x128_S128x2_S4096x2_1_0_0_1_n_n
      = plainDotDims 4096 128 2 dot_S4096x128_S128x2_S4096x2_1_0_0_1_n_n_wf := rfl
  rw [hd, plainDot_apply]
  refine congrArg₂ max (congrArg (· + BL (ix1 j)) (Finset.sum_congr rfl fun k _ => ?_)) rfl
  rw [feats_read]

set_option maxHeartbeats 1000000 in
/-- What the first of the two stretches leaves in the scores' buffer, over any contents `V` at its entry. -/
theorem v49_after (V : Valuation τ sig (Elt Ideal)) :
    (StableHlo.after hostOps3 V (Proc.devRef .tc main_v49) : S4096x2.Idx → EReal)
      = addf (F := Ideal) (φ := .f32)
          (Host.dotGeneral (F := Ideal) (φ₁ := .f32) (φ₂ := .f32) dot_S4096x128_S128x2_S4096x2_1_0_0_1_n_n none
            (Host.gather gather_S100000x128_S4096x1_S4096x128_1_0_n_n_0_1_1128 (V (Proc.devRef .tc main_v38))
              (broadcastInDim S4096x1 ![0] bcast_S4096_S4096x1_0
                (select (cmpi .slt (V (Proc.devRef .tc main_arg2)) (broadcastInDim S4096 ![] bcast_S_S4096 (constantI S_ 32 0#32)))
                  (addi (V (Proc.devRef .tc main_arg2)) (broadcastInDim S4096 ![] bcast_S_S4096 (constantI S_ 32 100000#32))) (V (Proc.devRef .tc main_arg2)))))
            (V (Proc.devRef .tc main_arg7)))
          (broadcastInDim S4096x2 ![0, 1] bcast_S1x2_S4096x2_0_1 (broadcastInDim S1x2 ![1] bcast_S2_S1x2_1 (V (Proc.devRef .tc main_arg8)))) := by
  after_results

/-- What the rectifier leaves in its result's buffer, over any contents `V` at its entry. -/
theorem relu_after (V : Valuation τ sig (Elt Ideal)) :
    (StableHlo.after hostOps3_1 V (Proc.devRef .tc main_v50) : S4096x2.Idx → EReal)
      = maximumf (F := Ideal) (φ := .f32) (V (Proc.devRef .tc main_v49))
          (broadcastInDim S4096x2 ![] bcast_S_S4096x2 (constant (F := Ideal) S_ .f32 0x00000000#32)) := by
  after_results
  rfl

/-- What the two stretches leave in the rectified scores' buffer, over any contents `V` at their entry. -/
theorem v50_after (V : Valuation τ sig (Elt Ideal)) :
    (StableHlo.after hostOps3_1 (StableHlo.after hostOps3 V) (Proc.devRef .tc main_v50) : S4096x2.Idx → EReal)
      = maximumf (F := Ideal) (φ := .f32)
        (addf (F := Ideal) (φ := .f32)
          (Host.dotGeneral (F := Ideal) (φ₁ := .f32) (φ₂ := .f32) dot_S4096x128_S128x2_S4096x2_1_0_0_1_n_n none
            (Host.gather gather_S100000x128_S4096x1_S4096x128_1_0_n_n_0_1_1128 (V (Proc.devRef .tc main_v38))
              (broadcastInDim S4096x1 ![0] bcast_S4096_S4096x1_0
                (select (cmpi .slt (V (Proc.devRef .tc main_arg2)) (broadcastInDim S4096 ![] bcast_S_S4096 (constantI S_ 32 0#32)))
                  (addi (V (Proc.devRef .tc main_arg2)) (broadcastInDim S4096 ![] bcast_S_S4096 (constantI S_ 32 100000#32))) (V (Proc.devRef .tc main_arg2)))))
            (V (Proc.devRef .tc main_arg7)))
          (broadcastInDim S4096x2 ![0, 1] bcast_S1x2_S4096x2_0_1 (broadcastInDim S1x2 ![1] bcast_S2_S1x2_1 (V (Proc.devRef .tc main_arg8)))))
        (broadcastInDim S4096x2 ![] bcast_S_S4096x2 (constant (F := Ideal) S_ .f32 0x00000000#32)) := by
  rw [relu_after, v49_after]

variable (m : (ℓ : Loc nD τ sig) → Buf (Elt Ideal) ℓ) (ρ : Dev nD → PrngReg) (c : Dev nD)

/-- After the stretch: the rows the batch reads, from what the stretch finds in the second layer's output (`f2`) and
    the batch words (`Bi`). -/
theorem W7_feats (f2 : Fin 100000 → Fin 128 → EReal) (Bi : S4096.Idx → BitVec 32)
    (h38 : ∀ (n : Fin 100000) (q : Fin 128), (W6 m ρ c (Proc.devRef .tc main_v38) : S100000x128.Idx → EReal) (ix2 n q) = f2 n q)
    (hbi : (W6 m ρ c (Proc.devRef .tc main_arg2) : S4096.Idx → BitVec 32) = Bi) (r : Fin 4096) (q : Fin 128) :
    (W7 m ρ c (Proc.devRef .tc main_v45) : S4096x128.Idx → EReal) (ix2 r q) = f2 (row (Bi (ix1 r))) q := by
  have e0 : (W7 m ρ c (Proc.devRef .tc main_v45) : S4096x128.Idx → EReal) = _ := v45_after (W6 m ρ c)
  rw [e0]
  refine (feats_read _ _ r q).trans ?_
  rw [h38, hbi]

/-- After the rectifier: the class scores, from what the last stretches find in the second layer's output (`f2`), the
    batch words (`Bi`), the last weights (`WL`) and bias (`BL`). -/
theorem W8_out (f2 : Fin 100000 → Fin 128 → EReal) (Bi : S4096.Idx → BitVec 32) (WL : S128x2.Idx → EReal) (BL : S2.Idx → EReal)
    (h38 : ∀ (n : Fin 100000) (q : Fin 128), (W6 m ρ c (Proc.devRef .tc main_v38) : S100000x128.Idx → EReal) (ix2 n q) = f2 n q)
    (hbi : (W6 m ρ c (Proc.devRef .tc main_arg2) : S4096.Idx → BitVec 32) = Bi)
    (hwl : (W6 m ρ c (Proc.devRef .tc main_arg7) : S128x2.Idx → EReal) = WL)
    (hbl : (W6 m ρ c (Proc.devRef .tc main_arg8) : S2.Idx → EReal) = BL) (r : Fin 4096) (j : Fin 2) :
    (W8 m ρ c (Proc.devRef .tc main_v50) : S4096x2.Idx → EReal) (ix2 r j)
      = max ((∑ k : Fin 128, f2 (row (Bi (ix1 r))) k * WL (ix2 k j)) + BL (ix1 j)) Cert.Gcn.zero := by
  have e0 : (W8 m ρ c (Proc.devRef .tc main_v50) : S4096x2.Idx → EReal) = _ := v50_after (W6 m ρ c)
  rw [e0]
  refine (out_read _ _ _ _ r j).trans ?_
  rw [hbi, hwl, hbl]
  simp only [h38]

end Cert.KernelIdeal.ValueRun

end
-- ==== Proof.KTail.lean ====
/-
  The last stretch of host operations of the idealized kernel: the log-softmax of the class scores, as a function
  of the scores it finds. The stretch computes, row by row: the maximum `m` of the row (a fold of `max` from −∞,
  then `max` with −∞ once more), the shifted scores `y − m`, the logarithm of the row sum of their exponentials, and
  the difference of the two.
-/
import proofs.«153781_j7825430413942_2_alg».proof.Proof.KStage0
import Idealize.ShloMosaic.Lib.StableHlo.Run
import Idealize.ShloMosaic.PureOps.Ideal.Laws

noncomputable section

namespace Cert.KernelIdeal.ValueRun

open Cert.KernelIdeal Cert.KernelIdeal.Gen
open Idealize.ShloMosaic Idealize.ShloMosaic.TcCoe Idealize.SL.Sem Idealize.ShloMosaic.StableHlo

/-- The row maximum as the stretch computes it: the fold of `max` along a row from −∞, then `max` with −∞. -/
def kMax (y : (⟨S4096x2, .f32⟩ : BufTy).Contents (Elt Ideal)) : (⟨S4096, .f32⟩ : BufTy).Contents (Elt Ideal) :=
  maximumf (F := Ideal) (φ := .f32) (broadcastInDim S4096 ![] bcast_S_S4096 (constant (F := Ideal) S_ .f32 0xFF800000#32))
    (Host.reduce (FloatOps.maximumf (F := Ideal) (φ := .f32)) y (constant (F := Ideal) S_ .f32 0xFF800000#32)
      reducesTo_S4096x2_S4096_d1 h_S_)

/-- The scores minus their row maximum. -/
def kShift (y : (⟨S4096x2, .f32⟩ : BufTy).Contents (Elt Ideal)) : (⟨S4096x2, .f32⟩ : BufTy).Contents (Elt Ideal) :=
  subf (F := Ideal) (φ := .f32) y (broadcastInDim S4096x2 ![0, 1] bcast_S4096x1_S4096x2_0_1
    (broadcastInDim S4096x1 ![0] bcast_S4096_S4096x1_0 (kMax y)))

/-- The logarithm of the row sum of the exponentials of the shifted scores, on both columns. -/
def kLse (y : (⟨S4096x2, .f32⟩ : BufTy).Contents (Elt Ideal)) : (⟨S4096x2, .f32⟩ : BufTy).Contents (Elt Ideal) :=
  broadcastInDim S4096x2 ![0, 1] bcast_S4096x1_S4096x2_0_1
    (Host.log (F := Ideal) (φ := .f32) (broadcastInDim S4096x1 ![0] bcast_S4096_S4096x1_0
      (Host.reduceAdd (F := Ideal) (φ := .f32) (Host.exp (F := Ideal) (φ := .f32) (kShift y)) (constant (F := Ideal) S_ .f32 0x00000000#32)
        reducesTo_S4096x2_S4096_d1 h_S_)))

/-- The log-softmax of the class scores, operation by operation as the stretch spells it. -/
def kTail (y : (⟨S4096x2, .f32⟩ : BufTy).Contents (Elt Ideal)) : (⟨S4096x2, .f32⟩ : BufTy).Contents (Elt Ideal) :=
  subf (F := Ideal) (φ := .f32) (kShift y) (kLse y)

set_option maxHeartbeats 1000000 in
/-- What the stretch leaves in its result buffer, over any contents it starts from: `kTail` of the scores there. -/
theorem tail_read (V8 : Valuation τ sig (Elt Ideal)) :
    StableHlo.after hostOps3_2 V8 (Proc.devRef .tc main_v51) = kTail (V8 (Proc.devRef .tc main_v50)) := by
  after_results
  rfl

variable (m : (ℓ : Loc nD τ sig) → Buf (Elt Ideal) ℓ) (ρ : Dev nD → PrngReg) (c : Dev nD)

/-- After the last stretch the result buffer holds `kTail` of the class scores the stretch before left. -/
theorem W9_logp :
    W9 m ρ c (Proc.devRef .tc main_v51) = kTail (W8 m ρ c (Proc.devRef .tc main_v50)) :=
  tail_read (W8 m ρ c)

end Cert.KernelIdeal.ValueRun

end
-- ==== Proof.KValue.lean ====
/-
  The idealized kernel's three results as the spec's functions of the launch memory's argument arrays: the features of
  the batch's nodes, the rectified class scores, and the log-softmax tail applied to those scores.
-/
import proofs.«153781_j7825430413942_2_alg».proof.Proof.KChain
import proofs.«153781_j7825430413942_2_alg».proof.Proof.KStage3
import proofs.«153781_j7825430413942_2_alg».proof.Proof.KTail

noncomputable section

namespace Cert.KernelIdeal.ValueRun

open Cert.KernelIdeal Cert.KernelIdeal.Gen Cert.Gcn
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg) (c : Dev nD)

theorem W6_arg2 : W6 m ρ c (Proc.devRef .tc main_arg2) = m ((c : Thread nD τ).loc main_arg2) :=
  (keep_main_arg2_6_0 m ρ c).trans (W0_eq m ρ c main_arg2)
theorem W6_arg7 : W6 m ρ c (Proc.devRef .tc main_arg7) = m ((c : Thread nD τ).loc main_arg7) :=
  (keep_main_arg7_6_0 m ρ c).trans (W0_eq m ρ c main_arg7)
theorem W6_arg8 : W6 m ρ c (Proc.devRef .tc main_arg8) = m ((c : Thread nD τ).loc main_arg8) :=
  (keep_main_arg8_6_0 m ρ c).trans (W0_eq m ρ c main_arg8)

/-- The third result: the features of the batch's nodes. -/
theorem kernel_feats :
    (W9 m ρ c (Proc.devRef .tc main_v45) : S4096x128.Idx → EReal)
      = Feats (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  funext i
  obtain ⟨r, q, rfl⟩ : ∃ (r : Fin 4096) (q : Fin 128), i = ix2 r q := ⟨i 0, i 1, eq_ix2 i⟩
  refine (congrFun (keep_main_v45_9_7 m ρ c) _).trans ?_
  refine (W7_feats m ρ c _ _ (W6_h2 m ρ c) (W6_arg2 m ρ c) r q).trans ?_
  rfl

/-- The class scores at the last-but-one boundary. -/
theorem W8_scores :
    (W8 m ρ c (Proc.devRef .tc main_v50) : S4096x2.Idx → EReal)
      = Out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  funext i
  obtain ⟨r, j, rfl⟩ : ∃ (r : Fin 4096) (j : Fin 2), i = ix2 r j := ⟨i 0, i 1, eq_ix2 i⟩
  refine (W8_out m ρ c _ _ _ _ (W6_h2 m ρ c) (W6_arg2 m ρ c) (W6_arg7 m ρ c) (W6_arg8 m ρ c) r j).trans ?_
  rfl

/-- The second result: the rectified class scores. -/
theorem kernel_out :
    (W9 m ρ c (Proc.devRef .tc main_v50) : S4096x2.Idx → EReal)
      = Out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (keep_main_v50_9_8 m ρ c).trans (W8_scores m ρ c)

/-- The first result: the log-softmax tail of the class scores. -/
theorem kernel_logp :
    (W9 m ρ c (Proc.devRef .tc main_v51) : S4096x2.Idx → EReal)
      = kTail (Out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) :=
  (W9_logp m ρ c).trans (congrArg kTail (W8_scores m ρ c))

end Cert.KernelIdeal.ValueRun

end
-- ==== Proof.SpecFacts.lean ====
/-
  Facts about the mathematics of `Spec.lean` that both sides use: the float words of one and of zero are the
  numbers 1 and 0; a node's degree is a real number at least 1 (the count of its incoming edges, plus one);
  so its reciprocal square root is a non-negative real.
-/
import proofs.«153781_j7825430413942_2_alg».proof.Proof.Spec

noncomputable section

namespace Cert.Gcn

open Idealize.ShloMosaic

theorem one_eq : Cert.Gcn.one = 1 := by
  show Ideal.ofBits .f32 0x3F800000#32 = 1
  simp [Ideal.ofBits, Ideal.ieee, -EReal.coe_mul]; norm_num

theorem zero_eq : Cert.Gcn.zero = 0 := Ideal.ofBits_zero_f32

/-- A node's degree is the real number `(number of incoming edges) + 1`. -/
theorem deg_eq_coe (dst : Fin 1600000 → BitVec 32) (n : Fin 100000) :
    deg dst n = ((((Finset.univ.filter (fun e : Fin 1600000 => (dst e).toInt = (n.val : Int))).card : ℝ) + 1 : ℝ) : EReal) := by
  unfold deg
  rw [one_eq, zero_eq, zero_add, Finset.sum_const, nsmul_one, EReal.coe_add, EReal.coe_one, EReal.coe_natCast]

/-- The reciprocal square root of a positive real, as a real. -/
theorem rsqrt_coe_pos (r : ℝ) (hr : 0 < r) : Ideal.rsqrt (r : EReal) = (((Real.sqrt r)⁻¹ : ℝ) : EReal) := by
  show (if r < 0 then (⊥ : EReal) else if r = 0 then ⊤ else ((Real.sqrt r)⁻¹ : ℝ)) = _
  rw [if_neg (not_lt.mpr hr.le), if_neg hr.ne']

theorem deg_pos_real (dst : Fin 1600000 → BitVec 32) (n : Fin 100000) :
    (0 : ℝ) < ((Finset.univ.filter (fun e : Fin 1600000 => (dst e).toInt = (n.val : Int))).card : ℝ) + 1 := by
  positivity

/-- `dinv` at a node, as an explicit real. -/
theorem dinv_eq_coe (dst : Fin 1600000 → BitVec 32) (n : Fin 100000) :
    dinv dst n = (((Real.sqrt (((Finset.univ.filter (fun e : Fin 1600000 => (dst e).toInt = (n.val : Int))).card : ℝ) + 1))⁻¹ : ℝ) : EReal) := by
  unfold dinv
  rw [deg_eq_coe, rsqrt_coe_pos _ (deg_pos_real dst n)]

theorem dinv_real (dst : Fin 1600000 → BitVec 32) (n : Fin 100000) : ∃ r : ℝ, 0 ≤ r ∧ dinv dst n = (r : EReal) :=
  ⟨_, inv_nonneg.mpr (Real.sqrt_nonneg _), dinv_eq_coe dst n⟩

/-- A node's degree is a real number at least 1. -/
theorem deg_real (dst : Fin 1600000 → BitVec 32) (n : Fin 100000) : ∃ r : ℝ, 1 ≤ r ∧ deg dst n = (r : EReal) :=
  ⟨_, le_add_of_nonneg_left (Nat.cast_nonneg _), deg_eq_coe dst n⟩

/-- A node's degree is positive. -/
theorem deg_pos (dst : Fin 1600000 → BitVec 32) (n : Fin 100000) : (0 : EReal) < deg dst n := by
  rw [deg_eq_coe]
  exact EReal.coe_pos.mpr (deg_pos_real dst n)

end Cert.Gcn

end
-- ==== Proof.RefIndex.lean ====
/-
  The reference program's index arrays, degree, normalisation and log-softmax tail, read at the ideal values
  (a float an extended real).

  * The two index arrays of length 1700000 = 1600000 + 100000: the first 1600000 entries are the edge list's
    source (destination) words, the last 100000 the words of the node numbers 0 … 99999 (the self loops)
    (`v3_left`, `v3_right`, `v6_left`, `v6_right`).
  * The scatter-add of ones at the destination array is the degree of the mathematics (`ref_deg`); it is a real
    number at least 1, so the guarded reciprocal square root takes its first branch (`ref_dinv`).
  * The normalisation of an entry is the product of the two gathered reciprocal square roots (`ref_norm`).
  * The log-softmax as a function of the class scores it is applied to (`refTail`, `ref_logp`).
-/
import proofs.«153781_j7825430413942_2_alg».proof.Proof.RefRead
import proofs.«153781_j7825430413942_2_alg».proof.Proof.Spec
import proofs.«153781_j7825430413942_2_alg».proof.Proof.SpecFacts
import proofs.«153781_j7825430413942_2_alg».proof.Proof.LibGatherScatter
import Idealize.ShloMosaic.Lib.Pipeline.Value
import Idealize.ShloMosaic.Lib.ValueIdx
import Idealize.ShloMosaic.PureOps.Ideal.Laws

noncomputable section

open scoped BigOperators

namespace Cert.ReferenceIdeal.RefValue

open Cert.ReferenceIdeal Cert.ReferenceIdeal.Read Cert.Gcn Cert.LibGS Idealize.ShloMosaic Idealize.ShloMosaic.ValueIdx

/-! ## The two index arrays -/

/-- The first 1600000 entries of the source array are the edge list's source words. -/
theorem v3_left (x1 : (⟨S2x1600000, .i32⟩ : BufTy).Contents (Elt Ideal)) (e : Fin 1600000) :
    val_main_v3 (F := Ideal) x1 (ix1 (⟨e.val, by omega⟩ : Fin 1700000)) = src_ x1 e := by
  unfold val_main_v3
  refine (concatenate_pair_apply_left _ (val_main_v2 (F := Ideal) x1) (val_main_v0 (F := Ideal))
    Gen.concatenates_S1600000_S100000_S1700000_d0 _ rfl (ix1 e) ?_).trans ?_
  · intro b
    match b with
    | ⟨0, _⟩ => rfl
  · rw [val_main_v2_apply, val_main_v1_apply]
    show x1 _ = x1 (ix2 0 e)
    congr 1
    funext a
    refine Fin.ext ?_
    match a with
    | ⟨0, _⟩ => rfl
    | ⟨1, _⟩ => exact Nat.mod_eq_of_lt e.isLt

/-- The last 100000 entries of the source array are the words of the node numbers. -/
theorem v3_right (x1 : (⟨S2x1600000, .i32⟩ : BufTy).Contents (Elt Ideal)) (n : Fin 100000) :
    val_main_v3 (F := Ideal) x1 (ix1 (⟨1600000 + n.val, by omega⟩ : Fin 1700000)) = BitVec.ofNat 32 n.val := by
  unfold val_main_v3
  refine (concatenate_pair_apply_right _ (val_main_v2 (F := Ideal) x1) (val_main_v0 (F := Ideal))
    Gen.concatenates_S1600000_S100000_S1700000_d0 _ rfl rfl (ix1 n) ?_ ?_).trans ?_
  · intro b hb
    exact absurd (Subsingleton.elim _ _) hb
  · show n.val + 1600000 = 1600000 + n.val
    omega
  · exact val_main_v0_apply (F := Ideal) (ix1 n)

/-- The first 1600000 entries of the destination array are the edge list's destination words. -/
theorem v6_left (x1 : (⟨S2x1600000, .i32⟩ : BufTy).Contents (Elt Ideal)) (e : Fin 1600000) :
    val_main_v6 (F := Ideal) x1 (ix1 (⟨e.val, by omega⟩ : Fin 1700000)) = dst_ x1 e := by
  unfold val_main_v6
  refine (concatenate_pair_apply_left _ (val_main_v5 (F := Ideal) x1) (val_main_v0 (F := Ideal))
    Gen.concatenates_S1600000_S100000_S1700000_d0 _ rfl (ix1 e) ?_).trans ?_
  · intro b
    match b with
    | ⟨0, _⟩ => rfl
  · rw [val_main_v5_apply, val_main_v4_apply]
    show x1 _ = x1 (ix2 1 e)
    congr 1
    funext a
    refine Fin.ext ?_
    match a with
    | ⟨0, _⟩ => rfl
    | ⟨1, _⟩ => exact Nat.mod_eq_of_lt e.isLt

/-- The last 100000 entries of the destination array are the words of the node numbers. -/
theorem v6_right (x1 : (⟨S2x1600000, .i32⟩ : BufTy).Contents (Elt Ideal)) (n : Fin 100000) :
    val_main_v6 (F := Ideal) x1 (ix1 (⟨1600000 + n.val, by omega⟩ : Fin 1700000)) = BitVec.ofNat 32 n.val := by
  unfold val_main_v6
  refine (concatenate_pair_apply_right _ (val_main_v5 (F := Ideal) x1) (val_main_v0 (F := Ideal))
    Gen.concatenates_S1600000_S100000_S1700000_d0 _ rfl rfl (ix1 n) ?_ ?_).trans ?_
  · intro b hb
    exact absurd (Subsingleton.elim _ _) hb
  · show n.val + 1600000 = 1600000 + n.val
    omega
  · exact val_main_v0_apply (F := Ideal) (ix1 n)

/-! ## The degree -/

/-- The printed element scatter record is the general one. -/
theorem scatter_elt_eq :
    scatter_S100000_S1700000x1_S1700000_n_0_0_1
      = eltScatterDims 100000 1700000 Gen.scatter_S100000_S1700000x1_S1700000_n_0_0_1_wf := rfl

/-- The printed element gather record is the general one. -/
theorem gather_elt_eq :
    gather_S100000_S1700000x1_S1700000_n_0_n_n_0_1_1
      = eltGatherDims 100000 1700000 Gen.gather_S100000_S1700000x1_S1700000_n_0_n_n_0_1_1_wf := rfl

/-- The scatter-add of ones at the destination array is the degree: the incoming edges, and the one self loop
    (among the node numbers' words exactly the node's own lands on it). -/
theorem ref_deg (x1 : (⟨S2x1600000, .i32⟩ : BufTy).Contents (Elt Ideal)) (n : Fin 100000) :
    val_main_v10 (F := Ideal) x1 (ix1 n) = deg (dst_ x1) n := by
  have h8 : val_main_v8 (F := Ideal) (ix1 n) = zero := by rw [val_main_v8_apply]; rfl
  have h7 : ∀ e : Fin 1700000, val_main_v7 (F := Ideal) (ix1 e) = one := fun e => by rw [val_main_v7_apply]; rfl
  have h9 : ∀ e : Fin 1700000, val_main_v9 (F := Ideal) x1 (ix2 e 0) = val_main_v6 (F := Ideal) x1 (ix1 e) := fun e => by
    rw [val_main_v9_apply]
    congr 1
    funext a
    match a with
    | ⟨0, _⟩ => rfl
  unfold val_main_v10
  rw [scatter_elt_eq]
  refine (eltScatterAdd_apply (φ := .f32) Gen.scatter_S100000_S1700000x1_S1700000_n_0_0_1_wf
    (val_main_v8 (F := Ideal)) (val_main_v9 (F := Ideal) x1) (val_main_v7 (F := Ideal)) n).trans ?_
  rw [h8]
  simp only [h7, h9]
  refine (congrArg (fun t => zero + t)
    (sum_filter_split (A := 1600000) (B := 100000) (T := 1700000) (by norm_num) _ _)).trans ?_
  simp only [v6_left, v6_right]
  rw [sum_filter_single n _ (fun i => toInt_ofNat_lt n i)]
  exact (add_assoc _ _ _).symm

/-! ## The reciprocal square root of the degree -/

/-- A node's degree is the real number `(number of incoming edges) + 1`, which is positive. -/
theorem deg_pos_ereal (dst : Fin 1600000 → BitVec 32) (n : Fin 100000) : (0 : EReal) < deg dst n := by
  have h : deg dst n
      = ((((Finset.univ.filter (fun e : Fin 1600000 => (dst e).toInt = (n.val : Int))).card : ℝ) + 1 : ℝ) : EReal) := by
    unfold deg
    rw [one_eq, zero_eq, zero_add, Finset.sum_const, nsmul_one, EReal.coe_add, EReal.coe_one, EReal.coe_natCast]
  rw [h]
  exact EReal.coe_pos.mpr (add_pos_of_nonneg_of_pos (Nat.cast_nonneg _) one_pos)

/-- The comparison `a > b` of two extended reals, when it holds. -/
theorem cmp_ogt_of_lt (a b : EReal) (h : b < a) : Ideal.cmp .ogt a b = 1#1 := by
  show BitVec.ofBool (decide (b < a)) = 1#1
  rw [decide_eq_true h]
  rfl

/-- The degree is positive, so the guard `deg > 0` holds and the select takes the reciprocal square root. -/
theorem ref_dinv (x1 : (⟨S2x1600000, .i32⟩ : BufTy).Contents (Elt Ideal)) (n : Fin 100000) :
    val_main_v14 (F := Ideal) x1 (ix1 n) = dinv (dst_ x1) n := by
  have h11 : val_main_v11 (F := Ideal) (ix1 n) = zero := by rw [val_main_v11_apply]; rfl
  have hc : val_main_v12 (F := Ideal) x1 (ix1 n) = 1#1 := by
    rw [val_main_v12_apply, Ideal.cmpf_def, ref_deg, h11, zero_eq]
    exact cmp_ogt_of_lt _ _ (deg_pos_ereal (dst_ x1) n)
  rw [val_main_v14_apply, hc, select_one, val_main_v13_apply, Ideal.hostUnary_rsqrt_def, ref_deg]
  unfold dinv
  rfl

/-! ## The normalisation -/

/-- The index handed to a gather: a negative word is shifted up by the number of nodes. -/
theorem v20_eq (x1 : (⟨S2x1600000, .i32⟩ : BufTy).Contents (Elt Ideal)) (e' : Fin 1700000) :
    val_main_v20 (F := Ideal) x1 (ix2 e' 0) = nrm (val_main_v3 (F := Ideal) x1 (ix1 e')) := by
  rw [val_main_v20_apply]
  have hi : idx_main_v20 (ix2 e' (0 : Fin 1)) = ix1 e' := by
    funext a
    match a with
    | ⟨0, _⟩ => rfl
  rw [hi, val_main_v19_apply, val_main_v16_apply, val_main_v18_apply, val_main_v15_apply, val_main_v17_apply]
  generalize val_main_v3 (F := Ideal) x1 (ix1 e') = v
  rfl

theorem v27_eq (x1 : (⟨S2x1600000, .i32⟩ : BufTy).Contents (Elt Ideal)) (e' : Fin 1700000) :
    val_main_v27 (F := Ideal) x1 (ix2 e' 0) = nrm (val_main_v6 (F := Ideal) x1 (ix1 e')) := by
  rw [val_main_v27_apply]
  have hi : idx_main_v27 (ix2 e' (0 : Fin 1)) = ix1 e' := by
    funext a
    match a with
    | ⟨0, _⟩ => rfl
  rw [hi, val_main_v26_apply, val_main_v23_apply, val_main_v25_apply, val_main_v22_apply, val_main_v24_apply]
  generalize val_main_v6 (F := Ideal) x1 (ix1 e') = v
  rfl

/-- An entry's normalisation: the reciprocal square roots of the degrees of the rows its two words read. -/
theorem ref_norm (x1 : (⟨S2x1600000, .i32⟩ : BufTy).Contents (Elt Ideal)) (e' : Fin 1700000) :
    val_main_v29 (F := Ideal) x1 (ix1 e')
      = dinv (dst_ x1) (row (val_main_v3 (F := Ideal) x1 (ix1 e')))
        * dinv (dst_ x1) (row (val_main_v6 (F := Ideal) x1 (ix1 e'))) := by
  have g21 : val_main_v21 (F := Ideal) x1 (ix1 e')
      = dinv (dst_ x1) (row (val_main_v3 (F := Ideal) x1 (ix1 e'))) := by
    unfold val_main_v21
    rw [gather_elt_eq]
    refine (eltGather_apply (by decide) Gen.gather_S100000_S1700000x1_S1700000_n_0_n_n_0_1_1_wf
      (val_main_v14 (F := Ideal) x1) (val_main_v20 (F := Ideal) x1) e').trans ?_
    rw [ref_dinv, v20_eq]
    rfl
  have g28 : val_main_v28 (F := Ideal) x1 (ix1 e')
      = dinv (dst_ x1) (row (val_main_v6 (F := Ideal) x1 (ix1 e'))) := by
    unfold val_main_v28
    rw [gather_elt_eq]
    refine (eltGather_apply (by decide) Gen.gather_S100000_S1700000x1_S1700000_n_0_n_n_0_1_1_wf
      (val_main_v14 (F := Ideal) x1) (val_main_v27 (F := Ideal) x1) e').trans ?_
    rw [ref_dinv, v27_eq]
    rfl
  rw [val_main_v29_apply, g21, g28]
  rfl

/-! ## The log-softmax tail, as a function of the class scores -/

/-- The row maximum as the program computes it: the fold of `max` along a row from −∞, then `max` with −∞. -/
def refMax (y : (⟨S4096x2, .f32⟩ : BufTy).Contents (Elt Ideal)) : (⟨S4096, .f32⟩ : BufTy).Contents (Elt Ideal) :=
  maximumf (F := Ideal) (φ := .f32) (broadcastInDim S4096 ![] Gen.bcast_S_S4096 (constant (F := Ideal) S_ .f32 0xFF800000#32))
    (Host.reduce (FloatOps.maximumf (F := Ideal) (φ := .f32)) y (constant (F := Ideal) S_ .f32 0xFF800000#32)
      Gen.reducesTo_S4096x2_S4096_d1 Gen.h_S_)

/-- The scores minus their row maximum. -/
def refShift (y : (⟨S4096x2, .f32⟩ : BufTy).Contents (Elt Ideal)) : (⟨S4096x2, .f32⟩ : BufTy).Contents (Elt Ideal) :=
  subf (F := Ideal) (φ := .f32) y (broadcastInDim S4096x2 ![0, 1] Gen.bcast_S4096x1_S4096x2_0_1
    (broadcastInDim S4096x1 ![0] Gen.bcast_S4096_S4096x1_0 (refMax y)))

/-- The logarithm of the row sum of the exponentials of the shifted scores, on both columns. -/
def refLse (y : (⟨S4096x2, .f32⟩ : BufTy).Contents (Elt Ideal)) : (⟨S4096x2, .f32⟩ : BufTy).Contents (Elt Ideal) :=
  broadcastInDim S4096x2 ![0, 1] Gen.bcast_S4096x1_S4096x2_0_1
    (Host.log (F := Ideal) (φ := .f32) (broadcastInDim S4096x1 ![0] Gen.bcast_S4096_S4096x1_0
      (Host.reduceAdd (F := Ideal) (φ := .f32) (Host.exp (F := Ideal) (φ := .f32) (refShift y)) (constant (F := Ideal) S_ .f32 0x00000000#32)
        Gen.reducesTo_S4096x2_S4096_d1 Gen.h_S_)))

/-- The log-softmax of the class scores, operation by operation as the program spells it. -/
def refTail (y : (⟨S4096x2, .f32⟩ : BufTy).Contents (Elt Ideal)) : (⟨S4096x2, .f32⟩ : BufTy).Contents (Elt Ideal) :=
  subf (F := Ideal) (φ := .f32) (refShift y) (refLse y)

/-- The program's log-probabilities are `refTail` of its class scores. -/
theorem ref_logp (x0 : (⟨S100000x128, .f32⟩ : BufTy).Contents (Elt Ideal))
    (x1 : (⟨S2x1600000, .i32⟩ : BufTy).Contents (Elt Ideal))
    (x2 : (⟨S4096, .i32⟩ : BufTy).Contents (Elt Ideal))
    (x3 : (⟨S128x128, .f32⟩ : BufTy).Contents (Elt Ideal))
    (x4 : (⟨S128, .f32⟩ : BufTy).Contents (Elt Ideal))
    (x5 : (⟨S128x128, .f32⟩ : BufTy).Contents (Elt Ideal))
    (x6 : (⟨S128, .f32⟩ : BufTy).Contents (Elt Ideal))
    (x7 : (⟨S128x2, .f32⟩ : BufTy).Contents (Elt Ideal))
    (x8 : (⟨S2, .f32⟩ : BufTy).Contents (Elt Ideal)) :
    val_main_v78 (F := Ideal) x0 x1 x2 x3 x4 x5 x6 x7 x8
      = refTail (val_main_v77 (F := Ideal) x0 x1 x2 x3 x4 x5 x6 x7 x8) := by
  unfold val_main_v78 val_main_call4_v10 val_main_call4_v9 val_main_call4_v8 val_main_call4_v7 val_main_call4_v6
    val_main_call4_v5 val_main_call4_v4 val_main_call4_v3 val_main_call4_v2 val_main_call4_v1 val_main_call4_v0
    val_main_call4_cst val_main_call4_cst_0 val_main_call4_cst_1 refTail refLse refShift refMax
  generalize val_main_v77 (F := Ideal) x0 x1 x2 x3 x4 x5 x6 x7 x8 = y
  rfl

end Cert.ReferenceIdeal.RefValue

end
-- ==== Proof.GcnLaw.lean ====
/-
  The algebra of one graph-convolution layer, over the extended reals.

  A layer sums, over the edge list extended by one self loop per node, the message
  `h (row (src e)) · (dinv (row (src e)) · dinv (row (dst e)))` at the edge's destination. For the edges that land on
  the node `n` the destination row IS `n`, so the factor `dinv n` is common to every summand and to the self loop's
  term. It is a nonnegative real, and a nonnegative real factor moves across an extended-real sum whatever the
  summands are; so the sum equals `dinv n` times (the sum of the pre-scaled rows `h m · dinv m` over the incoming
  edges, plus the node's own pre-scaled row). No finiteness of `h` is used.
-/
import proofs.«153781_j7825430413942_2_alg».proof.Proof.Spec
import proofs.«153781_j7825430413942_2_alg».proof.Proof.LibGatherScatter
import proofs.«153781_j7825430413942_2_alg».proof.Proof.SpecFacts

noncomputable section

open scoped BigOperators

namespace Cert.Gcn

open Idealize.ShloMosaic Idealize.ShloMosaic.ValueIdx

/-- The row a gather reads at a word is the normalised word clamped into the nodes. -/
theorem row_eq_clampRow (v : BitVec 32) : row v = Cert.LibGS.clampRow 100000 (by decide) (nrm v) := rfl

/-- A word whose signed value is the node `n` reads the row `n`. -/
theorem row_of_hit (v : BitVec 32) (n : Fin 100000) (h : v.toInt = (n.val : Int)) : row v = n :=
  Cert.LibGS.clampRow_of_hit v n h

/-- The word of a node's number reads that node's row. -/
theorem row_ofNat (n : Fin 100000) : row (BitVec.ofNat 32 n.val) = n :=
  Cert.LibGS.clampRow_ofNat n

/-- ONE LAYER'S SCALING LAW: scaling every message by both endpoint factors and the self loop by the node's factor
    twice, then summing at the destination, is the node's factor times (the pre-scaled messages summed at the
    destination plus the pre-scaled self loop). The node's factor is a nonnegative real, so it distributes over the
    extended-real sum whatever the features are. -/
theorem layer_law (src dst : Fin 1600000 → BitVec 32) (h : Fin 100000 → Fin 128 → EReal) (n : Fin 100000) (c : Fin 128) :
    zero + (∑ e ∈ Finset.univ.filter (fun e : Fin 1600000 => (dst e).toInt = (n.val : Int)),
              h (row (src e)) c * (dinv dst (row (src e)) * dinv dst (row (dst e)))
            + h n c * (dinv dst n * dinv dst n))
      = dinv dst n * (agg src dst (fun m k => h m k * dinv dst m) n c + h n c * dinv dst n) := by
  obtain ⟨r, hr, hd⟩ := dinv_real dst n
  have hrow : ∀ e ∈ Finset.univ.filter (fun e : Fin 1600000 => (dst e).toInt = (n.val : Int)),
      h (row (src e)) c * (dinv dst (row (src e)) * dinv dst (row (dst e)))
        = h (row (src e)) c * dinv dst (row (src e)) * (r : EReal) := by
    intro e he
    rw [row_of_hit (dst e) n (Finset.mem_filter.mp he).2, hd, mul_assoc]
  rw [Finset.sum_congr rfl hrow]
  simp only [agg]
  rw [hd, Cert.LibGS.scale_law _ r hr zero zero_eq (fun e => h (row (src e)) c * dinv dst (row (src e))) (h n c * (r : EReal)),
    mul_assoc (h n c)]

end Cert.Gcn

end
-- ==== Proof.RefLayer.lean ====
/-
  The reference's two graph-convolution layers, read at one node and one feature, are the two layers of the
  mathematics (`Cert.Gcn.a1`, `Cert.Gcn.a2`).

  One layer of the reference: a dense product `h = a · W`; the rows of `h` gathered at the source words of the edge
  list extended by one self loop per node; each gathered row scaled by the edge's factor
  `dinv (row src) · dinv (row dst)`; the scaled rows scatter-added at the destination words onto zeros; the bias
  added; the result rectified. Read at the node `n`, the scatter-add is zero plus the sum over the extended edges
  whose destination word is `n`; that sum splits into the sum over the real edges and the one self-loop term of `n`
  (`sum_concat`), and the layer law turns it into `dinv n` times the sum of the pre-scaled rows (`conv_apply`).
  The second layer is the same operations on the first layer's output.
-/
import proofs.«153781_j7825430413942_2_alg».proof.Proof.RefRead
import proofs.«153781_j7825430413942_2_alg».proof.Proof.GcnLaw

noncomputable section

open scoped BigOperators

namespace Cert.ReferenceIdeal.RefLayer

open Cert.ReferenceIdeal Cert.ReferenceIdeal.Gen Cert.ReferenceIdeal.Read Cert.Gcn Cert.LibGS
  Idealize.ShloMosaic Idealize.ShloMosaic.ValueIdx

/-! ## Sums over the extended edge list, and one convolution -/

/-- A filtered sum over the edge list extended by the self loops: the filtered sum over the edges, plus the one
    self-loop term the filter keeps. -/
theorem sum_concat (P : Fin 1700000 → Prop) [DecidablePred P] (U : Fin 1700000 → EReal)
    (Q : Fin 1600000 → Prop) [DecidablePred Q] (V : Fin 1600000 → EReal) (n : Fin 100000) (t : EReal)
    (hPl : ∀ e : Fin 1600000, P ⟨e.val, by omega⟩ ↔ Q e)
    (hUl : ∀ e : Fin 1600000, U ⟨e.val, by omega⟩ = V e)
    (hPr : ∀ i : Fin 100000, P ⟨1600000 + i.val, by omega⟩ ↔ i = n)
    (hUr : U ⟨1600000 + n.val, by omega⟩ = t) :
    ∑ e' ∈ Finset.univ.filter P, U e' = ∑ e ∈ Finset.univ.filter Q, V e + t := by
  have h1 : ∑ i ∈ Finset.univ.filter (fun i : Fin 1600000 => P ⟨i.val, by omega⟩), U ⟨i.val, by omega⟩
      = ∑ e ∈ Finset.univ.filter Q, V e :=
    Finset.sum_congr (Finset.filter_congr fun e _ => hPl e) (fun e _ => hUl e)
  have h2 : ∑ i ∈ Finset.univ.filter (fun i : Fin 100000 => P ⟨1600000 + i.val, by omega⟩),
      U ⟨1600000 + i.val, by omega⟩ = t :=
    (sum_filter_single n _ hPr _).trans hUr
  exact (sum_filter_split (A := 1600000) (B := 100000) (T := 1700000) (by norm_num) P U).trans
    (congrArg₂ (fun a b : EReal => a + b) h1 h2)

/-- ONE CONVOLUTION, from the gather to the scatter-add, read at the node `n` and the feature `c`.

    `s3`, `s6` are the source and destination words of the edge list extended by one self loop per node, `nw` the
    edge factors `dinv (row s3) · dinv (row s6)`; `hh` is the layer's dense output, gathered at the normalised source
    words, scaled by the edge factor, and scatter-added at the destination words onto zeros. The result is the
    mathematics' arrangement: `dinv n` times (the pre-scaled rows summed over the incoming edges, plus the node's own
    pre-scaled row). -/
theorem conv_apply (src dst : Fin 1600000 → BitVec 32) (s3 s6 : Fin 1700000 → BitVec 32) (nw : Fin 1700000 → EReal)
    (h3l : ∀ e : Fin 1600000, s3 ⟨e.val, by omega⟩ = src e)
    (h3r : ∀ i : Fin 100000, s3 ⟨1600000 + i.val, by omega⟩ = BitVec.ofNat 32 i.val)
    (h6l : ∀ e : Fin 1600000, s6 ⟨e.val, by omega⟩ = dst e)
    (h6r : ∀ i : Fin 100000, s6 ⟨1600000 + i.val, by omega⟩ = BitVec.ofNat 32 i.val)
    (h29 : ∀ e' : Fin 1700000, nw e' = dinv dst (row (s3 e')) * dinv dst (row (s6 e')))
    (wfS : ScatterDims.WF ⟨2, ![100000, 128]⟩ ⟨2, ![1700000, 1]⟩ ⟨2, ![1700000, 128]⟩ [1] [0] [0] 1)
    (wfG : GatherDims.WF ⟨2, ![100000, 128]⟩ ⟨2, ![1700000, 1]⟩ ⟨2, ![1700000, 128]⟩ [1] [0] [] [0] [] 1 ![1, 128])
    (hh z : (⟨2, ![100000, 128]⟩ : Shape).Idx → EReal) (hz : ∀ i, z i = Cert.Gcn.zero)
    (sidx gidx : IVec ⟨2, ![1700000, 1]⟩ 32)
    (hs : ∀ e' : Fin 1700000, sidx (ix2 e' 0) = s6 e')
    (hg : ∀ e' : Fin 1700000, gidx (ix2 e' 0) = nrm (s3 e'))
    (nb : (⟨2, ![1700000, 128]⟩ : Shape).Idx → EReal)
    (hnb : ∀ (e' : Fin 1700000) (k : Fin 128), nb (ix2 e' k) = nw e')
    (hp : Fin 100000 → Fin 128 → EReal) (hhp : ∀ m k, hp m k = hh (ix2 m k) * dinv dst m)
    (n : Fin 100000) (c : Fin 128) :
    Host.scatterAdd (F := Ideal) (φ := .f32) (rowScatterDims 100000 1700000 128 wfS) z sidx
        (mulf (F := Ideal) (φ := .f32) (Host.gather (rowGatherDims 100000 1700000 128 wfG) hh gidx) nb) (ix2 n c)
      = dinv dst n * (agg src dst hp n c + hp n c) := by
  obtain rfl : hp = fun m k => hh (ix2 m k) * dinv dst m := funext fun m => funext fun k => hhp m k
  -- one update: the gathered row's element times the edge's factor
  have hupd : ∀ e' : Fin 1700000,
      mulf (F := Ideal) (φ := .f32) (Host.gather (rowGatherDims 100000 1700000 128 wfG) hh gidx) nb (ix2 e' c)
        = hh (ix2 (row (s3 e')) c) * (dinv dst (row (s3 e')) * dinv dst (row (s6 e'))) := by
    intro e'
    have hrow : clampRow 100000 (by decide) (gidx (ix2 e' 0)) = row (s3 e') := by
      rw [hg e']; rfl
    rw [mulf_apply, hnb e' c, h29 e', rowGather_apply (by decide) wfG hh gidx e' c, hrow]
  -- the filtered sum over the extended edge list, split into the edges and the self loop
  have hsplit := sum_concat
    (fun e' : Fin 1700000 => (sidx (ix2 e' 0)).toInt = (n.val : Int))
    (fun e' : Fin 1700000 =>
      mulf (F := Ideal) (φ := .f32) (Host.gather (rowGatherDims 100000 1700000 128 wfG) hh gidx) nb (ix2 e' c))
    (fun e : Fin 1600000 => (dst e).toInt = (n.val : Int))
    (fun e : Fin 1600000 => hh (ix2 (row (src e)) c) * (dinv dst (row (src e)) * dinv dst (row (dst e))))
    n (hh (ix2 n c) * (dinv dst n * dinv dst n))
    (fun e => by rw [hs, h6l e])
    (fun e => by rw [hupd, h3l e, h6l e])
    (fun i => by rw [hs, h6r i]; exact toInt_ofNat_lt n i)
    (by rw [hupd, h3r n, h6r n, row_ofNat n])
  refine (rowScatterAdd_apply (φ := .f32) wfS z sidx _ n c).trans ?_
  rw [hz (ix2 n c)]
  refine (congrArg (fun s : EReal => Cert.Gcn.zero + s) hsplit).trans ?_
  exact layer_law src dst (fun m k => hh (ix2 m k)) n c

/-! ## Indices of the layout operations, at coordinates -/

theorem idx36 (e' : Fin 1700000) : idx_main_v36 (ix2 e' (0 : Fin 1)) = ix1 e' := by
  funext a; match a with | ⟨0, _⟩ => rfl
theorem idx42 (e' : Fin 1700000) : idx_main_v42 (ix2 e' (0 : Fin 1)) = ix1 e' := by
  funext a; match a with | ⟨0, _⟩ => rfl
theorem idx54 (e' : Fin 1700000) : idx_main_v54 (ix2 e' (0 : Fin 1)) = ix1 e' := by
  funext a; match a with | ⟨0, _⟩ => rfl
theorem idx60 (e' : Fin 1700000) : idx_main_v60 (ix2 e' (0 : Fin 1)) = ix1 e' := by
  funext a; match a with | ⟨0, _⟩ => rfl
theorem idx3839 (e' : Fin 1700000) (k : Fin 128) : idx_main_v38 (idx_main_v39 (ix2 e' k)) = ix1 e' := by
  funext a; match a with | ⟨0, _⟩ => rfl
theorem idx5657 (e' : Fin 1700000) (k : Fin 128) : idx_main_v56 (idx_main_v57 (ix2 e' k)) = ix1 e' := by
  funext a; match a with | ⟨0, _⟩ => rfl
theorem idx4445 (n : Fin 100000) (c : Fin 128) : idx_main_v44 (idx_main_v45 (ix2 n c)) = ix1 c := by
  funext a; match a with | ⟨0, _⟩ => rfl
theorem idx6263 (n : Fin 100000) (c : Fin 128) : idx_main_v62 (idx_main_v63 (ix2 n c)) = ix1 c := by
  funext a; match a with | ⟨0, _⟩ => rfl
theorem lidx30 (m : Fin 100000) (k j : Fin 128) : lidx_main_v30 (ix2 m k) j = ix2 m j := by
  funext a; match a with | ⟨0, _⟩ => rfl | ⟨1, _⟩ => rfl
theorem ridx30 (m : Fin 100000) (k j : Fin 128) : ridx_main_v30 (ix2 m k) j = ix2 j k := by
  funext a; match a with | ⟨0, _⟩ => rfl | ⟨1, _⟩ => rfl
theorem lidx48 (m : Fin 100000) (k j : Fin 128) : lidx_main_v48 (ix2 m k) j = ix2 m j := by
  funext a; match a with | ⟨0, _⟩ => rfl | ⟨1, _⟩ => rfl
theorem ridx48 (m : Fin 100000) (k j : Fin 128) : ridx_main_v48 (ix2 m k) j = ix2 j k := by
  funext a; match a with | ⟨0, _⟩ => rfl | ⟨1, _⟩ => rfl

/-! ## The first layer's stages, read at coordinates -/

/-- The scatter indices of the first layer are the destination words. -/
theorem v42_read (x1 : (⟨S2x1600000, .i32⟩ : BufTy).Contents (Elt Ideal)) (e' : Fin 1700000) :
    val_main_v42 (F := Ideal) x1 (ix2 e' (0 : Fin 1)) = val_main_v6 (F := Ideal) x1 (ix1 e') :=
  (val_main_v42_apply x1 _).trans (congrArg (val_main_v6 (F := Ideal) x1) (idx42 e'))

/-- The gather indices of the first layer are the normalised source words. -/
theorem v36_read (x1 : (⟨S2x1600000, .i32⟩ : BufTy).Contents (Elt Ideal)) (e' : Fin 1700000) :
    val_main_v36 (F := Ideal) x1 (ix2 e' (0 : Fin 1)) = nrm (val_main_v3 (F := Ideal) x1 (ix1 e')) := by
  unfold nrm
  rw [val_main_v36_apply, idx36, val_main_v35_apply, val_main_v32_apply, val_main_v34_apply, val_main_v31_apply,
    val_main_c_6_apply, val_main_v33_apply, val_main_c_7_apply]

/-- The edge factor, broadcast along the features. -/
theorem v39_read (x1 : (⟨S2x1600000, .i32⟩ : BufTy).Contents (Elt Ideal)) (e' : Fin 1700000) (k : Fin 128) :
    val_main_v39 (F := Ideal) x1 (ix2 e' k) = val_main_v29 (F := Ideal) x1 (ix1 e') :=
  ((val_main_v39_apply x1 _).trans (val_main_v38_apply x1 _)).trans
    (congrArg (val_main_v29 (F := Ideal) x1) (idx3839 e' k))

/-- The scatter-add starts from zeros. -/
theorem v41_read (i : S100000x128.Idx) : val_main_v41 (F := Ideal) i = Cert.Gcn.zero :=
  (val_main_v41_apply (F := Ideal) i).trans (val_main_cst_8_apply (F := Ideal) _)

/-- The rectifier's zeros. -/
theorem call1_read (i : S100000x128.Idx) : val_main_call1_v0 (F := Ideal) i = Cert.Gcn.zero :=
  (val_main_call1_v0_apply (F := Ideal) i).trans (val_main_call1_cst_apply (F := Ideal) _)

/-- The bias, broadcast along the nodes. -/
theorem v45_read (x4 : (⟨S128, .f32⟩ : BufTy).Contents (Elt Ideal)) (n : Fin 100000) (c : Fin 128) :
    val_main_v45 (F := Ideal) x4 (ix2 n c) = b_ x4 c :=
  ((val_main_v45_apply x4 _).trans (val_main_v44_apply x4 _)).trans (congrArg x4 (idx4445 n c))

/-- The first dense product. -/
theorem v30_read (x0 : (⟨S100000x128, .f32⟩ : BufTy).Contents (Elt Ideal)) (x3 : (⟨S128x128, .f32⟩ : BufTy).Contents (Elt Ideal)) (m : Fin 100000) (k : Fin 128) :
    val_main_v30 (F := Ideal) x0 x3 (ix2 m k) = ∑ j : Fin 128, x_ x0 m j * w_ x3 j k :=
  (val_main_v30_apply x0 x3 _).trans (Finset.sum_congr rfl fun j _ =>
    congrArg₂ (fun a b : EReal => a * b) (congrArg x0 (lidx30 m k j)) (congrArg x3 (ridx30 m k j)))

/-- THE FIRST LAYER at the node `n` and the feature `c`. -/
theorem layer1 (x0 : (⟨S100000x128, .f32⟩ : BufTy).Contents (Elt Ideal)) (x1 : (⟨S2x1600000, .i32⟩ : BufTy).Contents (Elt Ideal)) (x3 : (⟨S128x128, .f32⟩ : BufTy).Contents (Elt Ideal)) (x4 : (⟨S128, .f32⟩ : BufTy).Contents (Elt Ideal))
    (h3l : ∀ e : Fin 1600000, val_main_v3 (F := Ideal) x1 (ix1 (⟨e.val, by omega⟩ : Fin 1700000)) = src_ x1 e)
    (h3r : ∀ i : Fin 100000,
      val_main_v3 (F := Ideal) x1 (ix1 (⟨1600000 + i.val, by omega⟩ : Fin 1700000)) = BitVec.ofNat 32 i.val)
    (h6l : ∀ e : Fin 1600000, val_main_v6 (F := Ideal) x1 (ix1 (⟨e.val, by omega⟩ : Fin 1700000)) = dst_ x1 e)
    (h6r : ∀ i : Fin 100000,
      val_main_v6 (F := Ideal) x1 (ix1 (⟨1600000 + i.val, by omega⟩ : Fin 1700000)) = BitVec.ofNat 32 i.val)
    (h29 : ∀ e' : Fin 1700000, val_main_v29 (F := Ideal) x1 (ix1 e')
      = dinv (dst_ x1) (row (val_main_v3 (F := Ideal) x1 (ix1 e')))
        * dinv (dst_ x1) (row (val_main_v6 (F := Ideal) x1 (ix1 e'))))
    (n : Fin 100000) (c : Fin 128) :
    val_main_v47 (F := Ideal) x0 x1 x3 x4 (ix2 n c) = a1 (src_ x1) (dst_ x1) (x_ x0) (w_ x3) (b_ x4) n c := by
  have hconv : val_main_v43 (F := Ideal) x0 x1 x3 (ix2 n c)
      = dinv (dst_ x1) n * (agg (src_ x1) (dst_ x1) (pre (dst_ x1) (x_ x0) (w_ x3)) n c
          + pre (dst_ x1) (x_ x0) (w_ x3) n c) := by
    unfold val_main_v43 val_main_v40 val_main_v37
    exact conv_apply (src_ x1) (dst_ x1) (fun e' => val_main_v3 (F := Ideal) x1 (ix1 e'))
      (fun e' => val_main_v6 (F := Ideal) x1 (ix1 e')) (fun e' => val_main_v29 (F := Ideal) x1 (ix1 e'))
      h3l h3r h6l h6r h29
      scatter_S100000x128_S1700000x1_S1700000x128_1_0_0_1_wf
      gather_S100000x128_S1700000x1_S1700000x128_1_0_n_n_0_1_1128_wf
      (val_main_v30 (F := Ideal) x0 x3) (val_main_v41 (F := Ideal)) v41_read
      (val_main_v42 (F := Ideal) x1) (val_main_v36 (F := Ideal) x1) (v42_read x1) (v36_read x1)
      (val_main_v39 (F := Ideal) x1) (v39_read x1)
      (pre (dst_ x1) (x_ x0) (w_ x3))
      (fun m k => (congrArg (fun s : EReal => s * dinv (dst_ x1) m) (v30_read x0 x3 m k)).symm) n c
  rw [val_main_v47_apply, val_main_v46_apply, hconv, v45_read, call1_read] <;> rfl

/-! ## The second layer's stages, read at coordinates -/

theorem v60_read (x1 : (⟨S2x1600000, .i32⟩ : BufTy).Contents (Elt Ideal)) (e' : Fin 1700000) :
    val_main_v60 (F := Ideal) x1 (ix2 e' (0 : Fin 1)) = val_main_v6 (F := Ideal) x1 (ix1 e') :=
  (val_main_v60_apply x1 _).trans (congrArg (val_main_v6 (F := Ideal) x1) (idx60 e'))

theorem v54_read (x1 : (⟨S2x1600000, .i32⟩ : BufTy).Contents (Elt Ideal)) (e' : Fin 1700000) :
    val_main_v54 (F := Ideal) x1 (ix2 e' (0 : Fin 1)) = nrm (val_main_v3 (F := Ideal) x1 (ix1 e')) := by
  unfold nrm
  rw [val_main_v54_apply, idx54, val_main_v53_apply, val_main_v50_apply, val_main_v52_apply, val_main_v49_apply,
    val_main_c_9_apply, val_main_v51_apply, val_main_c_10_apply]

theorem v57_read (x1 : (⟨S2x1600000, .i32⟩ : BufTy).Contents (Elt Ideal)) (e' : Fin 1700000) (k : Fin 128) :
    val_main_v57 (F := Ideal) x1 (ix2 e' k) = val_main_v29 (F := Ideal) x1 (ix1 e') :=
  ((val_main_v57_apply x1 _).trans (val_main_v56_apply x1 _)).trans
    (congrArg (val_main_v29 (F := Ideal) x1) (idx5657 e' k))

theorem v59_read (i : S100000x128.Idx) : val_main_v59 (F := Ideal) i = Cert.Gcn.zero :=
  (val_main_v59_apply (F := Ideal) i).trans (val_main_cst_11_apply (F := Ideal) _)

theorem call2_read (i : S100000x128.Idx) : val_main_call2_v0 (F := Ideal) i = Cert.Gcn.zero :=
  (val_main_call2_v0_apply (F := Ideal) i).trans (val_main_call2_cst_apply (F := Ideal) _)

theorem v63_read (x6 : (⟨S128, .f32⟩ : BufTy).Contents (Elt Ideal)) (n : Fin 100000) (c : Fin 128) :
    val_main_v63 (F := Ideal) x6 (ix2 n c) = b_ x6 c :=
  ((val_main_v63_apply x6 _).trans (val_main_v62_apply x6 _)).trans (congrArg x6 (idx6263 n c))

/-- The second dense product, on the first layer's output. -/
theorem v48_read (x0 : (⟨S100000x128, .f32⟩ : BufTy).Contents (Elt Ideal)) (x1 : (⟨S2x1600000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (m : Fin 100000) (k : Fin 128) :
    val_main_v48 (F := Ideal) x0 x1 x3 x4 x5 (ix2 m k)
      = ∑ j : Fin 128, val_main_v47 (F := Ideal) x0 x1 x3 x4 (ix2 m j) * w_ x5 j k :=
  (val_main_v48_apply x0 x1 x3 x4 x5 _).trans (Finset.sum_congr rfl fun j _ =>
    congrArg₂ (fun a b : EReal => a * b)
      (congrArg (val_main_v47 (F := Ideal) x0 x1 x3 x4) (lidx48 m k j)) (congrArg x5 (ridx48 m k j)))

/-- THE SECOND LAYER at the node `n` and the feature `c`, given the first. -/
theorem layer2 (x0 : (⟨S100000x128, .f32⟩ : BufTy).Contents (Elt Ideal)) (x1 : (⟨S2x1600000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal))
    (h3l : ∀ e : Fin 1600000, val_main_v3 (F := Ideal) x1 (ix1 (⟨e.val, by omega⟩ : Fin 1700000)) = src_ x1 e)
    (h3r : ∀ i : Fin 100000,
      val_main_v3 (F := Ideal) x1 (ix1 (⟨1600000 + i.val, by omega⟩ : Fin 1700000)) = BitVec.ofNat 32 i.val)
    (h6l : ∀ e : Fin 1600000, val_main_v6 (F := Ideal) x1 (ix1 (⟨e.val, by omega⟩ : Fin 1700000)) = dst_ x1 e)
    (h6r : ∀ i : Fin 100000,
      val_main_v6 (F := Ideal) x1 (ix1 (⟨1600000 + i.val, by omega⟩ : Fin 1700000)) = BitVec.ofNat 32 i.val)
    (h29 : ∀ e' : Fin 1700000, val_main_v29 (F := Ideal) x1 (ix1 e')
      = dinv (dst_ x1) (row (val_main_v3 (F := Ideal) x1 (ix1 e')))
        * dinv (dst_ x1) (row (val_main_v6 (F := Ideal) x1 (ix1 e'))))
    (h47 : ∀ (n : Fin 100000) (c : Fin 128), val_main_v47 (F := Ideal) x0 x1 x3 x4 (ix2 n c)
      = a1 (src_ x1) (dst_ x1) (x_ x0) (w_ x3) (b_ x4) n c)
    (n : Fin 100000) (c : Fin 128) :
    val_main_v65 (F := Ideal) x0 x1 x3 x4 x5 x6 (ix2 n c)
      = a2 (src_ x1) (dst_ x1) (x_ x0) (w_ x3) (b_ x4) (w_ x5) (b_ x6) n c := by
  have hdense : ∀ (m : Fin 100000) (k : Fin 128),
      pre (dst_ x1) (a1 (src_ x1) (dst_ x1) (x_ x0) (w_ x3) (b_ x4)) (w_ x5) m k
        = val_main_v48 (F := Ideal) x0 x1 x3 x4 x5 (ix2 m k) * dinv (dst_ x1) m := by
    intro m k
    rw [v48_read]
    exact congrArg (fun s : EReal => s * dinv (dst_ x1) m)
      (Finset.sum_congr rfl fun j _ => congrArg (fun a : EReal => a * w_ x5 j k) (h47 m j).symm)
  have hconv : val_main_v61 (F := Ideal) x0 x1 x3 x4 x5 (ix2 n c)
      = dinv (dst_ x1) n * (agg (src_ x1) (dst_ x1)
            (pre (dst_ x1) (a1 (src_ x1) (dst_ x1) (x_ x0) (w_ x3) (b_ x4)) (w_ x5)) n c
          + pre (dst_ x1) (a1 (src_ x1) (dst_ x1) (x_ x0) (w_ x3) (b_ x4)) (w_ x5) n c) := by
    unfold val_main_v61 val_main_v58 val_main_v55
    exact conv_apply (src_ x1) (dst_ x1) (fun e' => val_main_v3 (F := Ideal) x1 (ix1 e'))
      (fun e' => val_main_v6 (F := Ideal) x1 (ix1 e')) (fun e' => val_main_v29 (F := Ideal) x1 (ix1 e'))
      h3l h3r h6l h6r h29
      scatter_S100000x128_S1700000x1_S1700000x128_1_0_0_1_wf
      gather_S100000x128_S1700000x1_S1700000x128_1_0_n_n_0_1_1128_wf
      (val_main_v48 (F := Ideal) x0 x1 x3 x4 x5) (val_main_v59 (F := Ideal)) v59_read
      (val_main_v60 (F := Ideal) x1) (val_main_v54 (F := Ideal) x1) (v60_read x1) (v54_read x1)
      (val_main_v57 (F := Ideal) x1) (v57_read x1)
      (pre (dst_ x1) (a1 (src_ x1) (dst_ x1) (x_ x0) (w_ x3) (b_ x4)) (w_ x5)) hdense n c
  rw [val_main_v65_apply, val_main_v64_apply, hconv, v63_read, call2_read] <;> rfl

end Cert.ReferenceIdeal.RefLayer

end
-- ==== Proof.RefOut.lean ====
/-
  The reference's last stages, read at one batch row: the gathered features are the second layer's rows at the batch's
  nodes, and the rectified class scores are the class layer of those rows.

  The reference applies the class layer `max (a2 · Wl + bl) 0` to EVERY node and gathers the batch's rows after; the
  mathematics gathers first. At the index `(r, j)` both read the node `row (bi r)`: a gather reads the operand at its
  start index, normalised (a negative word is shifted up by the number of nodes), read signed and clamped.
-/
import proofs.«153781_j7825430413942_2_alg».proof.Proof.RefRead
import proofs.«153781_j7825430413942_2_alg».proof.Proof.Spec
import proofs.«153781_j7825430413942_2_alg».proof.Proof.LibGatherScatter

noncomputable section

open scoped BigOperators

namespace Cert.ReferenceIdeal.RefValue

open Cert.ReferenceIdeal Cert.ReferenceIdeal.Gen Cert.ReferenceIdeal.Read Cert.Gcn Cert.LibGS
  Idealize.ShloMosaic Idealize.ShloMosaic.ValueIdx

/-! ## Indices of the layout operations, at coordinates -/

theorem idx76 (r : Fin 4096) : idx_main_v76 (ix2 r (0 : Fin 1)) = ix1 r := by
  funext a; match a with | ⟨0, _⟩ => rfl
theorem idx84 (r : Fin 4096) : idx_main_v84 (ix2 r (0 : Fin 1)) = ix1 r := by
  funext a; match a with | ⟨0, _⟩ => rfl
theorem idx6768 (m : Fin 100000) (j : Fin 2) : idx_main_v67 (idx_main_v68 (ix2 m j)) = ix1 j := by
  funext a; match a with | ⟨0, _⟩ => rfl
theorem lidx66 (m : Fin 100000) (j : Fin 2) (k : Fin 128) : lidx_main_v66 (ix2 m j) k = ix2 m k := by
  funext a; match a with | ⟨0, _⟩ => rfl | ⟨1, _⟩ => rfl
theorem ridx66 (m : Fin 100000) (j : Fin 2) (k : Fin 128) : ridx_main_v66 (ix2 m j) k = ix2 k j := by
  funext a; match a with | ⟨0, _⟩ => rfl | ⟨1, _⟩ => rfl

/-! ## The batch words, normalised -/

/-- The start indices of the class scores' gather are the normalised batch words. -/
theorem v76_read (x2 : (⟨S4096, .i32⟩ : BufTy).Contents (Elt Ideal)) (r : Fin 4096) :
    val_main_v76 (F := Ideal) x2 (ix2 r (0 : Fin 1)) = nrm (bi_ x2 r) := by
  unfold nrm bi_
  rw [val_main_v76_apply, idx76, val_main_v75_apply, val_main_v72_apply, val_main_v74_apply, val_main_v71_apply,
    val_main_c_12_apply, val_main_v73_apply, val_main_c_13_apply]

/-- The start indices of the features' gather are the normalised batch words. -/
theorem v84_read (x2 : (⟨S4096, .i32⟩ : BufTy).Contents (Elt Ideal)) (r : Fin 4096) :
    val_main_v84 (F := Ideal) x2 (ix2 r (0 : Fin 1)) = nrm (bi_ x2 r) := by
  unfold nrm bi_
  rw [val_main_v84_apply, idx84, val_main_v83_apply, val_main_v80_apply, val_main_v82_apply, val_main_v79_apply,
    val_main_c_14_apply, val_main_v81_apply, val_main_c_15_apply]

/-! ## The gathered features -/

/-- The gathered features at the batch row `r` and the feature `q`. -/
theorem ref_feats_apply (x0 : (⟨S100000x128, .f32⟩ : BufTy).Contents (Elt Ideal)) (x1 : (⟨S2x1600000, .i32⟩ : BufTy).Contents (Elt Ideal)) (x2 : (⟨S4096, .i32⟩ : BufTy).Contents (Elt Ideal))
    (x3 : (⟨S128x128, .f32⟩ : BufTy).Contents (Elt Ideal)) (x4 : (⟨S128, .f32⟩ : BufTy).Contents (Elt Ideal)) (x5 : (⟨S128x128, .f32⟩ : BufTy).Contents (Elt Ideal))
    (x6 : (⟨S128, .f32⟩ : BufTy).Contents (Elt Ideal))
    (h65 : ∀ (n : Fin 100000) (c : Fin 128), val_main_v65 (F := Ideal) x0 x1 x3 x4 x5 x6 (ix2 n c)
      = a2 (src_ x1) (dst_ x1) (x_ x0) (w_ x3) (b_ x4) (w_ x5) (b_ x6) n c)
    (r : Fin 4096) (q : Fin 128) :
    val_main_v85 (F := Ideal) x0 x1 x2 x3 x4 x5 x6 (ix2 r q)
      = feats (src_ x1) (dst_ x1) (x_ x0) (w_ x3) (b_ x4) (w_ x5) (b_ x6) (bi_ x2) r q := by
  have hrow : clampRow 100000 (by decide) (val_main_v84 (F := Ideal) x2 (ix2 r (0 : Fin 1))) = row (bi_ x2 r) := by
    rw [v84_read]; rfl
  unfold val_main_v85
  exact (rowGather_apply (by decide) gather_S100000x128_S4096x1_S4096x128_1_0_n_n_0_1_1128_wf
      (val_main_v65 (F := Ideal) x0 x1 x3 x4 x5 x6) (val_main_v84 (F := Ideal) x2) r q).trans
    ((congrArg (fun m => val_main_v65 (F := Ideal) x0 x1 x3 x4 x5 x6 (ix2 m q)) hrow).trans
      (h65 (row (bi_ x2 r)) q))

/-- THE GATHERED FEATURES are the mathematics' `Feats`. -/
theorem ref_feats (x0 : (⟨S100000x128, .f32⟩ : BufTy).Contents (Elt Ideal)) (x1 : (⟨S2x1600000, .i32⟩ : BufTy).Contents (Elt Ideal)) (x2 : (⟨S4096, .i32⟩ : BufTy).Contents (Elt Ideal))
    (x3 : (⟨S128x128, .f32⟩ : BufTy).Contents (Elt Ideal)) (x4 : (⟨S128, .f32⟩ : BufTy).Contents (Elt Ideal)) (x5 : (⟨S128x128, .f32⟩ : BufTy).Contents (Elt Ideal))
    (x6 : (⟨S128, .f32⟩ : BufTy).Contents (Elt Ideal))
    (h65 : ∀ (n : Fin 100000) (c : Fin 128), val_main_v65 (F := Ideal) x0 x1 x3 x4 x5 x6 (ix2 n c)
      = a2 (src_ x1) (dst_ x1) (x_ x0) (w_ x3) (b_ x4) (w_ x5) (b_ x6) n c) :
    val_main_v85 (F := Ideal) x0 x1 x2 x3 x4 x5 x6 = Feats x0 x1 x2 x3 x4 x5 x6 := by
  funext i
  obtain ⟨r, q, rfl⟩ : ∃ (r : Fin 4096) (q : Fin 128), i = ix2 r q := ⟨i 0, i 1, eq_ix2 i⟩
  exact ref_feats_apply x0 x1 x2 x3 x4 x5 x6 h65 r q

/-! ## The class layer at every node, and the class scores -/

/-- The class layer's dense product at the node `m`. -/
theorem v66_read (x0 : (⟨S100000x128, .f32⟩ : BufTy).Contents (Elt Ideal)) (x1 : (⟨S2x1600000, .i32⟩ : BufTy).Contents (Elt Ideal)) (x3 : (⟨S128x128, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal))
    (x7 : (⟨S128x2, .f32⟩ : BufTy).Contents (Elt Ideal))
    (h65 : ∀ (n : Fin 100000) (c : Fin 128), val_main_v65 (F := Ideal) x0 x1 x3 x4 x5 x6 (ix2 n c)
      = a2 (src_ x1) (dst_ x1) (x_ x0) (w_ x3) (b_ x4) (w_ x5) (b_ x6) n c)
    (m : Fin 100000) (j : Fin 2) :
    val_main_v66 (F := Ideal) x0 x1 x3 x4 x5 x6 x7 (ix2 m j)
      = ∑ k : Fin 128, a2 (src_ x1) (dst_ x1) (x_ x0) (w_ x3) (b_ x4) (w_ x5) (b_ x6) m k * wl_ x7 k j :=
  (val_main_v66_apply x0 x1 x3 x4 x5 x6 x7 _).trans (Finset.sum_congr rfl fun k _ =>
    congrArg₂ (fun a b : EReal => a * b)
      ((congrArg (val_main_v65 (F := Ideal) x0 x1 x3 x4 x5 x6) (lidx66 m j k)).trans (h65 m k))
      (congrArg x7 (ridx66 m j k)))

/-- The class bias, broadcast along the nodes. -/
theorem v68_read (x8 : (⟨S2, .f32⟩ : BufTy).Contents (Elt Ideal)) (m : Fin 100000) (j : Fin 2) :
    val_main_v68 (F := Ideal) x8 (ix2 m j) = bl_ x8 j :=
  ((val_main_v68_apply x8 _).trans (val_main_v67_apply x8 _)).trans (congrArg x8 (idx6768 m j))

/-- The rectifier's zeros. -/
theorem call3_read (i : S100000x2.Idx) : val_main_call3_v0 (F := Ideal) i = Cert.Gcn.zero :=
  (val_main_call3_v0_apply (F := Ideal) i).trans (val_main_call3_cst_apply (F := Ideal) _)

/-- The rectified class layer at the node `m` and the class `j`. -/
theorem v70_read (x0 : (⟨S100000x128, .f32⟩ : BufTy).Contents (Elt Ideal)) (x1 : (⟨S2x1600000, .i32⟩ : BufTy).Contents (Elt Ideal)) (x3 : (⟨S128x128, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal))
    (x7 : (⟨S128x2, .f32⟩ : BufTy).Contents (Elt Ideal)) (x8 : (⟨S2, .f32⟩ : BufTy).Contents (Elt Ideal))
    (h65 : ∀ (n : Fin 100000) (c : Fin 128), val_main_v65 (F := Ideal) x0 x1 x3 x4 x5 x6 (ix2 n c)
      = a2 (src_ x1) (dst_ x1) (x_ x0) (w_ x3) (b_ x4) (w_ x5) (b_ x6) n c)
    (m : Fin 100000) (j : Fin 2) :
    val_main_v70 (F := Ideal) x0 x1 x3 x4 x5 x6 x7 x8 (ix2 m j)
      = max ((∑ k : Fin 128, a2 (src_ x1) (dst_ x1) (x_ x0) (w_ x3) (b_ x4) (w_ x5) (b_ x6) m k * wl_ x7 k j) + bl_ x8 j) Cert.Gcn.zero := by
  rw [val_main_v70_apply, val_main_v69_apply, v66_read x0 x1 x3 x4 x5 x6 x7 h65, v68_read, call3_read] <;> rfl

/-- The class scores at the batch row `r` and the class `j`. -/
theorem ref_out_apply (x0 : (⟨S100000x128, .f32⟩ : BufTy).Contents (Elt Ideal)) (x1 : (⟨S2x1600000, .i32⟩ : BufTy).Contents (Elt Ideal)) (x2 : (⟨S4096, .i32⟩ : BufTy).Contents (Elt Ideal))
    (x3 : (⟨S128x128, .f32⟩ : BufTy).Contents (Elt Ideal)) (x4 : (⟨S128, .f32⟩ : BufTy).Contents (Elt Ideal)) (x5 : (⟨S128x128, .f32⟩ : BufTy).Contents (Elt Ideal))
    (x6 : (⟨S128, .f32⟩ : BufTy).Contents (Elt Ideal))
    (x7 : (⟨S128x2, .f32⟩ : BufTy).Contents (Elt Ideal)) (x8 : (⟨S2, .f32⟩ : BufTy).Contents (Elt Ideal))
    (h65 : ∀ (n : Fin 100000) (c : Fin 128), val_main_v65 (F := Ideal) x0 x1 x3 x4 x5 x6 (ix2 n c)
      = a2 (src_ x1) (dst_ x1) (x_ x0) (w_ x3) (b_ x4) (w_ x5) (b_ x6) n c)
    (r : Fin 4096) (j : Fin 2) :
    val_main_v77 (F := Ideal) x0 x1 x2 x3 x4 x5 x6 x7 x8 (ix2 r j)
      = outv (src_ x1) (dst_ x1) (x_ x0) (w_ x3) (b_ x4) (w_ x5) (b_ x6) (bi_ x2) (wl_ x7) (bl_ x8) r j := by
  have hrow : clampRow 100000 (by decide) (val_main_v76 (F := Ideal) x2 (ix2 r (0 : Fin 1))) = row (bi_ x2 r) := by
    rw [v76_read]; rfl
  unfold val_main_v77
  exact (rowGather_apply (by decide) gather_S100000x2_S4096x1_S4096x2_1_0_n_n_0_1_12_wf
      (val_main_v70 (F := Ideal) x0 x1 x3 x4 x5 x6 x7 x8) (val_main_v76 (F := Ideal) x2) r j).trans
    ((congrArg (fun m => val_main_v70 (F := Ideal) x0 x1 x3 x4 x5 x6 x7 x8 (ix2 m j)) hrow).trans
      (v70_read x0 x1 x3 x4 x5 x6 x7 x8 h65 (row (bi_ x2 r)) j))

/-- THE CLASS SCORES are the mathematics' `Out`. -/
theorem ref_out (x0 : (⟨S100000x128, .f32⟩ : BufTy).Contents (Elt Ideal)) (x1 : (⟨S2x1600000, .i32⟩ : BufTy).Contents (Elt Ideal)) (x2 : (⟨S4096, .i32⟩ : BufTy).Contents (Elt Ideal))
    (x3 : (⟨S128x128, .f32⟩ : BufTy).Contents (Elt Ideal)) (x4 : (⟨S128, .f32⟩ : BufTy).Contents (Elt Ideal)) (x5 : (⟨S128x128, .f32⟩ : BufTy).Contents (Elt Ideal))
    (x6 : (⟨S128, .f32⟩ : BufTy).Contents (Elt Ideal))
    (x7 : (⟨S128x2, .f32⟩ : BufTy).Contents (Elt Ideal)) (x8 : (⟨S2, .f32⟩ : BufTy).Contents (Elt Ideal))
    (h65 : ∀ (n : Fin 100000) (c : Fin 128), val_main_v65 (F := Ideal) x0 x1 x3 x4 x5 x6 (ix2 n c)
      = a2 (src_ x1) (dst_ x1) (x_ x0) (w_ x3) (b_ x4) (w_ x5) (b_ x6) n c) :
    val_main_v77 (F := Ideal) x0 x1 x2 x3 x4 x5 x6 x7 x8 = Out x0 x1 x2 x3 x4 x5 x6 x7 x8 := by
  funext i
  obtain ⟨r, j, rfl⟩ : ∃ (r : Fin 4096) (j : Fin 2), i = ix2 r j := ⟨i 0, i 1, eq_ix2 i⟩
  exact ref_out_apply x0 x1 x2 x3 x4 x5 x6 x7 x8 h65 r j

end Cert.ReferenceIdeal.RefValue

end
-- ==== Proof.RefValue.lean ====
/-
  The idealized reference's three results as the spec's functions of the argument arrays: the index arrays, degree,
  `dinv` and `norm` (RefIndex), the two layers (RefLayer) and the last stages (RefOut), put together.
-/
import proofs.«153781_j7825430413942_2_alg».proof.Proof.RefIndex
import proofs.«153781_j7825430413942_2_alg».proof.Proof.RefLayer
import proofs.«153781_j7825430413942_2_alg».proof.Proof.RefOut

noncomputable section

namespace Cert.ReferenceIdeal.RefValue

open Cert.ReferenceIdeal Cert.ReferenceIdeal.Read Cert.ReferenceIdeal.RefLayer Cert.Gcn
open Idealize.ShloMosaic Idealize.ShloMosaic.ValueIdx

variable (x0 : (⟨S100000x128, .f32⟩ : BufTy).Contents (Elt Ideal)) (x1 : (⟨S2x1600000, .i32⟩ : BufTy).Contents (Elt Ideal)) (x2 : (⟨S4096, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x2, .f32⟩ : BufTy).Contents (Elt Ideal)) (x8 : (⟨S2, .f32⟩ : BufTy).Contents (Elt Ideal))

/-- The first layer's output, at a node and a feature. -/
theorem ref_a1 (n : Fin 100000) (c : Fin 128) :
    val_main_v47 (F := Ideal) x0 x1 x3 x4 (ix2 n c) = a1 (src_ x1) (dst_ x1) (x_ x0) (w_ x3) (b_ x4) n c :=
  layer1 x0 x1 x3 x4 (v3_left x1) (v3_right x1) (v6_left x1) (v6_right x1) (ref_norm x1) n c

/-- The second layer's output: the features of every node. -/
theorem ref_a2 (n : Fin 100000) (c : Fin 128) :
    val_main_v65 (F := Ideal) x0 x1 x3 x4 x5 x6 (ix2 n c) = a2 (src_ x1) (dst_ x1) (x_ x0) (w_ x3) (b_ x4) (w_ x5) (b_ x6) n c :=
  layer2 x0 x1 x3 x4 x5 x6 (v3_left x1) (v3_right x1) (v6_left x1) (v6_right x1) (ref_norm x1) (ref_a1 x0 x1 x3 x4) n c

/-- The gathered features. -/
theorem ref_v85 : val_main_v85 (F := Ideal) x0 x1 x2 x3 x4 x5 x6 = Feats x0 x1 x2 x3 x4 x5 x6 :=
  ref_feats x0 x1 x2 x3 x4 x5 x6 (ref_a2 x0 x1 x3 x4 x5 x6)

/-- The rectified class scores. -/
theorem ref_v77 : val_main_v77 (F := Ideal) x0 x1 x2 x3 x4 x5 x6 x7 x8 = Out x0 x1 x2 x3 x4 x5 x6 x7 x8 :=
  ref_out x0 x1 x2 x3 x4 x5 x6 x7 x8 (ref_a2 x0 x1 x3 x4 x5 x6)

/-- The log-probabilities: the shared tail applied to the class scores. -/
theorem ref_v78 : val_main_v78 (F := Ideal) x0 x1 x2 x3 x4 x5 x6 x7 x8 = refTail (Out x0 x1 x2 x3 x4 x5 x6 x7 x8) :=
  (ref_logp x0 x1 x2 x3 x4 x5 x6 x7 x8).trans (congrArg refTail (ref_v77 x0 x1 x2 x3 x4 x5 x6 x7 x8))

end Cert.ReferenceIdeal.RefValue

end
-- ==== Proof.lean ====
/-
  A two-layer graph convolution with self loops over 100000 nodes and 1600000 edges, computed two ways, is one function
  of the argument arrays on the extended reals.

  The reference appends one self-loop edge per node to the edge list, takes each node's degree as the number of the
  1700000 edges that end at it, scales every message by dinv(source) · dinv(destination), sums the messages at their
  destinations, adds the bias and rectifies; twice; then applies the two-class layer to every node and reads the batch's
  rows. The kernel never forms the longer edge list: the degree is the incoming edges plus one, each dense layer's rows
  are scaled by their own dinv once (three row-tiled regions do the dense work), the messages of the 1600000 edges are
  summed unscaled, and dinv(n) · (sum + own row) gives the same value, because dinv(n) is a nonnegative real and such a
  factor moves across a sum of extended reals: dinv(n) · (Σ_e a_e + t) = Σ_e a_e · dinv(n) + t · dinv(n), the self loop
  being the term t. A gather reads the row its index names after the same normalisation and clamping on both sides, and
  a scatter-add drops the same out-of-range destinations on both sides, so the equality holds for every edge list and
  every batch, and needs no finiteness of the float inputs. The class layer and the log-softmax commute with reading
  rows, and the log-softmax is the same eleven operations on both sides.
-/
import proofs.«153781_j7825430413942_2_alg».proof.Defs
import proofs.«153781_j7825430413942_2_alg».proof.Proof.Gen.Kernel
import proofs.«153781_j7825430413942_2_alg».proof.Proof.Gen.Kernel.Skeleton
import proofs.«153781_j7825430413942_2_alg».proof.Proof.Gen.Kernel.Launch
import proofs.«153781_j7825430413942_2_alg».proof.Proof.Gen.Kernel.Points
import proofs.«153781_j7825430413942_2_alg».proof.Proof.Gen.Kernel.Frame
import proofs.«153781_j7825430413942_2_alg».proof.Proof.Gen.KernelIdeal
import proofs.«153781_j7825430413942_2_alg».proof.Proof.Gen.KernelIdeal.Skeleton
import proofs.«153781_j7825430413942_2_alg».proof.Proof.Gen.KernelIdeal.Launch
import proofs.«153781_j7825430413942_2_alg».proof.Proof.Gen.KernelIdeal.Points
import proofs.«153781_j7825430413942_2_alg».proof.Proof.Gen.KernelIdeal.Frame
import proofs.«153781_j7825430413942_2_alg».proof.Proof.Gen.ReferenceIdeal
import proofs.«153781_j7825430413942_2_alg».proof.Proof.Gen.Pre_finite_inputs
import proofs.«153781_j7825430413942_2_alg».proof.Proof.RefRun
import proofs.«153781_j7825430413942_2_alg».proof.Proof.RefRead
import proofs.«153781_j7825430413942_2_alg».proof.Proof.KernelRun
import proofs.«153781_j7825430413942_2_alg».proof.Proof.KValue
import proofs.«153781_j7825430413942_2_alg».proof.Proof.RefValue
import Idealize.ShloMosaic.Adequacy
import Idealize.ShloMosaic.Init

noncomputable section

namespace Cert.Proof

open Idealize.ShloMosaic Idealize.SL.Sem

/-- The log-softmax tail is the same operations in both programs. -/
theorem tail_eq (y : (⟨2, ![4096, 2]⟩ : Shape).Idx → EReal) :
    Cert.KernelIdeal.ValueRun.kTail y = Cert.ReferenceIdeal.RefValue.refTail y := rfl

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- The ideal pass rewrote nothing. -/
theorem preserves : Cert.preserves_Kernel_KernelIdeal := trivial

/-- From memories agreeing on the arguments both programs end at the spec's three functions of those arguments. -/
theorem algebraic : Cert.algebraic_KernelIdeal_ReferenceIdeal := by
  intro m ρ m' ρ' _ hagree
  refine ⟨fun c => Cert.KernelIdeal.ValueRun.kTail (Cert.Gcn.Out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))),
    fun c => Cert.Gcn.Out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    fun c => Cert.Gcn.Feats (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono (fun r h c =>
      ⟨(h c).1.trans (Cert.KernelIdeal.ValueRun.kernel_logp m ρ c),
       (h c).2.1.trans (Cert.KernelIdeal.ValueRun.kernel_out m ρ c),
       (h c).2.2.1.trans (Cert.KernelIdeal.ValueRun.kernel_feats m ρ c),
       (h c).2.2.2⟩) (Cert.KernelIdeal.ValueRun.run_results (F := Ideal) m ρ)
  · refine (θ_run Cert.ReferenceIdeal.defs _ _).mono (fun r h c => ⟨(h c).1.trans ?_, (h c).2.1.trans ?_, (h c).2.2.1.trans ?_, (h c).2.2.2⟩)
      (Cert.ReferenceIdeal.Value.run (F := Ideal) m' ρ')
    · rw [Cert.ReferenceIdeal.Read.val_main_v78_eq, Cert.ReferenceIdeal.RefValue.ref_v78,
        (hagree c).1, (hagree c).2.1, (hagree c).2.2.1, (hagree c).2.2.2.1, (hagree c).2.2.2.2.1, (hagree c).2.2.2.2.2.1,
        (hagree c).2.2.2.2.2.2.1, (hagree c).2.2.2.2.2.2.2.1, (hagree c).2.2.2.2.2.2.2.2]
      exact (tail_eq _).symm
    · rw [Cert.ReferenceIdeal.Read.val_main_v77_eq, Cert.ReferenceIdeal.RefValue.ref_v77,
        (hagree c).1, (hagree c).2.1, (hagree c).2.2.1, (hagree c).2.2.2.1, (hagree c).2.2.2.2.1, (hagree c).2.2.2.2.2.1,
        (hagree c).2.2.2.2.2.2.1, (hagree c).2.2.2.2.2.2.2.1, (hagree c).2.2.2.2.2.2.2.2]
    · rw [Cert.ReferenceIdeal.Read.val_main_v85_eq, Cert.ReferenceIdeal.RefValue.ref_v85,
        (hagree c).1, (hagree c).2.1, (hagree c).2.2.1, (hagree c).2.2.2.1, (hagree c).2.2.2.2.1, (hagree c).2.2.2.2.2.1,
        (hagree c).2.2.2.2.2.2.1]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
